-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v186)) (v1 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_v223) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v289) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S25000x128 : Shape := ⟨2, ![25000, 128]⟩
abbrev S1600000 : Shape := ⟨1, ![1600000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S25000x128 : S_.BroadcastsInDim S25000x128 (![] : Fin 0 → Fin S25000x128.rank)
  reducesTo_S25000x128_S_d0_1 : S25000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg13 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_v33

def fn {F : FTy → Type} [FloatOps F] (main_arg0 : FVec F S100000x128 .f32) (main_arg1 : FVec F S25000x128 .f32) (main_arg2 : IVec S1600000 32) (main_arg3 : IVec S1600000 32) (main_arg4 : IVec S400000 32) (main_arg5 : IVec S400000 32) (main_arg6 : IVec S400000 32) (main_arg7 : IVec S400000 32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_v13 main_v16
-- ==== Kernel.lean ====
abbrev S100000x128 : Shape := ⟨2, ![100000, 128]⟩
abbrev S25000x128 : Shape := ⟨2, ![25000, 128]⟩
abbrev S1600000 : Shape := ⟨1, ![1600000]⟩
abbrev S400000 : Shape := ⟨1, ![400000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S25000 : Shape := ⟨1, ![25000]⟩
abbrev S400000x1 : Shape := ⟨2, ![400000, 1]⟩
abbrev S25000x1 : Shape := ⟨2, ![25000, 1]⟩
abbrev S400000x128 : Shape := ⟨2, ![400000, 128]⟩

abbrev nBuf : Space → Nat
  | .hbm => 310
  | .vmem => 84
  | .smem => 0
  | _ => 0

abbrev hbmTy0_0 (i : Nat) : BufTy := match i % 128 with
  | 0 => ⟨S100000x128, .f32⟩
  | 1 => ⟨S25000x128, .f32⟩
  | 2 => ⟨S1600000, .i32⟩
  | 3 => ⟨S1600000, .i32⟩
  | 4 => ⟨S400000, .i32⟩
  | 5 => ⟨S400000, .i32⟩
  | 6 => ⟨S400000, .i32⟩
  | 7 => ⟨S400000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S_, .f32⟩
  | 15 => ⟨S1600000, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S100000, .f32⟩
  | 27 => ⟨S_, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S100000, .f32⟩
  | 38 => ⟨S100000x1, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S100000x128, .f32⟩
  | 60 => ⟨S100000x1, .f32⟩
  | 61 => ⟨S1x128, .f32⟩
  | 62 => ⟨S100000x128, .f32⟩
  | 63 => ⟨S_, .f32⟩
  | 64 => ⟨S400000, .f32⟩
  | 65 => ⟨S_, .f32⟩
  | 66 => ⟨S25000, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S25000, .f32⟩
  | 76 => ⟨S_, .f32⟩
  | 77 => ⟨S100000, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S100000, .f32⟩
  | 87 => ⟨S25000x1, .f32⟩
  | 88 => ⟨S25000x128, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x128, .f32⟩
  | 98 => ⟨S_, .f32⟩
  | 99 => ⟨S100000x128, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S100000x128, .f32⟩
  | 109 => ⟨S100000x1, .f32⟩
  | 110 => ⟨S1x128, .f32⟩
  | 111 => ⟨S100000x128, .f32⟩
  | 112 => ⟨S100000x128, .f32⟩
  | 113 => ⟨S_, .f32⟩
  | 114 => ⟨S400000, .f32⟩
  | 115 => ⟨S_, .f32⟩
  | 116 => ⟨S100000, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S100000, .f32⟩
  | 126 => ⟨S_, .f32⟩
  | 127 => ⟨S25000, .f32⟩
  | _ => ⟨S100000x128, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S25000, .f32⟩
  | 9 => ⟨S100000x1, .f32⟩
  | 10 => ⟨S100000x128, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000x128, .f32⟩
  | 20 => ⟨S_, .f32⟩
  | 21 => ⟨S25000x128, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S25000x128, .f32⟩
  | 31 => ⟨S25000x1, .f32⟩
  | 32 => ⟨S1x128, .f32⟩
  | 33 => ⟨S25000x128, .f32⟩
  | 34 => ⟨S_, .f32⟩
  | 35 => ⟨S1600000, .f32⟩
  | 36 => ⟨S_, .f32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S100000, .f32⟩
  | 47 => ⟨S_, .f32⟩
  | 48 => ⟨S100000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S100000, .f32⟩
  | 58 => ⟨S100000x1, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S100000x128, .f32⟩
  | 80 => ⟨S100000x1, .f32⟩
  | 81 => ⟨S1x128, .f32⟩
  | 82 => ⟨S100000x128, .f32⟩
  | 83 => ⟨S_, .f32⟩
  | 84 => ⟨S400000, .f32⟩
  | 85 => ⟨S_, .f32⟩
  | 86 => ⟨S25000, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S25000, .f32⟩
  | 96 => ⟨S_, .f32⟩
  | 97 => ⟨S100000, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S100000, .f32⟩
  | 107 => ⟨S25000x1, .f32⟩
  | 108 => ⟨S25000x128, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x128, .f32⟩
  | 118 => ⟨S_, .f32⟩
  | 119 => ⟨S100000x128, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S100000x128, .f32⟩

abbrev hbmTy0_2 (i : Nat) : BufTy := match i % 128 with
  | 0 => ⟨S100000x128, .f32⟩
  | 1 => ⟨S100000x1, .f32⟩
  | 2 => ⟨S1x128, .f32⟩
  | 3 => ⟨S100000x128, .f32⟩
  | 4 => ⟨S100000x128, .f32⟩
  | 5 => ⟨S_, .f32⟩
  | 6 => ⟨S400000, .f32⟩
  | 7 => ⟨S_, .f32⟩
  | 8 => ⟨S100000, .f32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S100000, .f32⟩
  | 18 => ⟨S_, .f32⟩
  | 19 => ⟨S25000, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S25000, .f32⟩
  | 29 => ⟨S100000x1, .f32⟩
  | 30 => ⟨S100000x128, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x128, .f32⟩
  | 40 => ⟨S_, .f32⟩
  | 41 => ⟨S25000x128, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S25000x128, .f32⟩
  | 51 => ⟨S25000x1, .f32⟩
  | 52 => ⟨S1x128, .f32⟩
  | 53 => ⟨S25000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .f32⟩
  | .local _ .vmem, ⟨45, _⟩ => ⟨S5000x1, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x1, .f32⟩
  | .local _ .vmem, ⟨73, _⟩ => ⟨S5000x1, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x1, .f32⟩
  | .local _ .vmem, ⟨79, _⟩ => ⟨S5000x1, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_c_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_c_15 : Ref sig .tc := ⟨.hbm, 78, rfl⟩
abbrev main_v47 : Ref sig .tc := ⟨.hbm, 79, rfl⟩
abbrev main_v48 : Ref sig .tc := ⟨.hbm, 80, rfl⟩
abbrev main_c_16 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_17 : Ref sig .tc := ⟨.hbm, 89, rfl⟩
abbrev main_v56 : Ref sig .tc := ⟨.hbm, 90, rfl⟩
abbrev main_v57 : Ref sig .tc := ⟨.hbm, 91, rfl⟩
abbrev main_c_18 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_v63 : Ref sig .tc := ⟨.hbm, 99, rfl⟩
abbrev main_c_20 : Ref sig .tc := ⟨.hbm, 100, rfl⟩
abbrev main_v64 : Ref sig .tc := ⟨.hbm, 101, rfl⟩
abbrev main_v65 : Ref sig .tc := ⟨.hbm, 102, rfl⟩
abbrev main_c_21 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_22 : Ref sig .tc := ⟨.hbm, 113, rfl⟩
abbrev main_v75 : Ref sig .tc := ⟨.hbm, 114, rfl⟩
abbrev main_cst_23 : Ref sig .tc := ⟨.hbm, 115, rfl⟩
abbrev main_v76 : Ref sig .tc := ⟨.hbm, 116, rfl⟩
abbrev main_c_24 : Ref sig .tc := ⟨.hbm, 117, rfl⟩
abbrev main_v77 : Ref sig .tc := ⟨.hbm, 118, rfl⟩
abbrev main_v78 : Ref sig .tc := ⟨.hbm, 119, rfl⟩
abbrev main_c_25 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_26 : Ref sig .tc := ⟨.hbm, 126, rfl⟩
abbrev main_v84 : Ref sig .tc := ⟨.hbm, 127, rfl⟩
abbrev main_c_27 : Ref sig .tc := ⟨.hbm, 128, rfl⟩
abbrev main_v85 : Ref sig .tc := ⟨.hbm, 129, rfl⟩
abbrev main_v86 : Ref sig .tc := ⟨.hbm, 130, rfl⟩
abbrev main_c_28 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_29 : Ref sig .tc := ⟨.hbm, 139, rfl⟩
abbrev main_v94 : Ref sig .tc := ⟨.hbm, 140, rfl⟩
abbrev main_v95 : Ref sig .tc := ⟨.hbm, 141, rfl⟩
abbrev main_c_30 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_31 : Ref sig .tc := ⟨.hbm, 148, rfl⟩
abbrev main_v101 : Ref sig .tc := ⟨.hbm, 149, rfl⟩
abbrev main_c_32 : Ref sig .tc := ⟨.hbm, 150, rfl⟩
abbrev main_v102 : Ref sig .tc := ⟨.hbm, 151, rfl⟩
abbrev main_v103 : Ref sig .tc := ⟨.hbm, 152, rfl⟩
abbrev main_c_33 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_34 : Ref sig .tc := ⟨.hbm, 162, rfl⟩
abbrev main_v112 : Ref sig .tc := ⟨.hbm, 163, rfl⟩
abbrev main_cst_35 : Ref sig .tc := ⟨.hbm, 164, rfl⟩
abbrev main_v113 : Ref sig .tc := ⟨.hbm, 165, rfl⟩
abbrev main_c_36 : Ref sig .tc := ⟨.hbm, 166, rfl⟩
abbrev main_v114 : Ref sig .tc := ⟨.hbm, 167, rfl⟩
abbrev main_v115 : Ref sig .tc := ⟨.hbm, 168, rfl⟩
abbrev main_c_37 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_38 : Ref sig .tc := ⟨.hbm, 175, rfl⟩
abbrev main_v121 : Ref sig .tc := ⟨.hbm, 176, rfl⟩
abbrev main_c_39 : Ref sig .tc := ⟨.hbm, 177, rfl⟩
abbrev main_v122 : Ref sig .tc := ⟨.hbm, 178, rfl⟩
abbrev main_v123 : Ref sig .tc := ⟨.hbm, 179, rfl⟩
abbrev main_c_40 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_c_41 : Ref sig .tc := ⟨.hbm, 188, rfl⟩
abbrev main_v131 : Ref sig .tc := ⟨.hbm, 189, rfl⟩
abbrev main_v132 : Ref sig .tc := ⟨.hbm, 190, rfl⟩
abbrev main_c_42 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_43 : Ref sig .tc := ⟨.hbm, 197, rfl⟩
abbrev main_v138 : Ref sig .tc := ⟨.hbm, 198, rfl⟩
abbrev main_c_44 : Ref sig .tc := ⟨.hbm, 199, rfl⟩
abbrev main_v139 : Ref sig .tc := ⟨.hbm, 200, rfl⟩
abbrev main_v140 : Ref sig .tc := ⟨.hbm, 201, rfl⟩
abbrev main_c_45 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_46 : Ref sig .tc := ⟨.hbm, 211, rfl⟩
abbrev main_v149 : Ref sig .tc := ⟨.hbm, 212, rfl⟩
abbrev main_cst_47 : Ref sig .tc := ⟨.hbm, 213, rfl⟩
abbrev main_v150 : Ref sig .tc := ⟨.hbm, 214, rfl⟩
abbrev main_c_48 : Ref sig .tc := ⟨.hbm, 215, rfl⟩
abbrev main_v151 : Ref sig .tc := ⟨.hbm, 216, rfl⟩
abbrev main_v152 : Ref sig .tc := ⟨.hbm, 217, rfl⟩
abbrev main_c_49 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_50 : Ref sig .tc := ⟨.hbm, 224, rfl⟩
abbrev main_v158 : Ref sig .tc := ⟨.hbm, 225, rfl⟩
abbrev main_c_51 : Ref sig .tc := ⟨.hbm, 226, rfl⟩
abbrev main_v159 : Ref sig .tc := ⟨.hbm, 227, rfl⟩
abbrev main_v160 : Ref sig .tc := ⟨.hbm, 228, rfl⟩
abbrev main_c_52 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_c_53 : Ref sig .tc := ⟨.hbm, 237, rfl⟩
abbrev main_v168 : Ref sig .tc := ⟨.hbm, 238, rfl⟩
abbrev main_v169 : Ref sig .tc := ⟨.hbm, 239, rfl⟩
abbrev main_c_54 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_cst_55 : Ref sig .tc := ⟨.hbm, 246, rfl⟩
abbrev main_v175 : Ref sig .tc := ⟨.hbm, 247, rfl⟩
abbrev main_c_56 : Ref sig .tc := ⟨.hbm, 248, rfl⟩
abbrev main_v176 : Ref sig .tc := ⟨.hbm, 249, rfl⟩
abbrev main_v177 : Ref sig .tc := ⟨.hbm, 250, rfl⟩
abbrev main_c_57 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_cst_58 : Ref sig .tc := ⟨.hbm, 261, rfl⟩
abbrev main_v187 : Ref sig .tc := ⟨.hbm, 262, rfl⟩
abbrev main_cst_59 : Ref sig .tc := ⟨.hbm, 263, rfl⟩
abbrev main_v188 : Ref sig .tc := ⟨.hbm, 264, rfl⟩
abbrev main_c_60 : Ref sig .tc := ⟨.hbm, 265, rfl⟩
abbrev main_v189 : Ref sig .tc := ⟨.hbm, 266, rfl⟩
abbrev main_v190 : Ref sig .tc := ⟨.hbm, 267, rfl⟩
abbrev main_c_61 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_cst_62 : Ref sig .tc := ⟨.hbm, 274, rfl⟩
abbrev main_v196 : Ref sig .tc := ⟨.hbm, 275, rfl⟩
abbrev main_c_63 : Ref sig .tc := ⟨.hbm, 276, rfl⟩
abbrev main_v197 : Ref sig .tc := ⟨.hbm, 277, rfl⟩
abbrev main_v198 : Ref sig .tc := ⟨.hbm, 278, rfl⟩
abbrev main_c_64 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_c_65 : Ref sig .tc := ⟨.hbm, 287, rfl⟩
abbrev main_v206 : Ref sig .tc := ⟨.hbm, 288, rfl⟩
abbrev main_v207 : Ref sig .tc := ⟨.hbm, 289, rfl⟩
abbrev main_c_66 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_cst_67 : Ref sig .tc := ⟨.hbm, 296, rfl⟩
abbrev main_v213 : Ref sig .tc := ⟨.hbm, 297, rfl⟩
abbrev main_c_68 : Ref sig .tc := ⟨.hbm, 298, rfl⟩
abbrev main_v214 : Ref sig .tc := ⟨.hbm, 299, rfl⟩
abbrev main_v215 : Ref sig .tc := ⟨.hbm, 300, rfl⟩
abbrev main_c_69 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg1_1 : Ref sig .tc := ⟨.vmem, 79, rfl⟩
abbrev cc11_stg2_0 : Ref sig .tc := ⟨.vmem, 80, rfl⟩
abbrev cc11_stg3_0 : Ref sig .tc := ⟨.vmem, 81, rfl⟩
abbrev cc11_stg4_0 : Ref sig .tc := ⟨.vmem, 82, rfl⟩
abbrev cc11_stg4_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc11_sem0_0 : DmaSem sig := 76
abbrev cc11_sem0_1 : DmaSem sig := 77
abbrev cc11_sem1_0 : DmaSem sig := 78
abbrev cc11_sem1_1 : DmaSem sig := 79
abbrev cc11_sem2_0 : DmaSem sig := 80
abbrev cc11_sem3_0 : DmaSem sig := 81
abbrev cc11_sem4_0 : DmaSem sig := 82
abbrev cc11_sem4_1 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S400000 : S_.BroadcastsInDim S400000 (![] : Fin 0 → Fin S400000.rank)
  bcast_S_S25000 : S_.BroadcastsInDim S25000 (![] : Fin 0 → Fin S25000.rank)
  bcast_S400000_S400000x1_0 : S400000.BroadcastsInDim S400000x1 (![0] : Fin 1 → Fin S400000x1.rank)
  shapeCasts_S25000_S25000x1 : S25000.ShapeCasts S25000x1
  bcast_S_S25000x128 : S_.BroadcastsInDim S25000x128 (![] : Fin 0 → Fin S25000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S25000_S400000x1_S400000_n_0_0_1_wf : ScatterDims.WF S25000 S400000x1 S400000 [] [0] [0] 1
  scatter_S100000_S400000x1_S400000_n_0_0_1_wf : ScatterDims.WF S100000 S400000x1 S400000 [] [0] [0] 1
  gather_S25000x128_S400000x1_S400000x128_1_0_n_n_0_1_1128_wf : GatherDims.WF S25000x128 S400000x1 S400000x128 [1] [0] [] [0] [] 1 ![1, 128]
  scatter_S100000x128_S400000x1_S400000x128_1_0_0_1_wf : ScatterDims.WF S100000x128 S400000x1 S400000x128 [1] [0] [0] 1
  gather_S100000x128_S400000x1_S400000x128_1_0_n_n_0_1_1128_wf : GatherDims.WF S100000x128 S400000x1 S400000x128 [1] [0] [] [0] [] 1 ![1, 128]
  scatter_S25000x128_S400000x1_S400000x128_1_0_0_1_wf : ScatterDims.WF S25000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S25000x1.size a
  hwx2_1 : ∀ i : grid2.Coords, EltTy.bits .f32 = 32 ∨ (Rect.block (s := S25000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S25000x128.size a
  hwx2_2 : ∀ i : grid2.Coords, EltTy.bits .f32 = 32 ∨ (Rect.block (s := S25000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S25000x128.size a
  hwx5_0 : ∀ i : grid5.Coords, EltTy.bits .f32 = 32 ∨ (Rect.block (s := S25000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S25000x1.size a
  hwx5_1 : ∀ i : grid5.Coords, EltTy.bits .f32 = 32 ∨ (Rect.block (s := S25000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S25000x128.size a
  hwx5_4 : ∀ i : grid5.Coords, EltTy.bits .f32 = 32 ∨ (Rect.block (s := S25000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S25000x128.size a
  hwx8_0 : ∀ i : grid8.Coords, EltTy.bits .f32 = 32 ∨ (Rect.block (s := S25000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S25000x1.size a
  hwx8_1 : ∀ i : grid8.Coords, EltTy.bits .f32 = 32 ∨ (Rect.block (s := S25000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S25000x128.size a
  hwx8_2 : ∀ i : grid8.Coords, EltTy.bits .f32 = 32 ∨ (Rect.block (s := S25000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .f32 = 32 ∨ (Rect.block (s := S100000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S100000x128.size a
  hwx9_4 : ∀ i : grid9.Coords, EltTy.bits .f32 = 32 ∨ (Rect.block (s := S100000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S100000x128.size a
  hwx10_2 : ∀ i : grid10.Coords, EltTy.bits .f32 = 32 ∨ (Rect.block (s := S100000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S25000x128.size a
  hwx11_0 : ∀ i : grid11.Coords, EltTy.bits .f32 = 32 ∨ (Rect.block (s := S25000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S25000x1.size a
  hwx11_1 : ∀ i : grid11.Coords, EltTy.bits .f32 = 32 ∨ (Rect.block (s := S25000x1) S5000x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S25000x128.size a
  hwx11_4 : ∀ i : grid11.Coords, EltTy.bits .f32 = 32 ∨ (Rect.block (s := S25000x128) S5000x128.size (cc11_transform_4 i) (hinb11_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v130) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v145) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v146) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg8) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v147) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v148) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v111) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v166) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v167) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v182) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v183) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg12) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v184) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v185) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v74) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v204) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v205) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v220) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v221) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg10) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v222) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v223) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S100000x128 : Shape := ⟨2, ![100000, 128]⟩
abbrev S25000x128 : Shape := ⟨2, ![25000, 128]⟩
abbrev S1600000 : Shape := ⟨1, ![1600000]⟩
abbrev S400000 : Shape := ⟨1, ![400000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S25000 : Shape := ⟨1, ![25000]⟩
abbrev S400000x1 : Shape := ⟨2, ![400000, 1]⟩
abbrev S25000x1 : Shape := ⟨2, ![25000, 1]⟩
abbrev S400000x128 : Shape := ⟨2, ![400000, 128]⟩

abbrev nBuf : Space → Nat
  | .hbm => 388
  | .vmem => 0
  | .smem => 0
  | _ => 0

abbrev hbmTy0_0 (i : Nat) : BufTy := match i % 128 with
  | 0 => ⟨S100000x128, .f32⟩
  | 1 => ⟨S25000x128, .f32⟩
  | 2 => ⟨S1600000, .i32⟩
  | 3 => ⟨S1600000, .i32⟩
  | 4 => ⟨S400000, .i32⟩
  | 5 => ⟨S400000, .i32⟩
  | 6 => ⟨S400000, .i32⟩
  | 7 => ⟨S400000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S_, .f32⟩
  | 15 => ⟨S1600000, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S100000, .f32⟩
  | 27 => ⟨S_, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S_, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S100000x128, .f32⟩
  | 65 => ⟨S_, .f32⟩
  | 66 => ⟨S100000, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S400000, .f32⟩
  | 78 => ⟨S_, .f32⟩
  | 79 => ⟨S25000, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S25000, .f32⟩
  | 89 => ⟨S_, .f32⟩
  | 90 => ⟨S100000, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S100000, .f32⟩
  | 100 => ⟨S_, .f32⟩
  | 101 => ⟨S25000, .f32⟩
  | 102 => ⟨S25000, .f32⟩
  | 103 => ⟨S25000, .f32⟩
  | 104 => ⟨S25000x1, .f32⟩
  | 105 => ⟨S25000x128, .f32⟩
  | 106 => ⟨S25000x128, .f32⟩
  | 107 => ⟨S_, .f32⟩
  | 108 => ⟨S100000x128, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x128, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S100000x128, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S400000, .f32⟩
  | 13 => ⟨S_, .f32⟩
  | 14 => ⟨S100000, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S100000, .f32⟩
  | 24 => ⟨S_, .f32⟩
  | 25 => ⟨S25000, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S25000, .f32⟩
  | 35 => ⟨S_, .f32⟩
  | 36 => ⟨S100000, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S_, .f32⟩
  | 43 => ⟨S25000x128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x128, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S25000x128, .f32⟩
  | 62 => ⟨S_, .f32⟩
  | 63 => ⟨S25000, .f32⟩
  | 64 => ⟨S25000, .f32⟩
  | 65 => ⟨S25000, .f32⟩
  | 66 => ⟨S25000x1, .f32⟩
  | 67 => ⟨S25000x128, .f32⟩
  | 68 => ⟨S25000x128, .f32⟩
  | 69 => ⟨S25000x128, .f32⟩
  | 70 => ⟨S1x128, .f32⟩
  | 71 => ⟨S25000x128, .f32⟩
  | 72 => ⟨S25000x128, .f32⟩
  | 73 => ⟨S_, .f32⟩
  | 74 => ⟨S1600000, .f32⟩
  | 75 => ⟨S_, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S100000, .f32⟩
  | 86 => ⟨S_, .f32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S100000, .f32⟩
  | 97 => ⟨S_, .f32⟩
  | 98 => ⟨S100000, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S_, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S100000x128, .f32⟩
  | 124 => ⟨S_, .f32⟩
  | 125 => ⟨S100000, .f32⟩
  | 126 => ⟨S100000, .f32⟩
  | 127 => ⟨S100000, .f32⟩
  | _ => ⟨S100000x128, .f32⟩

abbrev hbmTy0_2 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S400000, .f32⟩
  | 9 => ⟨S_, .f32⟩
  | 10 => ⟨S25000, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S25000, .f32⟩
  | 20 => ⟨S_, .f32⟩
  | 21 => ⟨S100000, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S100000, .f32⟩
  | 31 => ⟨S_, .f32⟩
  | 32 => ⟨S25000, .f32⟩
  | 33 => ⟨S25000, .f32⟩
  | 34 => ⟨S25000, .f32⟩
  | 35 => ⟨S25000x1, .f32⟩
  | 36 => ⟨S25000x128, .f32⟩
  | 37 => ⟨S25000x128, .f32⟩
  | 38 => ⟨S_, .f32⟩
  | 39 => ⟨S100000x128, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x128, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S100000x128, .f32⟩
  | 58 => ⟨S_, .f32⟩
  | 59 => ⟨S100000, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S100000x128, .f32⟩
  | 70 => ⟨S_, .f32⟩
  | 71 => ⟨S400000, .f32⟩
  | 72 => ⟨S_, .f32⟩
  | 73 => ⟨S100000, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S100000, .f32⟩
  | 83 => ⟨S_, .f32⟩
  | 84 => ⟨S25000, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S25000, .f32⟩
  | 94 => ⟨S_, .f32⟩
  | 95 => ⟨S100000, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S_, .f32⟩
  | 102 => ⟨S25000x128, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S25000x128, .f32⟩
  | 121 => ⟨S_, .f32⟩
  | 122 => ⟨S25000, .f32⟩
  | 123 => ⟨S25000, .f32⟩
  | 124 => ⟨S25000, .f32⟩
  | 125 => ⟨S25000x1, .f32⟩
  | 126 => ⟨S25000x128, .f32⟩
  | 127 => ⟨S25000x128, .f32⟩
  | _ => ⟨S100000x128, .f32⟩

abbrev hbmTy0_3 (i : Nat) : BufTy := match i % 128 with
  | 0 => ⟨S25000x128, .f32⟩
  | 1 => ⟨S1x128, .f32⟩
  | 2 => ⟨S25000x128, .f32⟩
  | 3 => ⟨S25000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_c_8 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_c_10 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_cst_13 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v51 : Ref sig .tc := ⟨.hbm, 82, rfl⟩
abbrev main_c_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_c_17 : Ref sig .tc := ⟨.hbm, 91, rfl⟩
abbrev main_v58 : Ref sig .tc := ⟨.hbm, 92, rfl⟩
abbrev main_v59 : Ref sig .tc := ⟨.hbm, 93, rfl⟩
abbrev main_c_18 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_20 : Ref sig .tc := ⟨.hbm, 107, rfl⟩
abbrev main_v71 : Ref sig .tc := ⟨.hbm, 108, rfl⟩
abbrev main_c_21 : Ref sig .tc := ⟨.hbm, 109, rfl⟩
abbrev main_v72 : Ref sig .tc := ⟨.hbm, 110, rfl⟩
abbrev main_v73 : Ref sig .tc := ⟨.hbm, 111, rfl⟩
abbrev main_c_22 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_23 : Ref sig .tc := ⟨.hbm, 118, rfl⟩
abbrev main_v79 : Ref sig .tc := ⟨.hbm, 119, rfl⟩
abbrev main_v80 : Ref sig .tc := ⟨.hbm, 120, rfl⟩
abbrev main_c_24 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_25 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_26 : Ref sig .tc := ⟨.hbm, 139, rfl⟩
abbrev main_v97 : Ref sig .tc := ⟨.hbm, 140, rfl⟩
abbrev main_cst_27 : Ref sig .tc := ⟨.hbm, 141, rfl⟩
abbrev main_v98 : Ref sig .tc := ⟨.hbm, 142, rfl⟩
abbrev main_c_28 : Ref sig .tc := ⟨.hbm, 143, rfl⟩
abbrev main_v99 : Ref sig .tc := ⟨.hbm, 144, rfl⟩
abbrev main_v100 : Ref sig .tc := ⟨.hbm, 145, rfl⟩
abbrev main_c_29 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_30 : Ref sig .tc := ⟨.hbm, 152, rfl⟩
abbrev main_v106 : Ref sig .tc := ⟨.hbm, 153, rfl⟩
abbrev main_c_31 : Ref sig .tc := ⟨.hbm, 154, rfl⟩
abbrev main_v107 : Ref sig .tc := ⟨.hbm, 155, rfl⟩
abbrev main_v108 : Ref sig .tc := ⟨.hbm, 156, rfl⟩
abbrev main_c_32 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_33 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_34 : Ref sig .tc := ⟨.hbm, 170, rfl⟩
abbrev main_v120 : Ref sig .tc := ⟨.hbm, 171, rfl⟩
abbrev main_c_35 : Ref sig .tc := ⟨.hbm, 172, rfl⟩
abbrev main_v121 : Ref sig .tc := ⟨.hbm, 173, rfl⟩
abbrev main_v122 : Ref sig .tc := ⟨.hbm, 174, rfl⟩
abbrev main_c_36 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_c_37 : Ref sig .tc := ⟨.hbm, 181, rfl⟩
abbrev main_v128 : Ref sig .tc := ⟨.hbm, 182, rfl⟩
abbrev main_v129 : Ref sig .tc := ⟨.hbm, 183, rfl⟩
abbrev main_c_38 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_39 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_40 : Ref sig .tc := ⟨.hbm, 201, rfl⟩
abbrev main_v145 : Ref sig .tc := ⟨.hbm, 202, rfl⟩
abbrev main_cst_41 : Ref sig .tc := ⟨.hbm, 203, rfl⟩
abbrev main_v146 : Ref sig .tc := ⟨.hbm, 204, rfl⟩
abbrev main_c_42 : Ref sig .tc := ⟨.hbm, 205, rfl⟩
abbrev main_v147 : Ref sig .tc := ⟨.hbm, 206, rfl⟩
abbrev main_v148 : Ref sig .tc := ⟨.hbm, 207, rfl⟩
abbrev main_c_43 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_44 : Ref sig .tc := ⟨.hbm, 214, rfl⟩
abbrev main_v154 : Ref sig .tc := ⟨.hbm, 215, rfl⟩
abbrev main_c_45 : Ref sig .tc := ⟨.hbm, 216, rfl⟩
abbrev main_v155 : Ref sig .tc := ⟨.hbm, 217, rfl⟩
abbrev main_v156 : Ref sig .tc := ⟨.hbm, 218, rfl⟩
abbrev main_c_46 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_47 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_48 : Ref sig .tc := ⟨.hbm, 232, rfl⟩
abbrev main_v168 : Ref sig .tc := ⟨.hbm, 233, rfl⟩
abbrev main_c_49 : Ref sig .tc := ⟨.hbm, 234, rfl⟩
abbrev main_v169 : Ref sig .tc := ⟨.hbm, 235, rfl⟩
abbrev main_v170 : Ref sig .tc := ⟨.hbm, 236, rfl⟩
abbrev main_c_50 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_c_51 : Ref sig .tc := ⟨.hbm, 243, rfl⟩
abbrev main_v176 : Ref sig .tc := ⟨.hbm, 244, rfl⟩
abbrev main_v177 : Ref sig .tc := ⟨.hbm, 245, rfl⟩
abbrev main_c_52 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_53 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_cst_54 : Ref sig .tc := ⟨.hbm, 263, rfl⟩
abbrev main_v193 : Ref sig .tc := ⟨.hbm, 264, rfl⟩
abbrev main_cst_55 : Ref sig .tc := ⟨.hbm, 265, rfl⟩
abbrev main_v194 : Ref sig .tc := ⟨.hbm, 266, rfl⟩
abbrev main_c_56 : Ref sig .tc := ⟨.hbm, 267, rfl⟩
abbrev main_v195 : Ref sig .tc := ⟨.hbm, 268, rfl⟩
abbrev main_v196 : Ref sig .tc := ⟨.hbm, 269, rfl⟩
abbrev main_c_57 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_58 : Ref sig .tc := ⟨.hbm, 276, rfl⟩
abbrev main_v202 : Ref sig .tc := ⟨.hbm, 277, rfl⟩
abbrev main_c_59 : Ref sig .tc := ⟨.hbm, 278, rfl⟩
abbrev main_v203 : Ref sig .tc := ⟨.hbm, 279, rfl⟩
abbrev main_v204 : Ref sig .tc := ⟨.hbm, 280, rfl⟩
abbrev main_c_60 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_cst_61 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_cst_62 : Ref sig .tc := ⟨.hbm, 294, rfl⟩
abbrev main_v216 : Ref sig .tc := ⟨.hbm, 295, rfl⟩
abbrev main_c_63 : Ref sig .tc := ⟨.hbm, 296, rfl⟩
abbrev main_v217 : Ref sig .tc := ⟨.hbm, 297, rfl⟩
abbrev main_v218 : Ref sig .tc := ⟨.hbm, 298, rfl⟩
abbrev main_c_64 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_c_65 : Ref sig .tc := ⟨.hbm, 305, rfl⟩
abbrev main_v224 : Ref sig .tc := ⟨.hbm, 306, rfl⟩
abbrev main_v225 : Ref sig .tc := ⟨.hbm, 307, rfl⟩
abbrev main_c_66 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_cst_67 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_cst_68 : Ref sig .tc := ⟨.hbm, 326, rfl⟩
abbrev main_v242 : Ref sig .tc := ⟨.hbm, 327, rfl⟩
abbrev main_cst_69 : Ref sig .tc := ⟨.hbm, 328, rfl⟩
abbrev main_v243 : Ref sig .tc := ⟨.hbm, 329, rfl⟩
abbrev main_c_70 : Ref sig .tc := ⟨.hbm, 330, rfl⟩
abbrev main_v244 : Ref sig .tc := ⟨.hbm, 331, rfl⟩
abbrev main_v245 : Ref sig .tc := ⟨.hbm, 332, rfl⟩
abbrev main_c_71 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_cst_72 : Ref sig .tc := ⟨.hbm, 339, rfl⟩
abbrev main_v251 : Ref sig .tc := ⟨.hbm, 340, rfl⟩
abbrev main_c_73 : Ref sig .tc := ⟨.hbm, 341, rfl⟩
abbrev main_v252 : Ref sig .tc := ⟨.hbm, 342, rfl⟩
abbrev main_v253 : Ref sig .tc := ⟨.hbm, 343, rfl⟩
abbrev main_c_74 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_cst_75 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_cst_76 : Ref sig .tc := ⟨.hbm, 357, rfl⟩
abbrev main_v265 : Ref sig .tc := ⟨.hbm, 358, rfl⟩
abbrev main_c_77 : Ref sig .tc := ⟨.hbm, 359, rfl⟩
abbrev main_v266 : Ref sig .tc := ⟨.hbm, 360, rfl⟩
abbrev main_v267 : Ref sig .tc := ⟨.hbm, 361, rfl⟩
abbrev main_c_78 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_c_79 : Ref sig .tc := ⟨.hbm, 368, rfl⟩
abbrev main_v273 : Ref sig .tc := ⟨.hbm, 369, rfl⟩
abbrev main_v274 : Ref sig .tc := ⟨.hbm, 370, rfl⟩
abbrev main_c_80 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_cst_81 : Ref sig .tc := ⟨.hbm, 377, rfl⟩
abbrev main_v280 : Ref sig .tc := ⟨.hbm, 378, rfl⟩
abbrev main_v281 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S400000 : S_.BroadcastsInDim S400000 (![] : Fin 0 → Fin S400000.rank)
  bcast_S_S25000 : S_.BroadcastsInDim S25000 (![] : Fin 0 → Fin S25000.rank)
  bcast_S400000_S400000x1_0 : S400000.BroadcastsInDim S400000x1 (![0] : Fin 1 → Fin S400000x1.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S_S25000x128 : S_.BroadcastsInDim S25000x128 (![] : Fin 0 → Fin S25000x128.rank)
  bcast_S1x128_S25000x128_0_1 : S1x128.BroadcastsInDim S25000x128 (![0, 1] : Fin 2 → Fin S25000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S25000_S400000x1_S400000_n_0_0_1_wf : ScatterDims.WF S25000 S400000x1 S400000 [] [0] [0] 1
  scatter_S100000_S400000x1_S400000_n_0_0_1_wf : ScatterDims.WF S100000 S400000x1 S400000 [] [0] [0] 1
  gather_S25000x128_S400000x1_S400000x128_1_0_n_n_0_1_1128_wf : GatherDims.WF S25000x128 S400000x1 S400000x128 [1] [0] [] [0] [] 1 ![1, 128]
  scatter_S100000x128_S400000x1_S400000x128_1_0_0_1_wf : ScatterDims.WF S100000x128 S400000x1 S400000x128 [1] [0] [0] 1
  gather_S100000x128_S400000x1_S400000x128_1_0_n_n_0_1_1128_wf : GatherDims.WF S100000x128 S400000x1 S400000x128 [1] [0] [] [0] [] 1 ![1, 128]
  scatter_S25000x128_S400000x1_S400000x128_1_0_0_1_wf : ScatterDims.WF S25000x128 S400000x1 S400000x128 [1] [0] [0] 1
  dot_S25000x128_S128x128_S25000x128_1_0_0_1_n_n_wf : DotDims.WF S25000x128 S128x128 S25000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf

class Facts : Prop extends Facts₀ where

variable [Facts]
-- ==== Proof.KStages.lean ====
/-
  How a buffer's contents travel through the kernel program's run.

  The run alternates stretches of host operations with pallas regions; the contents of every buffer at each of the 25
  boundaries are a fold from the launch memory. A stretch changes only the buffers its operations write; a region changes
  only its output array. So a buffer keeps its contents across every stretch that does not write it and every region
  whose output it is not — in particular the fourteen argument arrays, which nothing writes, hold their launch contents at
  every boundary.
-/
import proofs.«158240_j69793218560324_1_alg».proof.Proof.Gen.KernelIdeal.Frame
import Idealize.ShloMosaic.PureOps.Ideal

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A buffer a stretch of host operations does not write keeps its contents across it: the goal is
    `StableHlo.after ops W b = W b` for a literal stretch and a literal buffer. -/
macro "host_keep" : tactic =>
  `(tactic| (refine StableHlo.after_of_forall_not_mem _ _ (List.forall_iff_forall_mem.mp (by
      simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))))

/-! ## Regions keep what they do not write -/

/-- Region 0 rewrites only its output array: every other buffer leaves the region as it entered (an input array is
    read, never written back). -/
theorem keepR0 (c : Dev nD) (b : Ref sig .tc) (hb : Pipeline.arrRef spec0 2 ≠ b) :
    W2 m ρ c (Proc.devRef .tc b) = W1 m ρ c (Proc.devRef .tc b) := by
  by_cases h0 : Pipeline.arrRef spec0 0 = b
  · subst h0
    exact (W2_arr m ρ c 0).trans (((dat0 (V1 m ρ) c).arrAt_in 0 rfl _).trans (A_eq0 (V1 m ρ) c 0))
  by_cases h1 : Pipeline.arrRef spec0 1 = b
  · subst h1
    exact (W2_arr m ρ c 1).trans (((dat0 (V1 m ρ) c).arrAt_in 1 rfl _).trans (A_eq0 (V1 m ρ) c 1))
  exact W2_of_ne m ρ c b (fun w => match w with | ⟨0, _⟩ => h0 | ⟨1, _⟩ => h1 | ⟨2, _⟩ => hb)

/-- Region 1 rewrites only its output array: every other buffer leaves the region as it entered (an input array is
    read, never written back). -/
theorem keepR1 (c : Dev nD) (b : Ref sig .tc) (hb : Pipeline.arrRef spec1 4 ≠ b) :
    W4 m ρ c (Proc.devRef .tc b) = W3 m ρ c (Proc.devRef .tc b) := by
  by_cases h0 : Pipeline.arrRef spec1 0 = b
  · subst h0
    exact (W4_arr m ρ c 0).trans (((dat1 (V3 m ρ) c).arrAt_in 0 rfl _).trans (A_eq1 (V3 m ρ) c 0))
  by_cases h1 : Pipeline.arrRef spec1 1 = b
  · subst h1
    exact (W4_arr m ρ c 1).trans (((dat1 (V3 m ρ) c).arrAt_in 1 rfl _).trans (A_eq1 (V3 m ρ) c 1))
  by_cases h2 : Pipeline.arrRef spec1 2 = b
  · subst h2
    exact (W4_arr m ρ c 2).trans (((dat1 (V3 m ρ) c).arrAt_in 2 rfl _).trans (A_eq1 (V3 m ρ) c 2))
  by_cases h3 : Pipeline.arrRef spec1 3 = b
  · subst h3
    exact (W4_arr m ρ c 3).trans (((dat1 (V3 m ρ) c).arrAt_in 3 rfl _).trans (A_eq1 (V3 m ρ) c 3))
  exact W4_of_ne m ρ c b (fun w => match w with | ⟨0, _⟩ => h0 | ⟨1, _⟩ => h1 | ⟨2, _⟩ => h2 | ⟨3, _⟩ => h3 | ⟨4, _⟩ => hb)

/-- Region 2 rewrites only its output array: every other buffer leaves the region as it entered (an input array is
    read, never written back). -/
theorem keepR2 (c : Dev nD) (b : Ref sig .tc) (hb : Pipeline.arrRef spec2 2 ≠ b) :
    W6 m ρ c (Proc.devRef .tc b) = W5 m ρ c (Proc.devRef .tc b) := by
  by_cases h0 : Pipeline.arrRef spec2 0 = b
  · subst h0
    exact (W6_arr m ρ c 0).trans (((dat2 (V5 m ρ) c).arrAt_in 0 rfl _).trans (A_eq2 (V5 m ρ) c 0))
  by_cases h1 : Pipeline.arrRef spec2 1 = b
  · subst h1
    exact (W6_arr m ρ c 1).trans (((dat2 (V5 m ρ) c).arrAt_in 1 rfl _).trans (A_eq2 (V5 m ρ) c 1))
  exact W6_of_ne m ρ c b (fun w => match w with | ⟨0, _⟩ => h0 | ⟨1, _⟩ => h1 | ⟨2, _⟩ => hb)

/-- Region 3 rewrites only its output array: every other buffer leaves the region as it entered (an input array is
    read, never written back). -/
theorem keepR3 (c : Dev nD) (b : Ref sig .tc) (hb : Pipeline.arrRef spec3 4 ≠ b) :
    W8 m ρ c (Proc.devRef .tc b) = W7 m ρ c (Proc.devRef .tc b) := by
  by_cases h0 : Pipeline.arrRef spec3 0 = b
  · subst h0
    exact (W8_arr m ρ c 0).trans (((dat3 (V7 m ρ) c).arrAt_in 0 rfl _).trans (A_eq3 (V7 m ρ) c 0))
  by_cases h1 : Pipeline.arrRef spec3 1 = b
  · subst h1
    exact (W8_arr m ρ c 1).trans (((dat3 (V7 m ρ) c).arrAt_in 1 rfl _).trans (A_eq3 (V7 m ρ) c 1))
  by_cases h2 : Pipeline.arrRef spec3 2 = b
  · subst h2
    exact (W8_arr m ρ c 2).trans (((dat3 (V7 m ρ) c).arrAt_in 2 rfl _).trans (A_eq3 (V7 m ρ) c 2))
  by_cases h3 : Pipeline.arrRef spec3 3 = b
  · subst h3
    exact (W8_arr m ρ c 3).trans (((dat3 (V7 m ρ) c).arrAt_in 3 rfl _).trans (A_eq3 (V7 m ρ) c 3))
  exact W8_of_ne m ρ c b (fun w => match w with | ⟨0, _⟩ => h0 | ⟨1, _⟩ => h1 | ⟨2, _⟩ => h2 | ⟨3, _⟩ => h3 | ⟨4, _⟩ => hb)

/-- Region 4 rewrites only its output array: every other buffer leaves the region as it entered (an input array is
    read, never written back). -/
theorem keepR4 (c : Dev nD) (b : Ref sig .tc) (hb : Pipeline.arrRef spec4 2 ≠ b) :
    W10 m ρ c (Proc.devRef .tc b) = W9 m ρ c (Proc.devRef .tc b) := by
  by_cases h0 : Pipeline.arrRef spec4 0 = b
  · subst h0
    exact (W10_arr m ρ c 0).trans (((dat4 (V9 m ρ) c).arrAt_in 0 rfl _).trans (A_eq4 (V9 m ρ) c 0))
  by_cases h1 : Pipeline.arrRef spec4 1 = b
  · subst h1
    exact (W10_arr m ρ c 1).trans (((dat4 (V9 m ρ) c).arrAt_in 1 rfl _).trans (A_eq4 (V9 m ρ) c 1))
  exact W10_of_ne m ρ c b (fun w => match w with | ⟨0, _⟩ => h0 | ⟨1, _⟩ => h1 | ⟨2, _⟩ => hb)

/-- Region 5 rewrites only its output array: every other buffer leaves the region as it entered (an input array is
    read, never written back). -/
theorem keepR5 (c : Dev nD) (b : Ref sig .tc) (hb : Pipeline.arrRef spec5 4 ≠ b) :
    W12 m ρ c (Proc.devRef .tc b) = W11 m ρ c (Proc.devRef .tc b) := by
  by_cases h0 : Pipeline.arrRef spec5 0 = b
  · subst h0
    exact (W12_arr m ρ c 0).trans (((dat5 (V11 m ρ) c).arrAt_in 0 rfl _).trans (A_eq5 (V11 m ρ) c 0))
  by_cases h1 : Pipeline.arrRef spec5 1 = b
  · subst h1
    exact (W12_arr m ρ c 1).trans (((dat5 (V11 m ρ) c).arrAt_in 1 rfl _).trans (A_eq5 (V11 m ρ) c 1))
  by_cases h2 : Pipeline.arrRef spec5 2 = b
  · subst h2
    exact (W12_arr m ρ c 2).trans (((dat5 (V11 m ρ) c).arrAt_in 2 rfl _).trans (A_eq5 (V11 m ρ) c 2))
  by_cases h3 : Pipeline.arrRef spec5 3 = b
  · subst h3
    exact (W12_arr m ρ c 3).trans (((dat5 (V11 m ρ) c).arrAt_in 3 rfl _).trans (A_eq5 (V11 m ρ) c 3))
  exact W12_of_ne m ρ c b (fun w => match w with | ⟨0, _⟩ => h0 | ⟨1, _⟩ => h1 | ⟨2, _⟩ => h2 | ⟨3, _⟩ => h3 | ⟨4, _⟩ => hb)

/-- Region 6 rewrites only its output array: every other buffer leaves the region as it entered (an input array is
    read, never written back). -/
theorem keepR6 (c : Dev nD) (b : Ref sig .tc) (hb : Pipeline.arrRef spec6 2 ≠ b) :
    W14 m ρ c (Proc.devRef .tc b) = W13 m ρ c (Proc.devRef .tc b) := by
  by_cases h0 : Pipeline.arrRef spec6 0 = b
  · subst h0
    exact (W14_arr m ρ c 0).trans (((dat6 (V13 m ρ) c).arrAt_in 0 rfl _).trans (A_eq6 (V13 m ρ) c 0))
  by_cases h1 : Pipeline.arrRef spec6 1 = b
  · subst h1
    exact (W14_arr m ρ c 1).trans (((dat6 (V13 m ρ) c).arrAt_in 1 rfl _).trans (A_eq6 (V13 m ρ) c 1))
  exact W14_of_ne m ρ c b (fun w => match w with | ⟨0, _⟩ => h0 | ⟨1, _⟩ => h1 | ⟨2, _⟩ => hb)

/-- Region 7 rewrites only its output array: every other buffer leaves the region as it entered (an input array is
    read, never written back). -/
theorem keepR7 (c : Dev nD) (b : Ref sig .tc) (hb : Pipeline.arrRef spec7 4 ≠ b) :
    W16 m ρ c (Proc.devRef .tc b) = W15 m ρ c (Proc.devRef .tc b) := by
  by_cases h0 : Pipeline.arrRef spec7 0 = b
  · subst h0
    exact (W16_arr m ρ c 0).trans (((dat7 (V15 m ρ) c).arrAt_in 0 rfl _).trans (A_eq7 (V15 m ρ) c 0))
  by_cases h1 : Pipeline.arrRef spec7 1 = b
  · subst h1
    exact (W16_arr m ρ c 1).trans (((dat7 (V15 m ρ) c).arrAt_in 1 rfl _).trans (A_eq7 (V15 m ρ) c 1))
  by_cases h2 : Pipeline.arrRef spec7 2 = b
  · subst h2
    exact (W16_arr m ρ c 2).trans (((dat7 (V15 m ρ) c).arrAt_in 2 rfl _).trans (A_eq7 (V15 m ρ) c 2))
  by_cases h3 : Pipeline.arrRef spec7 3 = b
  · subst h3
    exact (W16_arr m ρ c 3).trans (((dat7 (V15 m ρ) c).arrAt_in 3 rfl _).trans (A_eq7 (V15 m ρ) c 3))
  exact W16_of_ne m ρ c b (fun w => match w with | ⟨0, _⟩ => h0 | ⟨1, _⟩ => h1 | ⟨2, _⟩ => h2 | ⟨3, _⟩ => h3 | ⟨4, _⟩ => hb)

/-- Region 8 rewrites only its output array: every other buffer leaves the region as it entered (an input array is
    read, never written back). -/
theorem keepR8 (c : Dev nD) (b : Ref sig .tc) (hb : Pipeline.arrRef spec8 2 ≠ b) :
    W18 m ρ c (Proc.devRef .tc b) = W17 m ρ c (Proc.devRef .tc b) := by
  by_cases h0 : Pipeline.arrRef spec8 0 = b
  · subst h0
    exact (W18_arr m ρ c 0).trans (((dat8 (V17 m ρ) c).arrAt_in 0 rfl _).trans (A_eq8 (V17 m ρ) c 0))
  by_cases h1 : Pipeline.arrRef spec8 1 = b
  · subst h1
    exact (W18_arr m ρ c 1).trans (((dat8 (V17 m ρ) c).arrAt_in 1 rfl _).trans (A_eq8 (V17 m ρ) c 1))
  exact W18_of_ne m ρ c b (fun w => match w with | ⟨0, _⟩ => h0 | ⟨1, _⟩ => h1 | ⟨2, _⟩ => hb)

/-- Region 9 rewrites only its output array: every other buffer leaves the region as it entered (an input array is
    read, never written back). -/
theorem keepR9 (c : Dev nD) (b : Ref sig .tc) (hb : Pipeline.arrRef spec9 4 ≠ b) :
    W20 m ρ c (Proc.devRef .tc b) = W19 m ρ c (Proc.devRef .tc b) := by
  by_cases h0 : Pipeline.arrRef spec9 0 = b
  · subst h0
    exact (W20_arr m ρ c 0).trans (((dat9 (V19 m ρ) c).arrAt_in 0 rfl _).trans (A_eq9 (V19 m ρ) c 0))
  by_cases h1 : Pipeline.arrRef spec9 1 = b
  · subst h1
    exact (W20_arr m ρ c 1).trans (((dat9 (V19 m ρ) c).arrAt_in 1 rfl _).trans (A_eq9 (V19 m ρ) c 1))
  by_cases h2 : Pipeline.arrRef spec9 2 = b
  · subst h2
    exact (W20_arr m ρ c 2).trans (((dat9 (V19 m ρ) c).arrAt_in 2 rfl _).trans (A_eq9 (V19 m ρ) c 2))
  by_cases h3 : Pipeline.arrRef spec9 3 = b
  · subst h3
    exact (W20_arr m ρ c 3).trans (((dat9 (V19 m ρ) c).arrAt_in 3 rfl _).trans (A_eq9 (V19 m ρ) c 3))
  exact W20_of_ne m ρ c b (fun w => match w with | ⟨0, _⟩ => h0 | ⟨1, _⟩ => h1 | ⟨2, _⟩ => h2 | ⟨3, _⟩ => h3 | ⟨4, _⟩ => hb)

/-- Region 10 rewrites only its output array: every other buffer leaves the region as it entered (an input array is
    read, never written back). -/
theorem keepR10 (c : Dev nD) (b : Ref sig .tc) (hb : Pipeline.arrRef spec10 2 ≠ b) :
    W22 m ρ c (Proc.devRef .tc b) = W21 m ρ c (Proc.devRef .tc b) := by
  by_cases h0 : Pipeline.arrRef spec10 0 = b
  · subst h0
    exact (W22_arr m ρ c 0).trans (((dat10 (V21 m ρ) c).arrAt_in 0 rfl _).trans (A_eq10 (V21 m ρ) c 0))
  by_cases h1 : Pipeline.arrRef spec10 1 = b
  · subst h1
    exact (W22_arr m ρ c 1).trans (((dat10 (V21 m ρ) c).arrAt_in 1 rfl _).trans (A_eq10 (V21 m ρ) c 1))
  exact W22_of_ne m ρ c b (fun w => match w with | ⟨0, _⟩ => h0 | ⟨1, _⟩ => h1 | ⟨2, _⟩ => hb)

/-- Region 11 rewrites only its output array: every other buffer leaves the region as it entered (an input array is
    read, never written back). -/
theorem keepR11 (c : Dev nD) (b : Ref sig .tc) (hb : Pipeline.arrRef spec11 4 ≠ b) :
    W24 m ρ c (Proc.devRef .tc b) = W23 m ρ c (Proc.devRef .tc b) := by
  by_cases h0 : Pipeline.arrRef spec11 0 = b
  · subst h0
    exact (W24_arr m ρ c 0).trans (((dat11 (V23 m ρ) c).arrAt_in 0 rfl _).trans (A_eq11 (V23 m ρ) c 0))
  by_cases h1 : Pipeline.arrRef spec11 1 = b
  · subst h1
    exact (W24_arr m ρ c 1).trans (((dat11 (V23 m ρ) c).arrAt_in 1 rfl _).trans (A_eq11 (V23 m ρ) c 1))
  by_cases h2 : Pipeline.arrRef spec11 2 = b
  · subst h2
    exact (W24_arr m ρ c 2).trans (((dat11 (V23 m ρ) c).arrAt_in 2 rfl _).trans (A_eq11 (V23 m ρ) c 2))
  by_cases h3 : Pipeline.arrRef spec11 3 = b
  · subst h3
    exact (W24_arr m ρ c 3).trans (((dat11 (V23 m ρ) c).arrAt_in 3 rfl _).trans (A_eq11 (V23 m ρ) c 3))
  exact W24_of_ne m ρ c b (fun w => match w with | ⟨0, _⟩ => h0 | ⟨1, _⟩ => h1 | ⟨2, _⟩ => h2 | ⟨3, _⟩ => h3 | ⟨4, _⟩ => hb)

/-! ## The argument arrays at every boundary -/

/-- One of the fourteen argument arrays: the first fourteen buffers of the program. -/
abbrev IsArg (b : Ref sig .tc) : Prop := b.idx.val < 14

theorem argH0 (c : Dev nD) (b : Ref sig .tc) (hb : IsArg b) :
    W1 m ρ c (Proc.devRef .tc b) = W0 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH1 (c : Dev nD) (b : Ref sig .tc) (hb : IsArg b) :
    W3 m ρ c (Proc.devRef .tc b) = W2 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH2 (c : Dev nD) (b : Ref sig .tc) (hb : IsArg b) :
    W5 m ρ c (Proc.devRef .tc b) = W4 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH3 (c : Dev nD) (b : Ref sig .tc) (hb : IsArg b) :
    W7 m ρ c (Proc.devRef .tc b) = W6 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH4 (c : Dev nD) (b : Ref sig .tc) (hb : IsArg b) :
    W9 m ρ c (Proc.devRef .tc b) = W8 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH5 (c : Dev nD) (b : Ref sig .tc) (hb : IsArg b) :
    W11 m ρ c (Proc.devRef .tc b) = W10 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH6 (c : Dev nD) (b : Ref sig .tc) (hb : IsArg b) :
    W13 m ρ c (Proc.devRef .tc b) = W12 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH7 (c : Dev nD) (b : Ref sig .tc) (hb : IsArg b) :
    W15 m ρ c (Proc.devRef .tc b) = W14 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH8 (c : Dev nD) (b : Ref sig .tc) (hb : IsArg b) :
    W17 m ρ c (Proc.devRef .tc b) = W16 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH9 (c : Dev nD) (b : Ref sig .tc) (hb : IsArg b) :
    W19 m ρ c (Proc.devRef .tc b) = W18 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH10 (c : Dev nD) (b : Ref sig .tc) (hb : IsArg b) :
    W21 m ρ c (Proc.devRef .tc b) = W20 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argH11 (c : Dev nD) (b : Ref sig .tc) (hb : IsArg b) :
    W23 m ρ c (Proc.devRef .tc b) = W22 m ρ c (Proc.devRef .tc b) :=
  StableHlo.after_of_forall_not_mem (b := Proc.devRef .tc b) _ _ (List.forall_iff_forall_mem.mp (by
    simp only [hostOps0, hostOps1, hostOps2, hostOps3, hostOps4, hostOps5, hostOps6, hostOps7, hostOps8, hostOps9, hostOps10, hostOps11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => by subst h; exact absurd hb (by decide))))

theorem argAt0 (c : Dev nD) (b : Ref sig .tc) (hb : IsArg b) :
    W0 m ρ c (Proc.devRef .tc b) = m ((c : Thread nD τ).loc b) := rfl

theorem argAt1 (c : Dev nD) (b : Ref sig .tc) (hb : IsArg b) :
    W1 m ρ c (Proc.devRef .tc b) = m ((c : Thread nD τ).loc b) := (argH0 m ρ c b hb).trans (argAt0 m ρ c b hb)

theorem argAt2 (c : Dev nD) (b : Ref sig .tc) (hb : IsArg b) :
    W2 m ρ c (Proc.devRef .tc b) = m ((c : Thread nD τ).loc b) :=
  (keepR0 m ρ c b (fun h => by subst h; exact absurd hb (by decide))).trans (argAt1 m ρ c b hb)

theorem argAt3 (c : Dev nD) (b : Ref sig .tc) (hb : IsArg b) :
    W3 m ρ c (Proc.devRef .tc b) = m ((c : Thread nD τ).loc b) := (argH1 m ρ c b hb).trans (argAt2 m ρ c b hb)

theorem argAt4 (c : Dev nD) (b : Ref sig .tc) (hb : IsArg b) :
    W4 m ρ c (Proc.devRef .tc b) = m ((c : Thread nD τ).loc b) :=
  (keepR1 m ρ c b (fun h => by subst h; exact absurd hb (by decide))).trans (argAt3 m ρ c b hb)

theorem argAt5 (c : Dev nD) (b : Ref sig .tc) (hb : IsArg b) :
    W5 m ρ c (Proc.devRef .tc b) = m ((c : Thread nD τ).loc b) := (argH2 m ρ c b hb).trans (argAt4 m ρ c b hb)

theorem argAt6 (c : Dev nD) (b : Ref sig .tc) (hb : IsArg b) :
    W6 m ρ c (Proc.devRef .tc b) = m ((c : Thread nD τ).loc b) :=
  (keepR2 m ρ c b (fun h => by subst h; exact absurd hb (by decide))).trans (argAt5 m ρ c b hb)

theorem argAt7 (c : Dev nD) (b : Ref sig .tc) (hb : IsArg b) :
    W7 m ρ c (Proc.devRef .tc b) = m ((c : Thread nD τ).loc b) := (argH3 m ρ c b hb).trans (argAt6 m ρ c b hb)

theorem argAt8 (c : Dev nD) (b : Ref sig .tc) (hb : IsArg b) :
    W8 m ρ c (Proc.devRef .tc b) = m ((c : Thread nD τ).loc b) :=
  (keepR3 m ρ c b (fun h => by subst h; exact absurd hb (by decide))).trans (argAt7 m ρ c b hb)

theorem argAt9 (c : Dev nD) (b : Ref sig .tc) (hb : IsArg b) :
    W9 m ρ c (Proc.devRef .tc b) = m ((c : Thread nD τ).loc b) := (argH4 m ρ c b hb).trans (argAt8 m ρ c b hb)

theorem argAt10 (c : Dev nD) (b : Ref sig .tc) (hb : IsArg b) :
    W10 m ρ c (Proc.devRef .tc b) = m ((c : Thread nD τ).loc b) :=
  (keepR4 m ρ c b (fun h => by subst h; exact absurd hb (by decide))).trans (argAt9 m ρ c b hb)

theorem argAt11 (c : Dev nD) (b : Ref sig .tc) (hb : IsArg b) :
    W11 m ρ c (Proc.devRef .tc b) = m ((c : Thread nD τ).loc b) := (argH5 m ρ c b hb).trans (argAt10 m ρ c b hb)

theorem argAt12 (c : Dev nD) (b : Ref sig .tc) (hb : IsArg b) :
    W12 m ρ c (Proc.devRef .tc b) = m ((c : Thread nD τ).loc b) :=
  (keepR5 m ρ c b (fun h => by subst h; exact absurd hb (by decide))).trans (argAt11 m ρ c b hb)

theorem argAt13 (c : Dev nD) (b : Ref sig .tc) (hb : IsArg b) :
    W13 m ρ c (Proc.devRef .tc b) = m ((c : Thread nD τ).loc b) := (argH6 m ρ c b hb).trans (argAt12 m ρ c b hb)

theorem argAt14 (c : Dev nD) (b : Ref sig .tc) (hb : IsArg b) :
    W14 m ρ c (Proc.devRef .tc b) = m ((c : Thread nD τ).loc b) :=
  (keepR6 m ρ c b (fun h => by subst h; exact absurd hb (by decide))).trans (argAt13 m ρ c b hb)

theorem argAt15 (c : Dev nD) (b : Ref sig .tc) (hb : IsArg b) :
    W15 m ρ c (Proc.devRef .tc b) = m ((c : Thread nD τ).loc b) := (argH7 m ρ c b hb).trans (argAt14 m ρ c b hb)

theorem argAt16 (c : Dev nD) (b : Ref sig .tc) (hb : IsArg b) :
    W16 m ρ c (Proc.devRef .tc b) = m ((c : Thread nD τ).loc b) :=
  (keepR7 m ρ c b (fun h => by subst h; exact absurd hb (by decide))).trans (argAt15 m ρ c b hb)

theorem argAt17 (c : Dev nD) (b : Ref sig .tc) (hb : IsArg b) :
    W17 m ρ c (Proc.devRef .tc b) = m ((c : Thread nD τ).loc b) := (argH8 m ρ c b hb).trans (argAt16 m ρ c b hb)

theorem argAt18 (c : Dev nD) (b : Ref sig .tc) (hb : IsArg b) :
    W18 m ρ c (Proc.devRef .tc b) = m ((c : Thread nD τ).loc b) :=
  (keepR8 m ρ c b (fun h => by subst h; exact absurd hb (by decide))).trans (argAt17 m ρ c b hb)

theorem argAt19 (c : Dev nD) (b : Ref sig .tc) (hb : IsArg b) :
    W19 m ρ c (Proc.devRef .tc b) = m ((c : Thread nD τ).loc b) := (argH9 m ρ c b hb).trans (argAt18 m ρ c b hb)

theorem argAt20 (c : Dev nD) (b : Ref sig .tc) (hb : IsArg b) :
    W20 m ρ c (Proc.devRef .tc b) = m ((c : Thread nD τ).loc b) :=
  (keepR9 m ρ c b (fun h => by subst h; exact absurd hb (by decide))).trans (argAt19 m ρ c b hb)

theorem argAt21 (c : Dev nD) (b : Ref sig .tc) (hb : IsArg b) :
    W21 m ρ c (Proc.devRef .tc b) = m ((c : Thread nD τ).loc b) := (argH10 m ρ c b hb).trans (argAt20 m ρ c b hb)

theorem argAt22 (c : Dev nD) (b : Ref sig .tc) (hb : IsArg b) :
    W22 m ρ c (Proc.devRef .tc b) = m ((c : Thread nD τ).loc b) :=
  (keepR10 m ρ c b (fun h => by subst h; exact absurd hb (by decide))).trans (argAt21 m ρ c b hb)

theorem argAt23 (c : Dev nD) (b : Ref sig .tc) (hb : IsArg b) :
    W23 m ρ c (Proc.devRef .tc b) = m ((c : Thread nD τ).loc b) := (argH11 m ρ c b hb).trans (argAt22 m ρ c b hb)

theorem argAt24 (c : Dev nD) (b : Ref sig .tc) (hb : IsArg b) :
    W24 m ρ c (Proc.devRef .tc b) = m ((c : Thread nD τ).loc b) :=
  (keepR11 m ρ c b (fun h => by subst h; exact absurd hb (by decide))).trans (argAt23 m ρ c b hb)

end Cert.KernelIdeal.Chain

end
-- ==== Proof.Spec.lean ====
/-
  The two dense per-node steps of a degree-normalised graph convolution, as functions of whole arrays over the
  extended reals, index by index.

  A node table has one row of 128 features per node. With d the (real-valued) degree of a node, its normalising
  factor is 1/√(max d 1). The first step scales every row of a table by its node's factor; the second scales the
  rows of an aggregated table the same way, multiplies by a 128 × 128 weight matrix and adds a bias row:
      out (r, q) = (∑ k, (a (r, k) · 1/√(max d_r 1)) · w (k, q)) + b q.
  The degrees arrive as a column [n, 1] and the bias as a row [1, 128].
-/
import Idealize.ShloMosaic.PureOps.Ideal
import Idealize.ShloMosaic.Lib.ValueIdx

noncomputable section

open scoped BigOperators

namespace Cert.Spec

open Idealize.ShloMosaic Idealize.ShloMosaic.ValueIdx

/-- A node table: n rows of 128 features. -/
abbrev Rows (n : Nat) : Shape := ⟨2, ![n, 128]⟩
/-- One value per node, as a column. -/
abbrev Col (n : Nat) : Shape := ⟨2, ![n, 1]⟩
/-- One value per node, flat. -/
abbrev Flat (n : Nat) : Shape := ⟨1, ![n]⟩
/-- The weight matrix. -/
abbrev Weights : Shape := ⟨2, ![128, 128]⟩
/-- The bias as a row. -/
abbrev BiasRow : Shape := ⟨2, ![1, 128]⟩

/-- The normalising factor of a node of degree d: 1/√(max d 1), the 1 being the float one. -/
def degScale (d : EReal) : EReal := Ideal.rsqrt (max d (Ideal.ofBits .f32 0x3F800000#32))

/-- Every row of the table scaled by its node's factor. -/
def scaleRows {n : Nat} (x : (Rows n).Idx → EReal) (d : (Col n).Idx → EReal) : (Rows n).Idx → EReal :=
  fun i => x i * degScale (d (ix2 (n0 := n) (n1 := 1) ⟨(i 0).val, idx2_lt0 i⟩ 0))

/-- The scaled rows times the weight matrix, plus the bias row. -/
def finalRows {n : Nat} (a : (Rows n).Idx → EReal) (d : (Col n).Idx → EReal) (w : Weights.Idx → EReal)
    (b : BiasRow.Idx → EReal) : (Rows n).Idx → EReal :=
  fun i => (∑ k : Fin 128, scaleRows a d (ix2 (n0 := n) (n1 := 128) ⟨(i 0).val, idx2_lt0 i⟩ k)
      * w (ix2 (n0 := 128) (n1 := 128) k ⟨(i 1).val, idx2_lt1 i⟩))
    + b (ix2 (n0 := 1) (n1 := 128) 0 ⟨(i 1).val, idx2_lt1 i⟩)

/-- The scaled table at row p, feature q. -/
theorem scaleRows_apply {n : Nat} (x : (Rows n).Idx → EReal) (d : (Col n).Idx → EReal) (p : Fin n) (q : Fin 128) :
    scaleRows x d (ix2 p q) = x (ix2 p q) * degScale (d (ix2 p 0)) := rfl

/-- The finished table at row p, feature q. -/
theorem finalRows_apply {n : Nat} (a : (Rows n).Idx → EReal) (d : (Col n).Idx → EReal) (w : Weights.Idx → EReal)
    (b : BiasRow.Idx → EReal) (p : Fin n) (q : Fin 128) :
    finalRows a d w b (ix2 p q)
      = (∑ k : Fin 128, (a (ix2 p k) * degScale (d (ix2 p 0))) * w (ix2 k q)) + b (ix2 0 q) := rfl

end Cert.Spec

end
-- ==== Proof.Model.lean ====
/-
  The two-layer, three-relation graph convolution as one function of the fourteen argument arrays, over the
  extended reals.

  A relation has an edge list (source ends, destination ends), a weight matrix and a bias. Its convolution takes the
  source node table x and returns, for the destination nodes,
      D_in^(-1/2) · A · (D_out^(-1/2) · x) · W + b,
  with A the edge-count matrix and D_out, D_in the degrees clamped below by one: scale the source rows, pass them along
  the edges and add them up at the destinations, scale the sums, multiply by the weights, add the bias. The edge-level
  steps (index wrap-around, degree counts, gather, scatter-add) are the host's array operations and stay opaque here;
  the dense per-node steps are Spec.lean's scaleRows and finalRows.
  A layer maps (authors, teams) to (conv_aa authors + conv_ta teams, conv_at authors); the network applies it twice with
  the same weights.
-/
import proofs.«158240_j69793218560324_1_alg».proof.KernelIdeal
import proofs.«158240_j69793218560324_1_alg».proof.Proof.Gen.KernelIdeal
import proofs.«158240_j69793218560324_1_alg».proof.Proof.Spec

noncomputable section

namespace Cert.Model

open Idealize.ShloMosaic Cert.KernelIdeal Cert.KernelIdeal.Gen

/-! ## The relation author to author: 1600000 edges from a table of 100000 rows to a table of 100000 rows -/

/-- An edge list's source ends as row indices: a negative index counts from the end of the table. -/
def wrapSrc_aa (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination ends, likewise. -/
def wrapDst_aa (d : (⟨S1600000, .i32⟩ : BufTy).Contents (Elt Ideal)) : (⟨S1600000x1, .i32⟩ : BufTy).Contents (Elt Ideal) :=
  broadcastInDim S1600000x1 ![0] bcast_S1600000_S1600000x1_0
    (select (cmpi .slt d (broadcastInDim S1600000 ![] bcast_S_S1600000 (constantI S_ 32 0#32)))
      (addi d (broadcastInDim S1600000 ![] bcast_S_S1600000 (constantI S_ 32 100000#32))) d)

/-- One per edge. -/
def ones_aa : (⟨S1600000, .f32⟩ : BufTy).Contents (Elt Ideal) :=
  broadcastInDim S1600000 ![] bcast_S_S1600000 (constant (F := Ideal) S_ .f32 0x3F800000#32)

/-- Out-degrees: the number of edges leaving each source row, as a sum of ones. -/
def outDeg_aa (s : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32)) (wrapSrc_aa s) ones_aa

/-- In-degrees: the number of edges entering each destination row. -/
def inDeg_aa (d : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32)) (wrapDst_aa d) ones_aa

/-- Message passing: every edge carries its source row to its destination row, where the rows add up. -/
def agg_aa (xn : (⟨S100000x128, .f32⟩ : BufTy).Contents (Elt Ideal)) (s d : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (wrapDst_aa d)
    (Host.gather gather_S100000x128_S1600000x1_S1600000x128_1_0_n_n_0_1_1128 xn (wrapSrc_aa s))

/-- The convolution of this relation: source rows scaled by their out-degree factor, passed along the edges, the sums
    scaled by the in-degree factor, times the weights, plus the bias. -/
def conv_aa (x : (⟨S100000x128, .f32⟩ : BufTy).Contents (Elt Ideal)) (s d : (⟨S1600000, .i32⟩ : BufTy).Contents (Elt Ideal))
    (w : (⟨S128x128, .f32⟩ : BufTy).Contents (Elt Ideal)) (b : (⟨S128, .f32⟩ : BufTy).Contents (Elt Ideal)) :
    (⟨S100000x128, .f32⟩ : BufTy).Contents (Elt Ideal) :=
  Cert.Spec.finalRows (n := 100000)
    (agg_aa (Cert.Spec.scaleRows (n := 100000) x (shapeCast S100000x1 (outDeg_aa s) shapeCasts_S100000_S100000x1)) s d)
    (shapeCast S100000x1 (inDeg_aa d) shapeCasts_S100000_S100000x1) w (shapeCast S1x128 b shapeCasts_S128_S1x128)

/-! ## The relation team to author: 400000 edges from a table of 25000 rows to a table of 100000 rows -/

/-- An edge list's source ends as row indices: a negative index counts from the end of the table. -/
def wrapSrc_ta (s : (⟨S400000, .i32⟩ : BufTy).Contents (Elt Ideal)) : (⟨S400000x1, .i32⟩ : BufTy).Contents (Elt Ideal) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 25000#32))) s)

/-- The destination ends, likewise. -/
def wrapDst_ta (d : (⟨S400000, .i32⟩ : BufTy).Contents (Elt Ideal)) : (⟨S400000x1, .i32⟩ : BufTy).Contents (Elt Ideal) :=
  broadcastInDim S400000x1 ![0] bcast_S400000_S400000x1_0
    (select (cmpi .slt d (broadcastInDim S400000 ![] bcast_S_S400000 (constantI S_ 32 0#32)))
      (addi d (broadcastInDim S400000 ![] bcast_S_S400000 (constantI S_ 32 100000#32))) d)

/-- One per edge. -/
def ones_ta : (⟨S400000, .f32⟩ : BufTy).Contents (Elt Ideal) :=
  broadcastInDim S400000 ![] bcast_S_S400000 (constant (F := Ideal) S_ .f32 0x3F800000#32)

/-- Out-degrees: the number of edges leaving each source row, as a sum of ones. -/
def outDeg_ta (s : (⟨S400000, .i32⟩ : BufTy).Contents (Elt Ideal)) : (⟨S25000, .f32⟩ : BufTy).Contents (Elt Ideal) :=
  Host.scatterAdd (F := Ideal) scatter_S25000_S400000x1_S400000_n_0_0_1
    (broadcastInDim S25000 ![] bcast_S_S25000 (constant (F := Ideal) S_ .f32 0x00000000#32)) (wrapSrc_ta s) ones_ta

/-- In-degrees: the number of edges entering each destination row. -/
def inDeg_ta (d : (⟨S400000, .i32⟩ : BufTy).Contents (Elt Ideal)) : (⟨S100000, .f32⟩ : BufTy).Contents (Elt Ideal) :=
  Host.scatterAdd (F := Ideal) scatter_S100000_S400000x1_S400000_n_0_0_1
    (broadcastInDim S100000 ![] bcast_S_S100000 (constant (F := Ideal) S_ .f32 0x00000000#32)) (wrapDst_ta d) ones_ta

/-- Message passing: every edge carries its source row to its destination row, where the rows add up. -/
def agg_ta (xn : (⟨S25000x128, .f32⟩ : BufTy).Contents (Elt Ideal)) (s d : (⟨S400000, .i32⟩ : BufTy).Contents (Elt Ideal)) :
    (⟨S100000x128, .f32⟩ : BufTy).Contents (Elt Ideal) :=
  Host.scatterAdd (F := Ideal) scatter_S100000x128_S400000x1_S400000x128_1_0_0_1
    (broadcastInDim S100000x128 ![] bcast_S_S100000x128 (constant (F := Ideal) S_ .f32 0x00000000#32)) (wrapDst_ta d)
    (Host.gather gather_S25000x128_S400000x1_S400000x128_1_0_n_n_0_1_1128 xn (wrapSrc_ta s))

/-- The convolution of this relation: source rows scaled by their out-degree factor, passed along the edges, the sums
    scaled by the in-degree factor, times the weights, plus the bias. -/
def conv_ta (x : (⟨S25000x128, .f32⟩ : BufTy).Contents (Elt Ideal)) (s d : (⟨S400000, .i32⟩ : BufTy).Contents (Elt Ideal))
    (w : (⟨S128x128, .f32⟩ : BufTy).Contents (Elt Ideal)) (b : (⟨S128, .f32⟩ : BufTy).Contents (Elt Ideal)) :
    (⟨S100000x128, .f32⟩ : BufTy).Contents (Elt Ideal) :=
  Cert.Spec.finalRows (n := 100000)
    (agg_ta (Cert.Spec.scaleRows (n := 25000) x (shapeCast S25000x1 (outDeg_ta s) shapeCasts_S25000_S25000x1)) s d)
    (shapeCast S100000x1 (inDeg_ta d) shapeCasts_S100000_S100000x1) w (shapeCast S1x128 b shapeCasts_S128_S1x128)

/-! ## The relation author to team: 400000 edges from a table of 100000 rows to a table of 25000 rows -/

/-- An edge list's source ends as row indices: a negative index counts from the end of the table. -/
def wrapSrc_at (s : (⟨S400000, .i32⟩ : BufTy).Contents (Elt Ideal)) : (⟨S400000x1, .i32⟩ : BufTy).Contents (Elt Ideal) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

/-- The destination ends, likewise. -/
def wrapDst_at (d : (⟨S400000, .i32⟩ : BufTy).Contents (Elt Ideal)) : (⟨S400000x1, .i32⟩ : BufTy).Contents (Elt Ideal) :=
  broadcastInDim S400000x1 ![0] bcast_S400000_S400000x1_0
    (select (cmpi .slt d (broadcastInDim S400000 ![] bcast_S_S400000 (constantI S_ 32 0#32)))
      (addi d (broadcastInDim S400000 ![] bcast_S_S400000 (constantI S_ 32 25000#32))) d)

/-- One per edge. -/
def ones_at : (⟨S400000, .f32⟩ : BufTy).Contents (Elt Ideal) :=
  broadcastInDim S400000 ![] bcast_S_S400000 (constant (F := Ideal) S_ .f32 0x3F800000#32)

/-- Out-degrees: the number of edges leaving each source row, as a sum of ones. -/
def outDeg_at (s : (⟨S400000, .i32⟩ : BufTy).Contents (Elt Ideal)) : (⟨S100000, .f32⟩ : BufTy).Contents (Elt Ideal) :=
  Host.scatterAdd (F := Ideal) scatter_S100000_S400000x1_S400000_n_0_0_1
    (broadcastInDim S100000 ![] bcast_S_S100000 (constant (F := Ideal) S_ .f32 0x00000000#32)) (wrapSrc_at s) ones_at

/-- In-degrees: the number of edges entering each destination row. -/
def inDeg_at (d : (⟨S400000, .i32⟩ : BufTy).Contents (Elt Ideal)) : (⟨S25000, .f32⟩ : BufTy).Contents (Elt Ideal) :=
  Host.scatterAdd (F := Ideal) scatter_S25000_S400000x1_S400000_n_0_0_1
    (broadcastInDim S25000 ![] bcast_S_S25000 (constant (F := Ideal) S_ .f32 0x00000000#32)) (wrapDst_at d) ones_at

/-- Message passing: every edge carries its source row to its destination row, where the rows add up. -/
def agg_at (xn : (⟨S100000x128, .f32⟩ : BufTy).Contents (Elt Ideal)) (s d : (⟨S400000, .i32⟩ : BufTy).Contents (Elt Ideal)) :
    (⟨S25000x128, .f32⟩ : BufTy).Contents (Elt Ideal) :=
  Host.scatterAdd (F := Ideal) scatter_S25000x128_S400000x1_S400000x128_1_0_0_1
    (broadcastInDim S25000x128 ![] bcast_S_S25000x128 (constant (F := Ideal) S_ .f32 0x00000000#32)) (wrapDst_at d)
    (Host.gather gather_S100000x128_S400000x1_S400000x128_1_0_n_n_0_1_1128 xn (wrapSrc_at s))

/-- The convolution of this relation: source rows scaled by their out-degree factor, passed along the edges, the sums
    scaled by the in-degree factor, times the weights, plus the bias. -/
def conv_at (x : (⟨S100000x128, .f32⟩ : BufTy).Contents (Elt Ideal)) (s d : (⟨S400000, .i32⟩ : BufTy).Contents (Elt Ideal))
    (w : (⟨S128x128, .f32⟩ : BufTy).Contents (Elt Ideal)) (b : (⟨S128, .f32⟩ : BufTy).Contents (Elt Ideal)) :
    (⟨S25000x128, .f32⟩ : BufTy).Contents (Elt Ideal) :=
  Cert.Spec.finalRows (n := 25000)
    (agg_at (Cert.Spec.scaleRows (n := 100000) x (shapeCast S100000x1 (outDeg_at s) shapeCasts_S100000_S100000x1)) s d)
    (shapeCast S25000x1 (inDeg_at d) shapeCasts_S25000_S25000x1) w (shapeCast S1x128 b shapeCasts_S128_S1x128)

/-! ## The layers -/

/-- The fourteen argument arrays. -/
structure Args where
  hAuthor : (⟨S100000x128, .f32⟩ : BufTy).Contents (Elt Ideal)
  hTeam : (⟨S25000x128, .f32⟩ : BufTy).Contents (Elt Ideal)
  aaSrc : (⟨S1600000, .i32⟩ : BufTy).Contents (Elt Ideal)
  aaDst : (⟨S1600000, .i32⟩ : BufTy).Contents (Elt Ideal)
  atSrc : (⟨S400000, .i32⟩ : BufTy).Contents (Elt Ideal)
  atDst : (⟨S400000, .i32⟩ : BufTy).Contents (Elt Ideal)
  taSrc : (⟨S400000, .i32⟩ : BufTy).Contents (Elt Ideal)
  taDst : (⟨S400000, .i32⟩ : BufTy).Contents (Elt Ideal)
  wAA : (⟨S128x128, .f32⟩ : BufTy).Contents (Elt Ideal)
  bAA : (⟨S128, .f32⟩ : BufTy).Contents (Elt Ideal)
  wAT : (⟨S128x128, .f32⟩ : BufTy).Contents (Elt Ideal)
  bAT : (⟨S128, .f32⟩ : BufTy).Contents (Elt Ideal)
  wTA : (⟨S128x128, .f32⟩ : BufTy).Contents (Elt Ideal)
  bTA : (⟨S128, .f32⟩ : BufTy).Contents (Elt Ideal)

/-- The authors after one layer, from any author and team tables. -/
def layerAuthor (a : Args) (ha : (⟨S100000x128, .f32⟩ : BufTy).Contents (Elt Ideal))
    (ht : (⟨S25000x128, .f32⟩ : BufTy).Contents (Elt Ideal)) : (⟨S100000x128, .f32⟩ : BufTy).Contents (Elt Ideal) :=
  addf (F := Ideal) (s := S100000x128) (φ := .f32) (conv_aa ha a.aaSrc a.aaDst a.wAA a.bAA) (conv_ta ht a.taSrc a.taDst a.wTA a.bTA)

/-- The teams after one layer, from any author table. -/
def layerTeam (a : Args) (ha : (⟨S100000x128, .f32⟩ : BufTy).Contents (Elt Ideal)) :
    (⟨S25000x128, .f32⟩ : BufTy).Contents (Elt Ideal) :=
  conv_at ha a.atSrc a.atDst a.wAT a.bAT

/-- The authors after the first layer. -/
def author1 (a : Args) := layerAuthor a a.hAuthor a.hTeam
/-- The teams after the first layer. -/
def team1 (a : Args) := layerTeam a a.hAuthor
/-- The authors after the second layer: the first result. -/
def author2 (a : Args) := layerAuthor a (author1 a) (team1 a)
/-- The teams after the second layer: the second result. -/
def team2 (a : Args) := layerTeam a (author1 a)

end Cert.Model

end
-- ==== Proof.KRun.lean ====
/-
  The kernel program's run with its two results named: every weakly fair execution terminates without a fault, the two
  result buffers end at the contents the last boundary of the run's fold gives them, and the argument arrays end as
  launched. The launch over the run's 24 segments is the frame's own; only what is read off the last boundary differs
  (the two result buffers beside the arguments).
-/
import proofs.«158240_j69793218560324_1_alg».proof.Proof.Gen.KernelIdeal.Frame

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the results read at the last boundary. -/
theorem run_results : θ_run defs (onTc (τ := τ) (main (F := F))) ⟨m, fun _ => 0, ρ⟩ (fun r => ∀ c : Dev nD,
      r.2.mem ((c.tc : Thread nD τ).loc main_v186) = W24 m ρ c (Proc.devRef .tc main_v186)
      ∧ r.2.mem ((c.tc : Thread nD τ).loc main_v223) = W24 m ρ c (Proc.devRef .tc main_v223)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v186 (by decide)),
       h c _ (mem_uc main_v223 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c)⟩)

end Cert.KernelIdeal.Chain

end
-- ==== Proof.ScalePay.lean ====
/-
  The scaling kernels' stored block, read at one element, and one stored block against the scaled table.

  The body loads a [5000,1] block of degrees d and a [5000,128] block of table rows x and stores
  x * rsqrt (max d 1), the factor broadcast along the 128 features. At row p, feature q this is the table's
  element times the row's normalising factor 1/√(max d_p 1). Three of the six scaling kernels first pass the table
  block through a shape cast to its own shape, which is the identity; the reading is the same for all six.
-/
import proofs.«158240_j69793218560324_1_alg».proof.Proof.Gen.KernelIdeal.Skeleton
import proofs.«158240_j69793218560324_1_alg».proof.Proof.Spec
import Idealize.ShloMosaic.Lib.Pipeline.Value
import Idealize.ShloMosaic.Lib.ValueIdx

noncomputable section

namespace Cert.KernelIdeal.ScalePay

open Cert.KernelIdeal Cert.KernelIdeal.Gen Idealize.ShloMosaic Idealize.ShloMosaic.ValueIdx
open Cert.Spec

/-! ## The stored block at row p, feature q -/

/-- The product reads elementwise, the broadcast factor reads the degree column at (p, 0), the shape cast of the
    degrees to their own shape is the identity, and the rest is the definition of the normalising factor. -/
theorem pay0_apply (x1 : Vec Ideal S5000x1 .f32) (x0 : Vec Ideal S5000x128 .f32) (p : Fin 5000) (q : Fin 128) :
    k0_pay1 x1 x0 (ix2 p q) = x0 (ix2 p q) * degScale (x1 (ix2 p 0)) := by
  unfold k0_pay1
  rw [mulf_apply]
  rw [broadcastTo_apply _ _ (ix2 p q) (ix2 p 0) (fun a => by
    match a with
    | ⟨0, _⟩ => rfl
    | ⟨1, _⟩ => rfl)]
  rw [shapeCast_self]
  rfl

/-- The variant that also casts the table block to its own shape: one more identity. -/
theorem pay6_apply (x1 : Vec Ideal S5000x1 .f32) (x0 : Vec Ideal S5000x128 .f32) (p : Fin 5000) (q : Fin 128) :
    k6_pay1 x1 x0 (ix2 p q) = x0 (ix2 p q) * degScale (x1 (ix2 p 0)) := by
  unfold k6_pay1
  rw [mulf_apply]
  rw [broadcastTo_apply _ _ (ix2 p q) (ix2 p 0) (fun a => by
    match a with
    | ⟨0, _⟩ => rfl
    | ⟨1, _⟩ => rfl)]
  rw [shapeCast_self, shapeCast_self]
  rfl

/-- The second and third scaling kernels store the first one's term; the fifth and sixth the fourth one's. -/
theorem pay2_eq : @k2_pay1 Ideal _ = @k0_pay1 Ideal _ := rfl
theorem pay4_eq : @k4_pay1 Ideal _ = @k0_pay1 Ideal _ := rfl
theorem pay8_eq : @k8_pay1 Ideal _ = @k6_pay1 Ideal _ := rfl
theorem pay10_eq : @k10_pay1 Ideal _ = @k6_pay1 Ideal _ := rfl

theorem pay2_apply (x1 : Vec Ideal S5000x1 .f32) (x0 : Vec Ideal S5000x128 .f32) (p : Fin 5000) (q : Fin 128) :
    k2_pay1 x1 x0 (ix2 p q) = x0 (ix2 p q) * degScale (x1 (ix2 p 0)) := pay0_apply x1 x0 p q
theorem pay4_apply (x1 : Vec Ideal S5000x1 .f32) (x0 : Vec Ideal S5000x128 .f32) (p : Fin 5000) (q : Fin 128) :
    k4_pay1 x1 x0 (ix2 p q) = x0 (ix2 p q) * degScale (x1 (ix2 p 0)) := pay0_apply x1 x0 p q
theorem pay8_apply (x1 : Vec Ideal S5000x1 .f32) (x0 : Vec Ideal S5000x128 .f32) (p : Fin 5000) (q : Fin 128) :
    k8_pay1 x1 x0 (ix2 p q) = x0 (ix2 p q) * degScale (x1 (ix2 p 0)) := pay6_apply x1 x0 p q
theorem pay10_apply (x1 : Vec Ideal S5000x1 .f32) (x0 : Vec Ideal S5000x128 .f32) (p : Fin 5000) (q : Fin 128) :
    k10_pay1 x1 x0 (ix2 p q) = x0 (ix2 p q) * degScale (x1 (ix2 p 0)) := pay6_apply x1 x0 p q

/-! ## One stored block against the scaled table -/

/-- For any block function that reads as above. If the loaded table block x0 is the table X shifted down by b rows
    (element y of the block is X at any index i with i₀ = b + y₀, i₁ = y₁) and the loaded degree block x1 is the
    degree column D shifted the same way, then element j of the stored block is the scaled table at the index b
    rows below j. -/
theorem block_of_pay {n : Nat} (pay : Vec Ideal S5000x1 .f32 → Vec Ideal S5000x128 .f32 → FVec Ideal S5000x128 .f32)
    (hpay : ∀ x1 x0 (p : Fin 5000) (q : Fin 128), pay x1 x0 (ix2 p q) = x0 (ix2 p q) * degScale (x1 (ix2 p 0)))
    (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    pay x1 x0 j = scaleRows X D i := by
  obtain ⟨p, q, rfl⟩ : ∃ p q, j = ix2 p q := ⟨j 0, j 1, eq_ix2 j⟩
  rw [hpay]
  show x0 (ix2 p q) * degScale (x1 (ix2 p 0)) = X i * degScale (D (ix2 ⟨(i 0).val, idx2_lt0 i⟩ 0))
  rw [h0 (ix2 p q) i hi0 hi1, h1 (ix2 p 0) (ix2 ⟨(i 0).val, idx2_lt0 i⟩ 0) hi0]

/-! The six scaling kernels. -/

theorem block_apply {n : Nat} (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    k0_pay1 x1 x0 j = scaleRows X D i := block_of_pay k0_pay1 pay0_apply X D x0 x1 b h0 h1 j i hi0 hi1
theorem block2_apply {n : Nat} (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    k2_pay1 x1 x0 j = scaleRows X D i := block_of_pay k2_pay1 pay2_apply X D x0 x1 b h0 h1 j i hi0 hi1
theorem block4_apply {n : Nat} (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    k4_pay1 x1 x0 j = scaleRows X D i := block_of_pay k4_pay1 pay4_apply X D x0 x1 b h0 h1 j i hi0 hi1
theorem block6_apply {n : Nat} (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    k6_pay1 x1 x0 j = scaleRows X D i := block_of_pay k6_pay1 pay6_apply X D x0 x1 b h0 h1 j i hi0 hi1
theorem block8_apply {n : Nat} (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    k8_pay1 x1 x0 j = scaleRows X D i := block_of_pay k8_pay1 pay8_apply X D x0 x1 b h0 h1 j i hi0 hi1
theorem block10_apply {n : Nat} (X : (Rows n).Idx → EReal) (D : (Col n).Idx → EReal)
    (x0 : Vec Ideal S5000x128 .f32) (x1 : Vec Ideal S5000x1 .f32) (b : Nat)
    (h0 : ∀ (y : S5000x128.Idx) (i : (Rows n).Idx), (i 0).val = b + (y 0).val → (i 1).val = (y 1).val → x0 y = X i)
    (h1 : ∀ (y : S5000x1.Idx) (i : (Col n).Idx), (i 0).val = b + (y 0).val → x1 y = D i)
    (j : S5000x128.Idx) (i : (Rows n).Idx) (hi0 : (i 0).val = b + (j 0).val) (hi1 : (i 1).val = (j 1).val) :
    k10_pay1 x1 x0 j = scaleRows X D i := block_of_pay k10_pay1 pay10_apply X D x0 x1 b h0 h1 j i hi0 hi1

end Cert.KernelIdeal.ScalePay

end
-- ==== Proof.ScaleR0.lean ====
/-
  The scaled table left by the first scaling region.

  The region walks the 100000 rows of its table in 20 blocks of 5000 rows. At block t the body stores, for
  every row of the block, the row times its node's normalising factor. Each block written back is therefore the
  matching block of the scaled table, the blocks cover all 100000 rows, and so the output array ends holding
  the scaled table.
-/
import proofs.«158240_j69793218560324_1_alg».proof.Proof.Gen.KernelIdeal.Frame
import proofs.«158240_j69793218560324_1_alg».proof.Proof.Spec
import proofs.«158240_j69793218560324_1_alg».proof.Proof.ScalePay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_off0 : (![0, 0] : Fin 2 → Nat) = fun _ => 0 := funext fun a => by fin_cases a <;> rfl

/-- The block index maps over the 20 grid points: at point t the table, the degree column and the output are
    all at row block t, column block 0. -/
theorem idx_facts0 : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the scaled table. -/
theorem flushed0_eq (c : Dev nD) (t : Fin cfg0.N) :
    (dat0 (F := Ideal) V c).flushed 2 t
      = ((cfg0.win 2).blk t).view.read (Elt Ideal) (Cert.Spec.scaleRows (V c main_arg0) (V c main_v17)) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S5000x1) zero_off0]
  obtain ⟨e0, e1, e2, e3, e4, e5⟩ := idx_facts0 t
  funext j
  show k0_pay1 (iblk0 V c 1 t) (iblk0 V c 0 t) j
    = Cert.Spec.scaleRows (V c main_arg0) (V c main_v17) (((cfg0.win 2).blk t).view.emb j)
  refine ScalePay.block_apply (V c main_arg0) (V c main_v17) _ _ (win0_2.index t (0 : Fin 2) * 5000) ?_ ?_ j _ ?_ ?_
  · -- the table's block: element y sits win-index rows down
    intro y i hi0 hi1
    show V c main_arg0 (((cfg0.win 0).blk t).view.emb y) = V c main_arg0 i
    refine congrArg (V c main_arg0) (funext fun a => Fin.ext ?_)
    match a with
    | ⟨0, _⟩ =>
      show win0_0.index t (0 : Fin 2) * 5000 + 1 * (y 0).val = (i 0).val
      omega
    | ⟨1, _⟩ =>
      show win0_0.index t (1 : Fin 2) * 128 + 1 * (y 1).val = (i 1).val
      omega
  · -- the degree column's block
    intro y i hi0
    show V c main_v17 (((cfg0.win 1).blk t).view.emb y) = V c main_v17 i
    refine congrArg (V c main_v17) (funext fun a => Fin.ext ?_)
    match a with
    | ⟨0, _⟩ =>
      show win0_1.index t (0 : Fin 2) * 5000 + 1 * (y 0).val = (i 0).val
      omega
    | ⟨1, _⟩ =>
      show win0_1.index t (1 : Fin 2) * 1 + 1 * (y 1).val = (i 1).val
      have hy : (y 1).val < 1 := (y 1).isLt
      have hi : (i 1).val < 1 := (i 1).isLt
      omega
  · show win0_2.index t (0 : Fin 2) * 5000 + 1 * (j 0).val = win0_2.index t (0 : Fin 2) * 5000 + (j 0).val
    omega
  · show win0_2.index t (1 : Fin 2) * 128 + 1 * (j 1).val = (j 1).val
    omega

/-- An index of the output array is in point t's block iff each coordinate is in the block's range on its axis. -/
theorem mem_blk0 (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v18).slice (win0_2.rect t)).set ↔ _
  rw [View.set_slice_whole, Rect.mem_set_unit]
  exact Iff.rfl

/-- Every row is in the block of the point numbered by its row divided by 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by
    show (i 0).val / 5000 < grid0.N
    rw [N_0]
    omega
  obtain ⟨-, -, -, -, e4, e5⟩ := idx_facts0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The output array after the region: the scaled table. -/
theorem final0 (c : Dev nD) :
    (dat0 (F := Ideal) V c).arrAt 2 cfg0.N = Cert.Spec.scaleRows (V c main_arg0) (V c main_v17) :=
  (dat0 V c).arrAt_eq_of_cover 2 _ (fun t _ => flushed0_eq V c t) (cover0)

end Cert.KernelIdeal.RegionValue

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.FinalPay.lean ====
/-
  The finishing step's block computation read at one element, over the extended reals.

  One block of the step takes 5000 rows of the aggregated table, their degrees as a column, the whole 128 × 128
  weight matrix and the bias row, and leaves
      out (p, q) = (∑ k, (agg (p, k) · 1/√(max deg_p 1)) · w (k, q)) + b q.
  The narrowing of both operands to a 16-bit format before the product is the identity on extended reals, the two
  shape casts are to the same shape, the factor column is broadcast along the features and the bias row down the
  rows, and the product into a zero accumulator is the plain sum over the contracted axis.

  The last lemma restates this against the whole-table function of the specification: if the block's elements are
  the tables' elements on the row and column of a table index I, the block's result at (p, q) is the finished table
  at I.
-/
import proofs.«158240_j69793218560324_1_alg».proof.Proof.Gen.KernelIdeal.Skeleton
import proofs.«158240_j69793218560324_1_alg».proof.Proof.Spec
import proofs.«158240_j69793218560324_1_alg».proof.Proof.LibPlainDot
import Idealize.ShloMosaic.Lib.Pipeline.Value
import Idealize.ShloMosaic.Lib.ValueIdx

noncomputable section

open scoped BigOperators

namespace Cert.KernelIdeal.FinalPay

open Cert.KernelIdeal Cert.KernelIdeal.Gen Idealize.ShloMosaic Idealize.ShloMosaic.ValueIdx
open Cert.Spec (degScale finalRows Rows Col Weights BiasRow)

/-- The bias row broadcast down the rows, read at (p, q): the bias at q. -/
theorem biasRows_apply (x3 : Vec Ideal S1x128 .f32) (p : Fin 5000) (q : Fin 128) :
    broadcastTo S5000x128 (shapeCast S1x128 x3 shapeCasts_S1x128_S1x128) broadcasts_S1x128_S5000x128 (ix2 p q)
      = x3 (ix2 0 q) := by
  rw [shapeCast_self]
  refine broadcastTo_apply x3 _ (ix2 p q) (ix2 0 q) fun a => ?_
  match a with
  | ⟨0, _⟩ => rfl
  | ⟨1, _⟩ => rfl

/-- A column broadcast along the features, read at (p, k): the column at p. -/
theorem scaleCols_apply (v : FVec Ideal S5000x1 .f32) (p : Fin 5000) (k : Fin 128) :
    broadcastTo S5000x128 v broadcasts_S5000x1_S5000x128 (ix2 p k) = v (ix2 p 0) := by
  refine broadcastTo_apply v _ (ix2 p k) (ix2 p 0) fun a => ?_
  match a with
  | ⟨0, _⟩ => rfl
  | ⟨1, _⟩ => rfl

/-- The product's left operand, read at (p, k): the aggregated block's element times its row's factor. -/
theorem scaled_apply (x1 : Vec Ideal S5000x1 .f32) (x0 : Vec Ideal S5000x128 .f32) (p : Fin 5000) (k : Fin 128) :
    (truncf .bf16 (mulf (shapeCast S5000x128 x0 shapeCasts_S5000x128_S5000x128)
        (broadcastTo S5000x128 (rsqrt (maximumf (shapeCast S5000x1 x1 shapeCasts_S5000x1_S5000x1)
          (broadcast S5000x1 (Scalar.ofBits (F := Ideal) .f32 0x3F800000#32)))) broadcasts_S5000x1_S5000x128)) bitsLt_bf16_f32
      : FVec Ideal S5000x128 .bf16) (ix2 p k)
      = x0 (ix2 p k) * degScale (x1 (ix2 p 0)) := by
  rw [truncf_apply, mulf_apply, shapeCast_self, shapeCast_self, scaleCols_apply]
  rfl

/-- THE BLOCK'S RESULT AT (p, q): the scaled row p of the aggregated block against column q of the weights, plus
    the bias at q. (The first operand is the degree column, the second the aggregated block.) -/
theorem pay_apply (x1 : Vec Ideal S5000x1 .f32) (x0 : Vec Ideal S5000x128 .f32) (x2 : Vec Ideal S128x128 .f32)
    (x3 : Vec Ideal S1x128 .f32) (p : Fin 5000) (q : Fin 128) :
    k1_pay1 x1 x0 x2 x3 (ix2 p q)
      = (∑ k : Fin 128, (x0 (ix2 p k) * degScale (x1 (ix2 p 0))) * x2 (ix2 k q)) + x3 (ix2 0 q) := by
  unfold k1_pay1
  rw [addf_apply, biasRows_apply]
  congr 1
  refine (Cert.PlainDot.matmul_zero_apply dot_S5000x128_S128x128_S5000x128_1_0_0_1_n_n rfl rfl rfl rfl rfl rfl none _ _ p q).trans ?_
  exact Finset.sum_congr rfl fun k _ => by rw [scaled_apply, truncf_apply]

/-- The six finishing steps run one and the same block computation. -/
theorem pay3_eq : @k3_pay1 Ideal _ = k1_pay1 := rfl
theorem pay5_eq : @k5_pay1 Ideal _ = k1_pay1 := rfl
theorem pay7_eq : @k7_pay1 Ideal _ = k1_pay1 := rfl
theorem pay9_eq : @k9_pay1 Ideal _ = k1_pay1 := rfl
theorem pay11_eq : @k11_pay1 Ideal _ = k1_pay1 := rfl

/-- THE BLOCK AGAINST THE WHOLE TABLES. Let I be an index of an n-row table. If row p of the aggregated block is row
    I₀ of the table a (h0), the degree block's entry p is the degree of node I₀ (h1), the weights block is the weight
    matrix on column I₁ (h2) and the bias block the bias at I₁ (h3), then the block's result at (p, q) is the
    finished table at I. -/
theorem pay_eq_finalRows {n : Nat} (a : (Rows n).Idx → EReal) (d : (Col n).Idx → EReal) (w : Weights.Idx → EReal)
    (b : BiasRow.Idx → EReal) (x1 : Vec Ideal S5000x1 .f32) (x0 : Vec Ideal S5000x128 .f32)
    (x2 : Vec Ideal S128x128 .f32) (x3 : Vec Ideal S1x128 .f32) (p : Fin 5000) (q : Fin 128) (I : (Rows n).Idx)
    (h0 : ∀ k : Fin 128, x0 (ix2 p k) = a (ix2 (n0 := n) (n1 := 128) ⟨(I 0).val, idx2_lt0 I⟩ k))
    (h1 : x1 (ix2 p 0) = d (ix2 (n0 := n) (n1 := 1) ⟨(I 0).val, idx2_lt0 I⟩ 0))
    (h2 : ∀ k : Fin 128, x2 (ix2 k q) = w (ix2 (n0 := 128) (n1 := 128) k ⟨(I 1).val, idx2_lt1 I⟩))
    (h3 : x3 (ix2 0 q) = b (ix2 (n0 := 1) (n1 := 128) 0 ⟨(I 1).val, idx2_lt1 I⟩)) :
    k1_pay1 x1 x0 x2 x3 (ix2 p q) = finalRows a d w b I := by
  rw [pay_apply, h1, h3]
  show _ = (∑ k : Fin 128, (a (ix2 (n0 := n) (n1 := 128) ⟨(I 0).val, idx2_lt0 I⟩ k)
        * degScale (d (ix2 (n0 := n) (n1 := 1) ⟨(I 0).val, idx2_lt0 I⟩ 0)))
      * w (ix2 (n0 := 128) (n1 := 128) k ⟨(I 1).val, idx2_lt1 I⟩))
    + b (ix2 (n0 := 1) (n1 := 128) 0 ⟨(I 1).val, idx2_lt1 I⟩)
  congr 1
  exact Finset.sum_congr rfl fun k _ => by rw [h0, h2]

end Cert.KernelIdeal.FinalPay

end
-- ==== Proof.FinalR1.lean ====
/-
  One finishing step over a 100000-row table: the array it leaves is the finished table of the arrays it finds.

  The step walks its 100000-row tables in 20 blocks of 5000 rows. At block t the aggregated table and the degree
  column are read at rows 5000·t … 5000·t + 4999, the weight matrix and the bias row whole, and the block's result is
  written to the same rows of the output. So what block t writes is the rows 5000·t … of the finished table
  (written_eq), every row is in the block of its quotient by 5000 (covered), and the array the step leaves is the
  finished table (final1).
-/
import proofs.«158240_j69793218560324_1_alg».proof.Proof.Gen.KernelIdeal.Frame
import proofs.«158240_j69793218560324_1_alg».proof.Proof.Spec
import proofs.«158240_j69793218560324_1_alg».proof.Proof.FinalPay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Final1

variable (V : (c : Dev nD) → (b : Ref sig .tc) → Buf (Elt Ideal) ((c : Thread nD τ).loc b))

/-- The zero offsets of a whole-buffer access, as a function. -/
theorem zeroOffsets : (![0, 0] : Fin 2 → Nat) = fun _ => 0 := funext fun a => by fin_cases a <;> rfl

/-- The block indices over the grid: block t of the aggregated table, of the degree column and of the output are at
    row block t, column block 0; the weights and the bias are always their one block. -/
theorem blockIndex : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- WHAT BLOCK t WRITES BACK is rows 5000·t … 5000·t + 4999 of the finished table of the arrays as the step finds
    them. -/
theorem written_eq (c : Dev nD) (t : Fin cfg1.N) :
    (dat1 (F := Ideal) V c).flushed 4 t = ((cfg1.win 4).blk t).view.read (Elt Ideal)
      (Cert.Spec.finalRows (n := 100000) (V c main_v33) (V c main_v34) (V c main_arg8) (V c main_v35)) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e40, e41, e00, e01, e10, e11, e20, e21, e30, e31⟩ := blockIndex t
  funext y
  obtain ⟨p, q, rfl⟩ : ∃ (p : Fin 5000) (q : Fin 128), y = ix2 p q := ⟨y 0, y 1, eq_ix2 y⟩
  show k1_pay1 (iblk1 V c 1 t) (iblk1 V c 0 t) (iblk1 V c 2 t) (iblk1 V c 3 t) (ix2 p q)
    = Cert.Spec.finalRows (n := 100000) (V c main_v33) (V c main_v34) (V c main_arg8) (V c main_v35)
        (((cfg1.win 4).blk t).view.emb (ix2 p q))
  refine FinalPay.pay_eq_finalRows _ _ _ _ _ _ _ _ p q _ (fun k => ?_) ?_ (fun k => ?_) ?_
  · show V c main_v33 (((cfg1.win 0).blk t).view.emb (ix2 p k)) = _
    refine congrArg (V c main_v33) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  · show V c main_v34 (((cfg1.win 1).blk t).view.emb (ix2 p 0)) = _
    refine congrArg (V c main_v34) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  · show V c main_arg8 (((cfg1.win 2).blk t).view.emb (ix2 k q)) = _
    refine congrArg (V c main_arg8) (funext fun a => Fin.ext ?_)
    match a with
    | ⟨0, _⟩ => show win1_2.index t (0 : Fin 2) * 128 + 1 * k.val = k.val; omega
    | ⟨1, _⟩ => show win1_2.index t (1 : Fin 2) * 128 + 1 * q.val = win1_4.index t (1 : Fin 2) * 128 + 1 * q.val; omega
  · show V c main_v35 (((cfg1.win 3).blk t).view.emb (ix2 0 q)) = _
    refine congrArg (V c main_v35) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- An index of the output array is in block t iff each coordinate is in the block's range on its axis. -/
theorem mem_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v36).slice (win1_4.rect t)).set ↔ _
  rw [View.set_slice_whole, Rect.mem_set_unit]
  exact Iff.rfl

/-- EVERY ROW IS WRITTEN: row r is in the block of r / 5000. -/
theorem covered (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : (i 0).val / 5000 < grid1.N := by rw [N_1]; omega
  obtain ⟨e40, e41, -⟩ := blockIndex ⟨(i 0).val / 5000, hN⟩
  refine ⟨⟨(i 0).val / 5000, hN⟩, flush1_4 _, ?_⟩
  rw [mem_block]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e41]
    omega

end Final1

/-- THE ARRAY THE STEP LEAVES is the finished table of the arrays it finds. -/
theorem final1 (V : (c : Dev nD) → (b : Ref sig .tc) → Buf (Elt Ideal) ((c : Thread nD τ).loc b)) (c : Dev nD) :
    (dat1 (F := Ideal) V c).arrAt 4 cfg1.N
      = Cert.Spec.finalRows (n := 100000) (V c main_v33) (V c main_v34) (V c main_arg8) (V c main_v35) :=
  (dat1 (F := Ideal) V c).arrAt_eq_of_cover 4 _ (fun t _ => Final1.written_eq V c t) Final1.covered

end Cert.KernelIdeal.RegionValue

end
-- ==== Proof.KConv0.lean ====
/-
  One graph convolution of the kernel program, read off its run: the out- and in-degree counts and the column reshape
  before the first region, the row scaling in the first region, the gather and scatter-add between the regions, the
  scaling, matrix product and bias in the second region.
-/
import proofs.«158240_j69793218560324_1_alg».proof.Proof.KStages
import proofs.«158240_j69793218560324_1_alg».proof.Proof.Model
import proofs.«158240_j69793218560324_1_alg».proof.Proof.ScaleR0
import proofs.«158240_j69793218560324_1_alg».proof.Proof.FinalR1

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## What the two stretches of host operations compute, from any contents -/

set_option maxRecDepth 8192 in
set_option maxHeartbeats 2000000 in
theorem host0_main_v17 (Wv : Valuation τ sig (Elt Ideal)) :
    StableHlo.after hostOps0 Wv (Proc.devRef .tc main_v17) = shapeCast S100000x1 (Cert.Model.outDeg_aa (Wv (Proc.devRef .tc main_arg2))) shapeCasts_S100000_S100000x1 := by
  simp only [hostOps0]
  after_results_simp
  rfl

set_option maxRecDepth 8192 in
set_option maxHeartbeats 2000000 in
theorem host0_main_v16 (Wv : Valuation τ sig (Elt Ideal)) :
    StableHlo.after hostOps0 Wv (Proc.devRef .tc main_v16) = Cert.Model.inDeg_aa (Wv (Proc.devRef .tc main_arg3)) := by
  simp only [hostOps0]
  after_results_simp
  rfl

set_option maxRecDepth 8192 in
set_option maxHeartbeats 2000000 in
theorem host1_main_v33 (Wv : Valuation τ sig (Elt Ideal)) :
    StableHlo.after hostOps1 Wv (Proc.devRef .tc main_v33) = Cert.Model.agg_aa (Wv (Proc.devRef .tc main_v18)) (Wv (Proc.devRef .tc main_arg2)) (Wv (Proc.devRef .tc main_arg3)) := by
  simp only [hostOps1]
  after_results_simp
  rfl

set_option maxRecDepth 8192 in
set_option maxHeartbeats 2000000 in
theorem host1_main_v34 (Wv : Valuation τ sig (Elt Ideal)) :
    StableHlo.after hostOps1 Wv (Proc.devRef .tc main_v34) = shapeCast S100000x1 (Wv (Proc.devRef .tc main_v16)) shapeCasts_S100000_S100000x1 := by
  simp only [hostOps1]
  after_results_simp
  rfl

set_option maxRecDepth 8192 in
set_option maxHeartbeats 2000000 in
theorem host1_main_v35 (Wv : Valuation τ sig (Elt Ideal)) :
    StableHlo.after hostOps1 Wv (Proc.devRef .tc main_v35) = shapeCast S1x128 (Wv (Proc.devRef .tc main_arg9)) shapeCasts_S128_S1x128 := by
  simp only [hostOps1]
  after_results_simp
  rfl

/-! ## The convolution -/

variable (m : (ℓ : Loc nD τ sig) → Buf (Elt Ideal) ℓ) (ρ : Dev nD → PrngReg)

/-- The first layer's convolution along the relation author to author, read off the run: regions 0 and 1 with the host
    operations around them compute conv_aa of the table the first region is entered with. -/
theorem conv0 (c : Dev nD) :
    W4 m ρ c (Proc.devRef .tc main_v36) = Cert.Model.conv_aa (m ((c : Thread nD τ).loc main_arg0)) (m ((c : Thread nD τ).loc main_arg2)) (m ((c : Thread nD τ).loc main_arg3)) (m ((c : Thread nD τ).loc main_arg8)) (m ((c : Thread nD τ).loc main_arg9)) := by
  -- the table and the out-degree column as region 0 finds them
  have hx : V1 m ρ c main_arg0 = (m ((c : Thread nD τ).loc main_arg0)) :=
    (show W1 m ρ c (Proc.devRef .tc main_arg0) = W0 m ρ c (Proc.devRef .tc main_arg0) by host_keep).trans (argAt0 m ρ c main_arg0 (by decide))
  have hs0 : W0 m ρ c (Proc.devRef .tc main_arg2) = (m ((c : Thread nD τ).loc main_arg2)) := argAt0 m ρ c main_arg2 (by decide)
  have hd0 : W0 m ρ c (Proc.devRef .tc main_arg3) = (m ((c : Thread nD τ).loc main_arg3)) := argAt0 m ρ c main_arg3 (by decide)
  have hdeg : V1 m ρ c main_v17 = shapeCast S100000x1 (Cert.Model.outDeg_aa (m ((c : Thread nD τ).loc main_arg2))) shapeCasts_S100000_S100000x1 :=
    (host0_main_v17 (W0 m ρ c)).trans (by rw [hs0])
  have hin1 : W1 m ρ c (Proc.devRef .tc main_v16) = Cert.Model.inDeg_aa (m ((c : Thread nD τ).loc main_arg3)) :=
    (host0_main_v16 (W0 m ρ c)).trans (by rw [hd0])
  -- region 0: the scaled table
  have hxn : W2 m ρ c (Proc.devRef .tc main_v18) = (Cert.Spec.scaleRows (n := 100000) (m ((c : Thread nD τ).loc main_arg0)) (shapeCast S100000x1 (Cert.Model.outDeg_aa (m ((c : Thread nD τ).loc main_arg2))) shapeCasts_S100000_S100000x1)) :=
    (W2_arr m ρ c 2).trans ((Cert.KernelIdeal.RegionValue.final0 (V1 m ρ) c).trans (by rw [hx, hdeg]))
  have hin2 : W2 m ρ c (Proc.devRef .tc main_v16) = Cert.Model.inDeg_aa (m ((c : Thread nD τ).loc main_arg3)) :=
    (keepR0 m ρ c main_v16 (by decide)).trans hin1
  have hs2 : W2 m ρ c (Proc.devRef .tc main_arg2) = (m ((c : Thread nD τ).loc main_arg2)) := argAt2 m ρ c main_arg2 (by decide)
  have hd2 : W2 m ρ c (Proc.devRef .tc main_arg3) = (m ((c : Thread nD τ).loc main_arg3)) := argAt2 m ρ c main_arg3 (by decide)
  have hb2 : W2 m ρ c (Proc.devRef .tc main_arg9) = (m ((c : Thread nD τ).loc main_arg9)) := argAt2 m ρ c main_arg9 (by decide)
  -- the host operations between the regions: the aggregate, the in-degree column, the bias row
  have hagg : V3 m ρ c main_v33 = Cert.Model.agg_aa (Cert.Spec.scaleRows (n := 100000) (m ((c : Thread nD τ).loc main_arg0)) (shapeCast S100000x1 (Cert.Model.outDeg_aa (m ((c : Thread nD τ).loc main_arg2))) shapeCasts_S100000_S100000x1)) (m ((c : Thread nD τ).loc main_arg2)) (m ((c : Thread nD τ).loc main_arg3)) :=
    (host1_main_v33 (W2 m ρ c)).trans (by rw [hxn, hs2, hd2])
  have hdegf : V3 m ρ c main_v34 = shapeCast S100000x1 (Cert.Model.inDeg_aa (m ((c : Thread nD τ).loc main_arg3))) shapeCasts_S100000_S100000x1 :=
    (host1_main_v34 (W2 m ρ c)).trans (by rw [hin2])
  have hbias : V3 m ρ c main_v35 = shapeCast S1x128 (m ((c : Thread nD τ).loc main_arg9)) shapeCasts_S128_S1x128 :=
    (host1_main_v35 (W2 m ρ c)).trans (by rw [hb2])
  have hw : V3 m ρ c main_arg8 = (m ((c : Thread nD τ).loc main_arg8)) := argAt3 m ρ c main_arg8 (by decide)
  -- region 1: the finished table
  exact (W4_arr m ρ c 4).trans ((Cert.KernelIdeal.RegionValue.final1 (V3 m ρ) c).trans (by
    rw [hagg, hdegf, hw, hbias]; rfl))

end Cert.KernelIdeal.Chain

end
-- ==== Proof.ScaleR2.lean ====
/-
  The scaled table left by the second scaling region.

  The region walks the 25000 rows of its table in 5 blocks of 5000 rows. At block t the body stores, for
  every row of the block, the row times its node's normalising factor. Each block written back is therefore the
  matching block of the scaled table, the blocks cover all 25000 rows, and so the output array ends holding
  the scaled table.
-/
import proofs.«158240_j69793218560324_1_alg».proof.Proof.Gen.KernelIdeal.Frame
import proofs.«158240_j69793218560324_1_alg».proof.Proof.Spec
import proofs.«158240_j69793218560324_1_alg».proof.Proof.ScalePay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_off2 : (![0, 0] : Fin 2 → Nat) = fun _ => 0 := funext fun a => by fin_cases a <;> rfl

/-- The block index maps over the 5 grid points: at point t the table, the degree column and the output are
    all at row block t, column block 0. -/
theorem idx_facts2 : ∀ t : Fin cfg2.N,
    win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the scaled table. -/
theorem flushed2_eq (c : Dev nD) (t : Fin cfg2.N) :
    (dat2 (F := Ideal) V c).flushed 2 t
      = ((cfg2.win 2).blk t).view.read (Elt Ideal) (Cert.Spec.scaleRows (V c main_arg1) (V c main_v54)) := by
  show (cfg2.win 2).cut (grid2.coords t) ((dat2 V c).after 2 t) = _
  rw [after2_2]
  unfold out2_2
  rw [View.canon_unit_zero zero_off2]
  simp only [View.ld_unit_zero (S := S5000x128) zero_off2, View.ld_unit_zero (S := S5000x1) zero_off2]
  obtain ⟨e0, e1, e2, e3, e4, e5⟩ := idx_facts2 t
  funext j
  show k2_pay1 (iblk2 V c 1 t) (iblk2 V c 0 t) j
    = Cert.Spec.scaleRows (V c main_arg1) (V c main_v54) (((cfg2.win 2).blk t).view.emb j)
  refine ScalePay.block2_apply (V c main_arg1) (V c main_v54) _ _ (win2_2.index t (0 : Fin 2) * 5000) ?_ ?_ j _ ?_ ?_
  · -- the table's block: element y sits win-index rows down
    intro y i hi0 hi1
    show V c main_arg1 (((cfg2.win 0).blk t).view.emb y) = V c main_arg1 i
    refine congrArg (V c main_arg1) (funext fun a => Fin.ext ?_)
    match a with
    | ⟨0, _⟩ =>
      show win2_0.index t (0 : Fin 2) * 5000 + 1 * (y 0).val = (i 0).val
      omega
    | ⟨1, _⟩ =>
      show win2_0.index t (1 : Fin 2) * 128 + 1 * (y 1).val = (i 1).val
      omega
  · -- the degree column's block
    intro y i hi0
    show V c main_v54 (((cfg2.win 1).blk t).view.emb y) = V c main_v54 i
    refine congrArg (V c main_v54) (funext fun a => Fin.ext ?_)
    match a with
    | ⟨0, _⟩ =>
      show win2_1.index t (0 : Fin 2) * 5000 + 1 * (y 0).val = (i 0).val
      omega
    | ⟨1, _⟩ =>
      show win2_1.index t (1 : Fin 2) * 1 + 1 * (y 1).val = (i 1).val
      have hy : (y 1).val < 1 := (y 1).isLt
      have hi : (i 1).val < 1 := (i 1).isLt
      omega
  · show win2_2.index t (0 : Fin 2) * 5000 + 1 * (j 0).val = win2_2.index t (0 : Fin 2) * 5000 + (j 0).val
    omega
  · show win2_2.index t (1 : Fin 2) * 128 + 1 * (j 1).val = (j 1).val
    omega

/-- An index of the output array is in point t's block iff each coordinate is in the block's range on its axis. -/
theorem mem_blk2 (t : Fin cfg2.N) (i : S25000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v55).slice (win2_2.rect t)).set ↔ _
  rw [View.set_slice_whole, Rect.mem_set_unit]
  exact Iff.rfl

/-- Every row is in the block of the point numbered by its row divided by 5000. -/
theorem cover2 (i : S25000x128.Idx) :
    ∃ t : Fin cfg2.N, (cfg2.win 2).flush t = true ∧ i ∈ ((cfg2.win 2).blk t).view.set := by
  have hi0 : (i 0).val < 25000 := (i 0).isLt
  have hi1 : (i 1).val < 128 := (i 1).isLt
  have ht : (i 0).val / 5000 < cfg2.N := by
    show (i 0).val / 5000 < grid2.N
    rw [N_2]
    omega
  obtain ⟨-, -, -, -, e4, e5⟩ := idx_facts2 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- The output array after the region: the scaled table. -/
theorem final2 (c : Dev nD) :
    (dat2 (F := Ideal) V c).arrAt 2 cfg2.N = Cert.Spec.scaleRows (V c main_arg1) (V c main_v54) :=
  (dat2 V c).arrAt_eq_of_cover 2 _ (fun t _ => flushed2_eq V c t) (cover2)

end Cert.KernelIdeal.RegionValue

end
-- ==== Proof.FinalR3.lean ====
/-
  One finishing step over a 100000-row table: the array it leaves is the finished table of the arrays it finds.

  The step walks its 100000-row tables in 20 blocks of 5000 rows. At block t the aggregated table and the degree
  column are read at rows 5000·t … 5000·t + 4999, the weight matrix and the bias row whole, and the block's result is
  written to the same rows of the output. So what block t writes is the rows 5000·t … of the finished table
  (written_eq), every row is in the block of its quotient by 5000 (covered), and the array the step leaves is the
  finished table (final3).
-/
import proofs.«158240_j69793218560324_1_alg».proof.Proof.Gen.KernelIdeal.Frame
import proofs.«158240_j69793218560324_1_alg».proof.Proof.Spec
import proofs.«158240_j69793218560324_1_alg».proof.Proof.FinalPay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Final3

variable (V : (c : Dev nD) → (b : Ref sig .tc) → Buf (Elt Ideal) ((c : Thread nD τ).loc b))

/-- The zero offsets of a whole-buffer access, as a function. -/
theorem zeroOffsets : (![0, 0] : Fin 2 → Nat) = fun _ => 0 := funext fun a => by fin_cases a <;> rfl

/-- The block indices over the grid: block t of the aggregated table, of the degree column and of the output are at
    row block t, column block 0; the weights and the bias are always their one block. -/
theorem blockIndex : ∀ t : Fin cfg3.N, win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- WHAT BLOCK t WRITES BACK is rows 5000·t … 5000·t + 4999 of the finished table of the arrays as the step finds
    them. -/
theorem written_eq (c : Dev nD) (t : Fin cfg3.N) :
    (dat3 (F := Ideal) V c).flushed 4 t = ((cfg3.win 4).blk t).view.read (Elt Ideal)
      (Cert.Spec.finalRows (n := 100000) (V c main_v70) (V c main_v71) (V c main_arg12) (V c main_v72)) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e40, e41, e00, e01, e10, e11, e20, e21, e30, e31⟩ := blockIndex t
  funext y
  obtain ⟨p, q, rfl⟩ : ∃ (p : Fin 5000) (q : Fin 128), y = ix2 p q := ⟨y 0, y 1, eq_ix2 y⟩
  show k3_pay1 (iblk3 V c 1 t) (iblk3 V c 0 t) (iblk3 V c 2 t) (iblk3 V c 3 t) (ix2 p q)
    = Cert.Spec.finalRows (n := 100000) (V c main_v70) (V c main_v71) (V c main_arg12) (V c main_v72)
        (((cfg3.win 4).blk t).view.emb (ix2 p q))
  refine FinalPay.pay_eq_finalRows _ _ _ _ _ _ _ _ p q _ (fun k => ?_) ?_ (fun k => ?_) ?_
  · show V c main_v70 (((cfg3.win 0).blk t).view.emb (ix2 p k)) = _
    refine congrArg (V c main_v70) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * k.val = k.val; omega
  · show V c main_v71 (((cfg3.win 1).blk t).view.emb (ix2 p 0)) = _
    refine congrArg (V c main_v71) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 1 + 1 * 0 = 0; omega
  · show V c main_arg12 (((cfg3.win 2).blk t).view.emb (ix2 k q)) = _
    refine congrArg (V c main_arg12) (funext fun a => Fin.ext ?_)
    match a with
    | ⟨0, _⟩ => show win3_2.index t (0 : Fin 2) * 128 + 1 * k.val = k.val; omega
    | ⟨1, _⟩ => show win3_2.index t (1 : Fin 2) * 128 + 1 * q.val = win3_4.index t (1 : Fin 2) * 128 + 1 * q.val; omega
  · show V c main_v72 (((cfg3.win 3).blk t).view.emb (ix2 0 q)) = _
    refine congrArg (V c main_v72) (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-- An index of the output array is in block t iff each coordinate is in the block's range on its axis. -/
theorem mem_block (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v73).slice (win3_4.rect t)).set ↔ _
  rw [View.set_slice_whole, Rect.mem_set_unit]
  exact Iff.rfl

/-- EVERY ROW IS WRITTEN: row r is in the block of r / 5000. -/
theorem covered (i : S100000x128.Idx) :
    ∃ t : Fin cfg3.N, (cfg3.win 4).flush t = true ∧ i ∈ ((cfg3.win 4).blk t).view.set := by
  have hi0 : (i 0).val < 100000 := idx2_lt0 i
  have hi1 : (i 1).val < 128 := idx2_lt1 i
  have hN : (i 0).val / 5000 < grid3.N := by rw [N_3]; omega
  obtain ⟨e40, e41, -⟩ := blockIndex ⟨(i 0).val / 5000, hN⟩
  refine ⟨⟨(i 0).val / 5000, hN⟩, flush3_4 _, ?_⟩
  rw [mem_block]
  intro a
  match a with
  | ⟨0, _⟩ =>
    show win3_4.index ⟨(i 0).val / 5000, hN⟩ (0 : Fin 2) * 5000 ≤ (i 0).val
      ∧ (i 0).val < win3_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, hN⟩ (1 : Fin 2) * 128 ≤ (i 1).val
      ∧ (i 1).val < win3_4.index ⟨(i 0).val / 5000, hN⟩ (1 : Fin 2) * 128 + 128
    rw [e41]
    omega

end Final3

/-- THE ARRAY THE STEP LEAVES is the finished table of the arrays it finds. -/
theorem final3 (V : (c : Dev nD) → (b : Ref sig .tc) → Buf (Elt Ideal) ((c : Thread nD τ).loc b)) (c : Dev nD) :
    (dat3 (F := Ideal) V c).arrAt 4 cfg3.N
      = Cert.Spec.finalRows (n := 100000) (V c main_v70) (V c main_v71) (V c main_arg12) (V c main_v72) :=
  (dat3 (F := Ideal) V c).arrAt_eq_of_cover 4 _ (fun t _ => Final3.written_eq V c t) Final3.covered

end Cert.KernelIdeal.RegionValue

end
-- ==== Proof.KConv1.lean ====
/-
  One graph convolution of the kernel program, read off its run: the out- and in-degree counts and the column reshape
  before the first region, the row scaling in the first region, the gather and scatter-add between the regions, the
  scaling, matrix product and bias in the second region.
-/
import proofs.«158240_j69793218560324_1_alg».proof.Proof.KStages
import proofs.«158240_j69793218560324_1_alg».proof.Proof.Model
import proofs.«158240_j69793218560324_1_alg».proof.Proof.ScaleR2
import proofs.«158240_j69793218560324_1_alg».proof.Proof.FinalR3

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## What the two stretches of host operations compute, from any contents -/

set_option maxRecDepth 8192 in
set_option maxHeartbeats 2000000 in
theorem host2_main_v54 (Wv : Valuation τ sig (Elt Ideal)) :
    StableHlo.after hostOps2 Wv (Proc.devRef .tc main_v54) = shapeCast S25000x1 (Cert.Model.outDeg_ta (Wv (Proc.devRef .tc main_arg6))) shapeCasts_S25000_S25000x1 := by
  simp only [hostOps2]
  after_results_simp
  rfl

set_option maxRecDepth 8192 in
set_option maxHeartbeats 2000000 in
theorem host2_main_v53 (Wv : Valuation τ sig (Elt Ideal)) :
    StableHlo.after hostOps2 Wv (Proc.devRef .tc main_v53) = Cert.Model.inDeg_ta (Wv (Proc.devRef .tc main_arg7)) := by
  simp only [hostOps2]
  after_results_simp
  rfl

set_option maxRecDepth 8192 in
set_option maxHeartbeats 2000000 in
theorem host3_main_v70 (Wv : Valuation τ sig (Elt Ideal)) :
    StableHlo.after hostOps3 Wv (Proc.devRef .tc main_v70) = Cert.Model.agg_ta (Wv (Proc.devRef .tc main_v55)) (Wv (Proc.devRef .tc main_arg6)) (Wv (Proc.devRef .tc main_arg7)) := by
  simp only [hostOps3]
  after_results_simp
  rfl

set_option maxRecDepth 8192 in
set_option maxHeartbeats 2000000 in
theorem host3_main_v71 (Wv : Valuation τ sig (Elt Ideal)) :
    StableHlo.after hostOps3 Wv (Proc.devRef .tc main_v71) = shapeCast S100000x1 (Wv (Proc.devRef .tc main_v53)) shapeCasts_S100000_S100000x1 := by
  simp only [hostOps3]
  after_results_simp
  rfl

set_option maxRecDepth 8192 in
set_option maxHeartbeats 2000000 in
theorem host3_main_v72 (Wv : Valuation τ sig (Elt Ideal)) :
    StableHlo.after hostOps3 Wv (Proc.devRef .tc main_v72) = shapeCast S1x128 (Wv (Proc.devRef .tc main_arg13)) shapeCasts_S128_S1x128 := by
  simp only [hostOps3]
  after_results_simp
  rfl

/-! ## The convolution -/

variable (m : (ℓ : Loc nD τ sig) → Buf (Elt Ideal) ℓ) (ρ : Dev nD → PrngReg)

/-- The first layer's convolution along the relation team to author, read off the run: regions 2 and 3 with the host
    operations around them compute conv_ta of the table the first region is entered with. -/
theorem conv1 (c : Dev nD) :
    W8 m ρ c (Proc.devRef .tc main_v73) = Cert.Model.conv_ta (m ((c : Thread nD τ).loc main_arg1)) (m ((c : Thread nD τ).loc main_arg6)) (m ((c : Thread nD τ).loc main_arg7)) (m ((c : Thread nD τ).loc main_arg12)) (m ((c : Thread nD τ).loc main_arg13)) := by
  -- the table and the out-degree column as region 2 finds them
  have hx : V5 m ρ c main_arg1 = (m ((c : Thread nD τ).loc main_arg1)) :=
    (show W5 m ρ c (Proc.devRef .tc main_arg1) = W4 m ρ c (Proc.devRef .tc main_arg1) by host_keep).trans (argAt4 m ρ c main_arg1 (by decide))
  have hs0 : W4 m ρ c (Proc.devRef .tc main_arg6) = (m ((c : Thread nD τ).loc main_arg6)) := argAt4 m ρ c main_arg6 (by decide)
  have hd0 : W4 m ρ c (Proc.devRef .tc main_arg7) = (m ((c : Thread nD τ).loc main_arg7)) := argAt4 m ρ c main_arg7 (by decide)
  have hdeg : V5 m ρ c main_v54 = shapeCast S25000x1 (Cert.Model.outDeg_ta (m ((c : Thread nD τ).loc main_arg6))) shapeCasts_S25000_S25000x1 :=
    (host2_main_v54 (W4 m ρ c)).trans (by rw [hs0])
  have hin1 : W5 m ρ c (Proc.devRef .tc main_v53) = Cert.Model.inDeg_ta (m ((c : Thread nD τ).loc main_arg7)) :=
    (host2_main_v53 (W4 m ρ c)).trans (by rw [hd0])
  -- region 2: the scaled table
  have hxn : W6 m ρ c (Proc.devRef .tc main_v55) = (Cert.Spec.scaleRows (n := 25000) (m ((c : Thread nD τ).loc main_arg1)) (shapeCast S25000x1 (Cert.Model.outDeg_ta (m ((c : Thread nD τ).loc main_arg6))) shapeCasts_S25000_S25000x1)) :=
    (W6_arr m ρ c 2).trans ((Cert.KernelIdeal.RegionValue.final2 (V5 m ρ) c).trans (by rw [hx, hdeg]))
  have hin2 : W6 m ρ c (Proc.devRef .tc main_v53) = Cert.Model.inDeg_ta (m ((c : Thread nD τ).loc main_arg7)) :=
    (keepR2 m ρ c main_v53 (by decide)).trans hin1
  have hs2 : W6 m ρ c (Proc.devRef .tc main_arg6) = (m ((c : Thread nD τ).loc main_arg6)) := argAt6 m ρ c main_arg6 (by decide)
  have hd2 : W6 m ρ c (Proc.devRef .tc main_arg7) = (m ((c : Thread nD τ).loc main_arg7)) := argAt6 m ρ c main_arg7 (by decide)
  have hb2 : W6 m ρ c (Proc.devRef .tc main_arg13) = (m ((c : Thread nD τ).loc main_arg13)) := argAt6 m ρ c main_arg13 (by decide)
  -- the host operations between the regions: the aggregate, the in-degree column, the bias row
  have hagg : V7 m ρ c main_v70 = Cert.Model.agg_ta (Cert.Spec.scaleRows (n := 25000) (m ((c : Thread nD τ).loc main_arg1)) (shapeCast S25000x1 (Cert.Model.outDeg_ta (m ((c : Thread nD τ).loc main_arg6))) shapeCasts_S25000_S25000x1)) (m ((c : Thread nD τ).loc main_arg6)) (m ((c : Thread nD τ).loc main_arg7)) :=
    (host3_main_v70 (W6 m ρ c)).trans (by rw [hxn, hs2, hd2])
  have hdegf : V7 m ρ c main_v71 = shapeCast S100000x1 (Cert.Model.inDeg_ta (m ((c : Thread nD τ).loc main_arg7))) shapeCasts_S100000_S100000x1 :=
    (host3_main_v71 (W6 m ρ c)).trans (by rw [hin2])
  have hbias : V7 m ρ c main_v72 = shapeCast S1x128 (m ((c : Thread nD τ).loc main_arg13)) shapeCasts_S128_S1x128 :=
    (host3_main_v72 (W6 m ρ c)).trans (by rw [hb2])
  have hw : V7 m ρ c main_arg12 = (m ((c : Thread nD τ).loc main_arg12)) := argAt7 m ρ c main_arg12 (by decide)
  -- region 3: the finished table
  exact (W8_arr m ρ c 4).trans ((Cert.KernelIdeal.RegionValue.final3 (V7 m ρ) c).trans (by
    rw [hagg, hdegf, hw, hbias]; rfl))

end Cert.KernelIdeal.Chain

end
-- ==== Proof.ScaleR4.lean ====
/-
  The scaled table left by the third scaling region.

  The region walks the 100000 rows of its table in 20 blocks of 5000 rows. At block t the body stores, for
  every row of the block, the row times its node's normalising factor. Each block written back is therefore the
  matching block of the scaled table, the blocks cover all 100000 rows, and so the output array ends holding
  the scaled table.
-/
import proofs.«158240_j69793218560324_1_alg».proof.Proof.Gen.KernelIdeal.Frame
import proofs.«158240_j69793218560324_1_alg».proof.Proof.Spec
import proofs.«158240_j69793218560324_1_alg».proof.Proof.ScalePay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_off4 : (![0, 0] : Fin 2 → Nat) = fun _ => 0 := funext fun a => by fin_cases a <;> rfl

/-- The block index maps over the 20 grid points: at point t the table, the degree column and the output are
    all at row block t, column block 0. -/
theorem idx_facts4 : ∀ t : Fin cfg4.N,
    win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the scaled table. -/
theorem flushed4_eq (c : Dev nD) (t : Fin cfg4.N) :
    (dat4 (F := Ideal) V c).flushed 2 t
      = ((cfg4.win 2).blk t).view.read (Elt Ideal) (Cert.Spec.scaleRows (V c main_arg0) (V c main_v92)) := by
  show (cfg4.win 2).cut (grid4.coords t) ((dat4 V c).after 2 t) = _
  rw [after4_2]
  unfold out4_2
  rw [View.canon_unit_zero zero_off4]
  simp only [View.ld_unit_zero (S := S5000x128) zero_off4, View.ld_unit_zero (S := S5000x1) zero_off4]
  obtain ⟨e0, e1, e2, e3, e4, e5⟩ := idx_facts4 t
  funext j
  show k4_pay1 (iblk4 V c 1 t) (iblk4 V c 0 t) j
    = Cert.Spec.scaleRows (V c main_arg0) (V c main_v92) (((cfg4.win 2).blk t).view.emb j)
  refine ScalePay.block4_apply (V c main_arg0) (V c main_v92) _ _ (win4_2.index t (0 : Fin 2) * 5000) ?_ ?_ j _ ?_ ?_
  · -- the table's block: element y sits win-index rows down
    intro y i hi0 hi1
    show V c main_arg0 (((cfg4.win 0).blk t).view.emb y) = V c main_arg0 i
    refine congrArg (V c main_arg0) (funext fun a => Fin.ext ?_)
    match a with
    | ⟨0, _⟩ =>
      show win4_0.index t (0 : Fin 2) * 5000 + 1 * (y 0).val = (i 0).val
      omega
    | ⟨1, _⟩ =>
      show win4_0.index t (1 : Fin 2) * 128 + 1 * (y 1).val = (i 1).val
      omega
  · -- the degree column's block
    intro y i hi0
    show V c main_v92 (((cfg4.win 1).blk t).view.emb y) = V c main_v92 i
    refine congrArg (V c main_v92) (funext fun a => Fin.ext ?_)
    match a with
    | ⟨0, _⟩ =>
      show win4_1.index t (0 : Fin 2) * 5000 + 1 * (y 0).val = (i 0).val
      omega
    | ⟨1, _⟩ =>
      show win4_1.index t (1 : Fin 2) * 1 + 1 * (y 1).val = (i 1).val
      have hy : (y 1).val < 1 := (y 1).isLt
      have hi : (i 1).val < 1 := (i 1).isLt
      omega
  · show win4_2.index t (0 : Fin 2) * 5000 + 1 * (j 0).val = win4_2.index t (0 : Fin 2) * 5000 + (j 0).val
    omega
  · show win4_2.index t (1 : Fin 2) * 128 + 1 * (j 1).val = (j 1).val
    omega

/-- An index of the output array is in point t's block iff each coordinate is in the block's range on its axis. -/
theorem mem_blk4 (t : Fin cfg4.N) (i : S100000x128.Idx) :
    i ∈ ((cfg4.win 2).blk t).view.set
      ↔ ∀ a : Fin 2, win4_2.index t a * S5000x128.size a ≤ (i a).val
          ∧ (i a).val < win4_2.index t a * S5000x128.size a + S5000x128.size a := by
  show i ∈ ((View.whole main_v93).slice (win4_2.rect t)).set ↔ _
  rw [View.set_slice_whole, Rect.mem_set_unit]
  exact Iff.rfl

/-- Every row is in the block of the point numbered by its row divided by 5000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < cfg4.N := by
    show (i 0).val / 5000 < grid4.N
    rw [N_4]
    omega
  obtain ⟨-, -, -, -, e4, e5⟩ := idx_facts4 ⟨(i 0).val / 5000, ht⟩
  have e4' : win4_2.index ⟨(i 0).val / 5000, ht⟩ (0 : Fin 2) = (i 0).val / 5000 := e4
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    omega

/-- The output array after the region: the scaled table. -/
theorem final4 (c : Dev nD) :
    (dat4 (F := Ideal) V c).arrAt 2 cfg4.N = Cert.Spec.scaleRows (V c main_arg0) (V c main_v92) :=
  (dat4 V c).arrAt_eq_of_cover 2 _ (fun t _ => flushed4_eq V c t) (cover4)

end Cert.KernelIdeal.RegionValue

end
-- ==== Proof.FinalR5.lean ====
/-
  One finishing step over a 25000-row table: the array it leaves is the finished table of the arrays it finds.

  The step walks its 25000-row tables in 5 blocks of 5000 rows. At block t the aggregated table and the degree
  column are read at rows 5000·t … 5000·t + 4999, the weight matrix and the bias row whole, and the block's result is
  written to the same rows of the output. So what block t writes is the rows 5000·t … of the finished table
  (written_eq), every row is in the block of its quotient by 5000 (covered), and the array the step leaves is the
  finished table (final5).
-/
import proofs.«158240_j69793218560324_1_alg».proof.Proof.Gen.KernelIdeal.Frame
import proofs.«158240_j69793218560324_1_alg».proof.Proof.Spec
import proofs.«158240_j69793218560324_1_alg».proof.Proof.FinalPay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Final5

variable (V : (c : Dev nD) → (b : Ref sig .tc) → Buf (Elt Ideal) ((c : Thread nD τ).loc b))

/-- The zero offsets of a whole-buffer access, as a function. -/
theorem zeroOffsets : (![0, 0] : Fin 2 → Nat) = fun _ => 0 := funext fun a => by fin_cases a <;> rfl

/-- The block indices over the grid: block t of the aggregated table, of the degree column and of the output are at
    row block t, column block 0; the weights and the bias are always their one block. -/
theorem blockIndex : ∀ t : Fin cfg5.N, win5_4.index t (0 : Fin 2) = t.val ∧ win5_4.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- WHAT BLOCK t WRITES BACK is rows 5000·t … 5000·t + 4999 of the finished table of the arrays as the step finds
    them. -/
theorem written_eq (c : Dev nD) (t : Fin cfg5.N) :
    (dat5 (F := Ideal) V c).flushed 4 t = ((cfg5.win 4).blk t).view.read (Elt Ideal)
      (Cert.Spec.finalRows (n := 25000) (V c main_v108) (V c main_v109) (V c main_arg10) (V c main_v110)) := by
  show (cfg5.win 4).cut (grid5.coords t) ((dat5 V c).after 4 t) = _
  rw [after5_4]
  unfold out5_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e40, e41, e00, e01, e10, e11, e20, e21, e30, e31⟩ := blockIndex t
  funext y
  obtain ⟨p, q, rfl⟩ : ∃ (p : Fin 5000) (q : Fin 128), y = ix2 p q := ⟨y 0, y 1, eq_ix2 y⟩
  show k5_pay1 (iblk5 V c 1 t) (iblk5 V c 0 t) (iblk5 V c 2 t) (iblk5 V c 3 t) (ix2 p q)
    = Cert.Spec.finalRows (n := 25000) (V c main_v108) (V c main_v109) (V c main_arg10) (V c main_v110)
        (((cfg5.win 4).blk t).view.emb (ix2 p q))
  refine FinalPay.pay_eq_finalRows _ _ _ _ _ _ _ _ p q _ (fun k => ?_) ?_ (fun k => ?_) ?_
  · show V c main_v108 (((cfg5.win 0).blk t).view.emb (ix2 p k)) = _
    refine congrArg (V c main_v108) (funext fun a => Fin.ext ?_)
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * k.val = k.val; omega
  · show V c main_v109 (((cfg5.win 1).blk t).view.emb (ix2 p 0)) = _
    refine congrArg (V c main_v109) (funext fun a => Fin.ext ?_)
    match a with
    | ⟨0, _⟩ => show win5_1.index t (0 : Fin 2) * 5000 + 1 * p.val = win5_4.index t (0 : Fin 2) * 5000 + 1 * p.val; omega
    | ⟨1, _⟩ => show win5_1.index t (1 : Fin 2) * 1 + 1 * 0 = 0; omega
  · show V c main_arg10 (((cfg5.win 2).blk t).view.emb (ix2 k q)) = _
    refine congrArg (V c main_arg10) (funext fun a => Fin.ext ?_)
    match a with
    | ⟨0, _⟩ => show win5_2.index t (0 : Fin 2) * 128 + 1 * k.val = k.val; omega
    | ⟨1, _⟩ => show win5_2.index t (1 : Fin 2) * 128 + 1 * q.val = win5_4.index t (1 : Fin 2) * 128 + 1 * q.val; omega
  · show V c main_v110 (((cfg5.win 3).blk t).view.emb (ix2 0 q)) = _
    refine congrArg (V c main_v110) (funext fun a => Fin.ext ?_)
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega

/-- An index of the output array is in block t iff each coordinate is in the block's range on its axis. -/
theorem mem_block (t : Fin cfg5.N) (i : S25000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v111).slice (win5_4.rect t)).set ↔ _
  rw [View.set_slice_whole, Rect.mem_set_unit]
  exact Iff.rfl

/-- EVERY ROW IS WRITTEN: row r is in the block of r / 5000. -/
theorem covered (i : S25000x128.Idx) :
    ∃ t : Fin cfg5.N, (cfg5.win 4).flush t = true ∧ i ∈ ((cfg5.win 4).blk t).view.set := by
  have hi0 : (i 0).val < 25000 := idx2_lt0 i
  have hi1 : (i 1).val < 128 := idx2_lt1 i
  have hN : (i 0).val / 5000 < grid5.N := by rw [N_5]; omega
  obtain ⟨e40, e41, -⟩ := blockIndex ⟨(i 0).val / 5000, hN⟩
  refine ⟨⟨(i 0).val / 5000, hN⟩, flush5_4 _, ?_⟩
  rw [mem_block]
  intro a
  match a with
  | ⟨0, _⟩ =>
    show win5_4.index ⟨(i 0).val / 5000, hN⟩ (0 : Fin 2) * 5000 ≤ (i 0).val
      ∧ (i 0).val < win5_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win5_4.index ⟨(i 0).val / 5000, hN⟩ (1 : Fin 2) * 128 ≤ (i 1).val
      ∧ (i 1).val < win5_4.index ⟨(i 0).val / 5000, hN⟩ (1 : Fin 2) * 128 + 128
    rw [e41]
    omega

end Final5

/-- THE ARRAY THE STEP LEAVES is the finished table of the arrays it finds. -/
theorem final5 (V : (c : Dev nD) → (b : Ref sig .tc) → Buf (Elt Ideal) ((c : Thread nD τ).loc b)) (c : Dev nD) :
    (dat5 (F := Ideal) V c).arrAt 4 cfg5.N
      = Cert.Spec.finalRows (n := 25000) (V c main_v108) (V c main_v109) (V c main_arg10) (V c main_v110) :=
  (dat5 (F := Ideal) V c).arrAt_eq_of_cover 4 _ (fun t _ => Final5.written_eq V c t) Final5.covered

end Cert.KernelIdeal.RegionValue

end
-- ==== Proof.KConv2.lean ====
/-
  One graph convolution of the kernel program, read off its run: the out- and in-degree counts and the column reshape
  before the first region, the row scaling in the first region, the gather and scatter-add between the regions, the
  scaling, matrix product and bias in the second region.
-/
import proofs.«158240_j69793218560324_1_alg».proof.Proof.KStages
import proofs.«158240_j69793218560324_1_alg».proof.Proof.Model
import proofs.«158240_j69793218560324_1_alg».proof.Proof.ScaleR4
import proofs.«158240_j69793218560324_1_alg».proof.Proof.FinalR5

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## What the two stretches of host operations compute, from any contents -/

set_option maxRecDepth 8192 in
set_option maxHeartbeats 2000000 in
theorem host4_main_v92 (Wv : Valuation τ sig (Elt Ideal)) :
    StableHlo.after hostOps4 Wv (Proc.devRef .tc main_v92) = shapeCast S100000x1 (Cert.Model.outDeg_at (Wv (Proc.devRef .tc main_arg4))) shapeCasts_S100000_S100000x1 := by
  simp only [hostOps4]
  after_results_simp
  rfl

set_option maxRecDepth 8192 in
set_option maxHeartbeats 2000000 in
theorem host4_main_v91 (Wv : Valuation τ sig (Elt Ideal)) :
    StableHlo.after hostOps4 Wv (Proc.devRef .tc main_v91) = Cert.Model.inDeg_at (Wv (Proc.devRef .tc main_arg5)) := by
  simp only [hostOps4]
  after_results_simp
  rfl

set_option maxRecDepth 8192 in
set_option maxHeartbeats 2000000 in
theorem host5_main_v108 (Wv : Valuation τ sig (Elt Ideal)) :
    StableHlo.after hostOps5 Wv (Proc.devRef .tc main_v108) = Cert.Model.agg_at (Wv (Proc.devRef .tc main_v93)) (Wv (Proc.devRef .tc main_arg4)) (Wv (Proc.devRef .tc main_arg5)) := by
  simp only [hostOps5]
  after_results_simp
  rfl

set_option maxRecDepth 8192 in
set_option maxHeartbeats 2000000 in
theorem host5_main_v109 (Wv : Valuation τ sig (Elt Ideal)) :
    StableHlo.after hostOps5 Wv (Proc.devRef .tc main_v109) = shapeCast S25000x1 (Wv (Proc.devRef .tc main_v91)) shapeCasts_S25000_S25000x1 := by
  simp only [hostOps5]
  after_results_simp
  rfl

set_option maxRecDepth 8192 in
set_option maxHeartbeats 2000000 in
theorem host5_main_v110 (Wv : Valuation τ sig (Elt Ideal)) :
    StableHlo.after hostOps5 Wv (Proc.devRef .tc main_v110) = shapeCast S1x128 (Wv (Proc.devRef .tc main_arg11)) shapeCasts_S128_S1x128 := by
  simp only [hostOps5]
  after_results_simp
  rfl

/-! ## The convolution -/

variable (m : (ℓ : Loc nD τ sig) → Buf (Elt Ideal) ℓ) (ρ : Dev nD → PrngReg)

/-- The first layer's convolution along the relation author to team, read off the run: regions 4 and 5 with the host
    operations around them compute conv_at of the table the first region is entered with. -/
theorem conv2 (c : Dev nD) :
    W12 m ρ c (Proc.devRef .tc main_v111) = Cert.Model.conv_at (m ((c : Thread nD τ).loc main_arg0)) (m ((c : Thread nD τ).loc main_arg4)) (m ((c : Thread nD τ).loc main_arg5)) (m ((c : Thread nD τ).loc main_arg10)) (m ((c : Thread nD τ).loc main_arg11)) := by
  -- the table and the out-degree column as region 4 finds them
  have hx : V9 m ρ c main_arg0 = (m ((c : Thread nD τ).loc main_arg0)) :=
    (show W9 m ρ c (Proc.devRef .tc main_arg0) = W8 m ρ c (Proc.devRef .tc main_arg0) by host_keep).trans (argAt8 m ρ c main_arg0 (by decide))
  have hs0 : W8 m ρ c (Proc.devRef .tc main_arg4) = (m ((c : Thread nD τ).loc main_arg4)) := argAt8 m ρ c main_arg4 (by decide)
  have hd0 : W8 m ρ c (Proc.devRef .tc main_arg5) = (m ((c : Thread nD τ).loc main_arg5)) := argAt8 m ρ c main_arg5 (by decide)
  have hdeg : V9 m ρ c main_v92 = shapeCast S100000x1 (Cert.Model.outDeg_at (m ((c : Thread nD τ).loc main_arg4))) shapeCasts_S100000_S100000x1 :=
    (host4_main_v92 (W8 m ρ c)).trans (by rw [hs0])
  have hin1 : W9 m ρ c (Proc.devRef .tc main_v91) = Cert.Model.inDeg_at (m ((c : Thread nD τ).loc main_arg5)) :=
    (host4_main_v91 (W8 m ρ c)).trans (by rw [hd0])
  -- region 4: the scaled table
  have hxn : W10 m ρ c (Proc.devRef .tc main_v93) = (Cert.Spec.scaleRows (n := 100000) (m ((c : Thread nD τ).loc main_arg0)) (shapeCast S100000x1 (Cert.Model.outDeg_at (m ((c : Thread nD τ).loc main_arg4))) shapeCasts_S100000_S100000x1)) :=
    (W10_arr m ρ c 2).trans ((Cert.KernelIdeal.RegionValue.final4 (V9 m ρ) c).trans (by rw [hx, hdeg]))
  have hin2 : W10 m ρ c (Proc.devRef .tc main_v91) = Cert.Model.inDeg_at (m ((c : Thread nD τ).loc main_arg5)) :=
    (keepR4 m ρ c main_v91 (by decide)).trans hin1
  have hs2 : W10 m ρ c (Proc.devRef .tc main_arg4) = (m ((c : Thread nD τ).loc main_arg4)) := argAt10 m ρ c main_arg4 (by decide)
  have hd2 : W10 m ρ c (Proc.devRef .tc main_arg5) = (m ((c : Thread nD τ).loc main_arg5)) := argAt10 m ρ c main_arg5 (by decide)
  have hb2 : W10 m ρ c (Proc.devRef .tc main_arg11) = (m ((c : Thread nD τ).loc main_arg11)) := argAt10 m ρ c main_arg11 (by decide)
  -- the host operations between the regions: the aggregate, the in-degree column, the bias row
  have hagg : V11 m ρ c main_v108 = Cert.Model.agg_at (Cert.Spec.scaleRows (n := 100000) (m ((c : Thread nD τ).loc main_arg0)) (shapeCast S100000x1 (Cert.Model.outDeg_at (m ((c : Thread nD τ).loc main_arg4))) shapeCasts_S100000_S100000x1)) (m ((c : Thread nD τ).loc main_arg4)) (m ((c : Thread nD τ).loc main_arg5)) :=
    (host5_main_v108 (W10 m ρ c)).trans (by rw [hxn, hs2, hd2])
  have hdegf : V11 m ρ c main_v109 = shapeCast S25000x1 (Cert.Model.inDeg_at (m ((c : Thread nD τ).loc main_arg5))) shapeCasts_S25000_S25000x1 :=
    (host5_main_v109 (W10 m ρ c)).trans (by rw [hin2])
  have hbias : V11 m ρ c main_v110 = shapeCast S1x128 (m ((c : Thread nD τ).loc main_arg11)) shapeCasts_S128_S1x128 :=
    (host5_main_v110 (W10 m ρ c)).trans (by rw [hb2])
  have hw : V11 m ρ c main_arg10 = (m ((c : Thread nD τ).loc main_arg10)) := argAt11 m ρ c main_arg10 (by decide)
  -- region 5: the finished table
  exact (W12_arr m ρ c 4).trans ((Cert.KernelIdeal.RegionValue.final5 (V11 m ρ) c).trans (by
    rw [hagg, hdegf, hw, hbias]; rfl))

end Cert.KernelIdeal.Chain

end
-- ==== Proof.ScaleR6.lean ====
/-
  The scaled table left by the fourth scaling region.

  The region walks the 100000 rows of its table in 20 blocks of 5000 rows. At block t the body stores, for
  every row of the block, the row times its node's normalising factor. Each block written back is therefore the
  matching block of the scaled table, the blocks cover all 100000 rows, and so the output array ends holding
  the scaled table.
-/
import proofs.«158240_j69793218560324_1_alg».proof.Proof.Gen.KernelIdeal.Frame
import proofs.«158240_j69793218560324_1_alg».proof.Proof.Spec
import proofs.«158240_j69793218560324_1_alg».proof.Proof.ScalePay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_off6 : (![0, 0] : Fin 2 → Nat) = fun _ => 0 := funext fun a => by fin_cases a <;> rfl

/-- The block index maps over the 20 grid points: at point t the table, the degree column and the output are
    all at row block t, column block 0. -/
theorem idx_facts6 : ∀ t : Fin cfg6.N,
    win6_0.index t (0 : Fin 2) = win6_2.index t (0 : Fin 2)
    ∧ win6_0.index t (1 : Fin 2) = 0
    ∧ win6_1.index t (0 : Fin 2) = win6_2.index t (0 : Fin 2)
    ∧ win6_1.index t (1 : Fin 2) = 0
    ∧ win6_2.index t (0 : Fin 2) = t.val
    ∧ win6_2.index t (1 : Fin 2) = 0 :=
  (by decide +kernel : ∀ t : Fin grid6.N, _)

/-- What point t writes back is block t of the scaled table. -/
theorem flushed6_eq (c : Dev nD) (t : Fin cfg6.N) :
    (dat6 (F := Ideal) V c).flushed 2 t
      = ((cfg6.win 2).blk t).view.read (Elt Ideal) (Cert.Spec.scaleRows (V c main_v74) (V c main_v129)) := by
  show (cfg6.win 2).cut (grid6.coords t) ((dat6 V c).after 2 t) = _
  rw [after6_2]
  unfold out6_2
  rw [View.canon_unit_zero zero_off6]
  simp only [View.ld_unit_zero (S := S5000x128) zero_off6, View.ld_unit_zero (S := S5000x1) zero_off6]
  obtain ⟨e0, e1, e2, e3, e4, e5⟩ := idx_facts6 t
  funext j
  show k6_pay1 (iblk6 V c 1 t) (iblk6 V c 0 t) j
    = Cert.Spec.scaleRows (V c main_v74) (V c main_v129) (((cfg6.win 2).blk t).view.emb j)
  refine ScalePay.block6_apply (V c main_v74) (V c main_v129) _ _ (win6_2.index t (0 : Fin 2) * 5000) ?_ ?_ j _ ?_ ?_
  · -- the table's block: element y sits win-index rows down
    intro y i hi0 hi1
    show V c main_v74 (((cfg6.win 0).blk t).view.emb y) = V c main_v74 i
    refine congrArg (V c main_v74) (funext fun a => Fin.ext ?_)
    match a with
    | ⟨0, _⟩ =>
      show win6_0.index t (0 : Fin 2) * 5000 + 1 * (y 0).val = (i 0).val
      omega
    | ⟨1, _⟩ =>
      show win6_0.index t (1 : Fin 2) * 128 + 1 * (y 1).val = (i 1).val
      omega
  · -- the degree column's block
    intro y i hi0
    show V c main_v129 (((cfg6.win 1).blk t).view.emb y) = V c main_v129 i
    refine congrArg (V c main_v129) (funext fun a => Fin.ext ?_)
    match a with
    | ⟨0, _⟩ =>
      show win6_1.index t (0 : Fin 2) * 5000 + 1 * (y 0).val = (i 0).val
      omega
    | ⟨1, _⟩ =>
      show win6_1.index t (1 : Fin 2) * 1 + 1 * (y 1).val = (i 1).val
      have hy : (y 1).val < 1 := (y 1).isLt
      have hi : (i 1).val < 1 := (i 1).isLt
      omega
  · show win6_2.index t (0 : Fin 2) * 5000 + 1 * (j 0).val = win6_2.index t (0 : Fin 2) * 5000 + (j 0).val
    omega
  · show win6_2.index t (1 : Fin 2) * 128 + 1 * (j 1).val = (j 1).val
    omega

/-- An index of the output array is in point t's block iff each coordinate is in the block's range on its axis. -/
theorem mem_blk6 (t : Fin cfg6.N) (i : S100000x128.Idx) :
    i ∈ ((cfg6.win 2).blk t).view.set
      ↔ ∀ a : Fin 2, win6_2.index t a * S5000x128.size a ≤ (i a).val
          ∧ (i a).val < win6_2.index t a * S5000x128.size a + S5000x128.size a := by
  show i ∈ ((View.whole main_v130).slice (win6_2.rect t)).set ↔ _
  rw [View.set_slice_whole, Rect.mem_set_unit]
  exact Iff.rfl

/-- Every row is in the block of the point numbered by its row divided by 5000. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have ht : (i 0).val / 5000 < cfg6.N := by
    show (i 0).val / 5000 < grid6.N
    rw [N_6]
    omega
  obtain ⟨-, -, -, -, e4, e5⟩ := idx_facts6 ⟨(i 0).val / 5000, ht⟩
  have e4' : win6_2.index ⟨(i 0).val / 5000, ht⟩ (0 : Fin 2) = (i 0).val / 5000 := e4
  refine ⟨⟨(i 0).val / 5000, ht⟩, flush6_2 _, ?_⟩
  rw [mem_blk6]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    omega
  | ⟨1, _⟩ =>
    show win6_2.index ⟨(i 0).val / 5000, ht⟩ (1 : Fin 2) * 128 ≤ (i 1).val
      ∧ (i 1).val < win6_2.index ⟨(i 0).val / 5000, ht⟩ (1 : Fin 2) * 128 + 128
    omega

/-- The output array after the region: the scaled table. -/
theorem final6 (c : Dev nD) :
    (dat6 (F := Ideal) V c).arrAt 2 cfg6.N = Cert.Spec.scaleRows (V c main_v74) (V c main_v129) :=
  (dat6 V c).arrAt_eq_of_cover 2 _ (fun t _ => flushed6_eq V c t) (cover6)

end Cert.KernelIdeal.RegionValue

end
-- ==== Proof.FinalR7.lean ====
/-
  One finishing step over a 100000-row table: the array it leaves is the finished table of the arrays it finds.

  The step walks its 100000-row tables in 20 blocks of 5000 rows. At block t the aggregated table and the degree
  column are read at rows 5000·t … 5000·t + 4999, the weight matrix and the bias row whole, and the block's result is
  written to the same rows of the output. So what block t writes is the rows 5000·t … of the finished table
  (written_eq), every row is in the block of its quotient by 5000 (covered), and the array the step leaves is the
  finished table (final7).
-/
import proofs.«158240_j69793218560324_1_alg».proof.Proof.Gen.KernelIdeal.Frame
import proofs.«158240_j69793218560324_1_alg».proof.Proof.Spec
import proofs.«158240_j69793218560324_1_alg».proof.Proof.FinalPay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Final7

variable (V : (c : Dev nD) → (b : Ref sig .tc) → Buf (Elt Ideal) ((c : Thread nD τ).loc b))

/-- The zero offsets of a whole-buffer access, as a function. -/
theorem zeroOffsets : (![0, 0] : Fin 2 → Nat) = fun _ => 0 := funext fun a => by fin_cases a <;> rfl

/-- The block indices over the grid: block t of the aggregated table, of the degree column and of the output are at
    row block t, column block 0; the weights and the bias are always their one block. -/
theorem blockIndex : ∀ t : Fin cfg7.N, win7_4.index t (0 : Fin 2) = t.val ∧ win7_4.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- WHAT BLOCK t WRITES BACK is rows 5000·t … 5000·t + 4999 of the finished table of the arrays as the step finds
    them. -/
theorem written_eq (c : Dev nD) (t : Fin cfg7.N) :
    (dat7 (F := Ideal) V c).flushed 4 t = ((cfg7.win 4).blk t).view.read (Elt Ideal)
      (Cert.Spec.finalRows (n := 100000) (V c main_v145) (V c main_v146) (V c main_arg8) (V c main_v147)) := by
  show (cfg7.win 4).cut (grid7.coords t) ((dat7 V c).after 4 t) = _
  rw [after7_4]
  unfold out7_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e40, e41, e00, e01, e10, e11, e20, e21, e30, e31⟩ := blockIndex t
  funext y
  obtain ⟨p, q, rfl⟩ : ∃ (p : Fin 5000) (q : Fin 128), y = ix2 p q := ⟨y 0, y 1, eq_ix2 y⟩
  show k7_pay1 (iblk7 V c 1 t) (iblk7 V c 0 t) (iblk7 V c 2 t) (iblk7 V c 3 t) (ix2 p q)
    = Cert.Spec.finalRows (n := 100000) (V c main_v145) (V c main_v146) (V c main_arg8) (V c main_v147)
        (((cfg7.win 4).blk t).view.emb (ix2 p q))
  refine FinalPay.pay_eq_finalRows _ _ _ _ _ _ _ _ p q _ (fun k => ?_) ?_ (fun k => ?_) ?_
  · show V c main_v145 (((cfg7.win 0).blk t).view.emb (ix2 p k)) = _
    refine congrArg (V c main_v145) (funext fun a => Fin.ext ?_)
    match a with
    | ⟨0, _⟩ => show win7_0.index t (0 : Fin 2) * 5000 + 1 * p.val = win7_4.index t (0 : Fin 2) * 5000 + 1 * p.val; omega
    | ⟨1, _⟩ => show win7_0.index t (1 : Fin 2) * 128 + 1 * k.val = k.val; omega
  · show V c main_v146 (((cfg7.win 1).blk t).view.emb (ix2 p 0)) = _
    refine congrArg (V c main_v146) (funext fun a => Fin.ext ?_)
    match a with
    | ⟨0, _⟩ => show win7_1.index t (0 : Fin 2) * 5000 + 1 * p.val = win7_4.index t (0 : Fin 2) * 5000 + 1 * p.val; omega
    | ⟨1, _⟩ => show win7_1.index t (1 : Fin 2) * 1 + 1 * 0 = 0; omega
  · show V c main_arg8 (((cfg7.win 2).blk t).view.emb (ix2 k q)) = _
    refine congrArg (V c main_arg8) (funext fun a => Fin.ext ?_)
    match a with
    | ⟨0, _⟩ => show win7_2.index t (0 : Fin 2) * 128 + 1 * k.val = k.val; omega
    | ⟨1, _⟩ => show win7_2.index t (1 : Fin 2) * 128 + 1 * q.val = win7_4.index t (1 : Fin 2) * 128 + 1 * q.val; omega
  · show V c main_v147 (((cfg7.win 3).blk t).view.emb (ix2 0 q)) = _
    refine congrArg (V c main_v147) (funext fun a => Fin.ext ?_)
    match a with
    | ⟨0, _⟩ => show win7_3.index t (0 : Fin 2) * 1 + 1 * 0 = 0; omega
    | ⟨1, _⟩ => show win7_3.index t (1 : Fin 2) * 128 + 1 * q.val = win7_4.index t (1 : Fin 2) * 128 + 1 * q.val; omega

/-- An index of the output array is in block t iff each coordinate is in the block's range on its axis. -/
theorem mem_block (t : Fin cfg7.N) (i : S100000x128.Idx) :
    i ∈ ((cfg7.win 4).blk t).view.set ↔ ∀ a : Fin 2, win7_4.index t a * S5000x128.size a ≤ (i a).val
      ∧ (i a).val < win7_4.index t a * S5000x128.size a + S5000x128.size a := by
  show i ∈ ((View.whole main_v148).slice (win7_4.rect t)).set ↔ _
  rw [View.set_slice_whole, Rect.mem_set_unit]
  exact Iff.rfl

/-- EVERY ROW IS WRITTEN: row r is in the block of r / 5000. -/
theorem covered (i : S100000x128.Idx) :
    ∃ t : Fin cfg7.N, (cfg7.win 4).flush t = true ∧ i ∈ ((cfg7.win 4).blk t).view.set := by
  have hi0 : (i 0).val < 100000 := idx2_lt0 i
  have hi1 : (i 1).val < 128 := idx2_lt1 i
  have hN : (i 0).val / 5000 < grid7.N := by rw [N_7]; omega
  obtain ⟨e40, e41, -⟩ := blockIndex ⟨(i 0).val / 5000, hN⟩
  refine ⟨⟨(i 0).val / 5000, hN⟩, flush7_4 _, ?_⟩
  rw [mem_block]
  intro a
  match a with
  | ⟨0, _⟩ =>
    show win7_4.index ⟨(i 0).val / 5000, hN⟩ (0 : Fin 2) * 5000 ≤ (i 0).val
      ∧ (i 0).val < win7_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win7_4.index ⟨(i 0).val / 5000, hN⟩ (1 : Fin 2) * 128 ≤ (i 1).val
      ∧ (i 1).val < win7_4.index ⟨(i 0).val / 5000, hN⟩ (1 : Fin 2) * 128 + 128
    rw [e41]
    omega

end Final7

/-- THE ARRAY THE STEP LEAVES is the finished table of the arrays it finds. -/
theorem final7 (V : (c : Dev nD) → (b : Ref sig .tc) → Buf (Elt Ideal) ((c : Thread nD τ).loc b)) (c : Dev nD) :
    (dat7 (F := Ideal) V c).arrAt 4 cfg7.N
      = Cert.Spec.finalRows (n := 100000) (V c main_v145) (V c main_v146) (V c main_arg8) (V c main_v147) :=
  (dat7 (F := Ideal) V c).arrAt_eq_of_cover 4 _ (fun t _ => Final7.written_eq V c t) Final7.covered

end Cert.KernelIdeal.RegionValue

end
-- ==== Proof.KConv3.lean ====
/-
  One graph convolution of the kernel program, read off its run: the out- and in-degree counts and the column reshape
  before the first region, the row scaling in the first region, the gather and scatter-add between the regions, the
  scaling, matrix product and bias in the second region.
-/
import proofs.«158240_j69793218560324_1_alg».proof.Proof.KStages
import proofs.«158240_j69793218560324_1_alg».proof.Proof.Model
import proofs.«158240_j69793218560324_1_alg».proof.Proof.ScaleR6
import proofs.«158240_j69793218560324_1_alg».proof.Proof.FinalR7

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## What the two stretches of host operations compute, from any contents -/

set_option maxRecDepth 8192 in
set_option maxHeartbeats 2000000 in
theorem host6_main_v129 (Wv : Valuation τ sig (Elt Ideal)) :
    StableHlo.after hostOps6 Wv (Proc.devRef .tc main_v129) = shapeCast S100000x1 (Cert.Model.outDeg_aa (Wv (Proc.devRef .tc main_arg2))) shapeCasts_S100000_S100000x1 := by
  simp only [hostOps6]
  after_results_simp
  rfl

set_option maxRecDepth 8192 in
set_option maxHeartbeats 2000000 in
theorem host6_main_v128 (Wv : Valuation τ sig (Elt Ideal)) :
    StableHlo.after hostOps6 Wv (Proc.devRef .tc main_v128) = Cert.Model.inDeg_aa (Wv (Proc.devRef .tc main_arg3)) := by
  simp only [hostOps6]
  after_results_simp
  rfl

set_option maxRecDepth 8192 in
set_option maxHeartbeats 2000000 in
theorem host7_main_v145 (Wv : Valuation τ sig (Elt Ideal)) :
    StableHlo.after hostOps7 Wv (Proc.devRef .tc main_v145) = Cert.Model.agg_aa (Wv (Proc.devRef .tc main_v130)) (Wv (Proc.devRef .tc main_arg2)) (Wv (Proc.devRef .tc main_arg3)) := by
  simp only [hostOps7]
  after_results_simp
  rfl

set_option maxRecDepth 8192 in
set_option maxHeartbeats 2000000 in
theorem host7_main_v146 (Wv : Valuation τ sig (Elt Ideal)) :
    StableHlo.after hostOps7 Wv (Proc.devRef .tc main_v146) = shapeCast S100000x1 (Wv (Proc.devRef .tc main_v128)) shapeCasts_S100000_S100000x1 := by
  simp only [hostOps7]
  after_results_simp
  rfl

set_option maxRecDepth 8192 in
set_option maxHeartbeats 2000000 in
theorem host7_main_v147 (Wv : Valuation τ sig (Elt Ideal)) :
    StableHlo.after hostOps7 Wv (Proc.devRef .tc main_v147) = shapeCast S1x128 (Wv (Proc.devRef .tc main_arg9)) shapeCasts_S128_S1x128 := by
  simp only [hostOps7]
  after_results_simp
  rfl

/-! ## The convolution -/

variable (m : (ℓ : Loc nD τ sig) → Buf (Elt Ideal) ℓ) (ρ : Dev nD → PrngReg)

/-- The second layer's convolution along the relation author to author, read off the run: regions 6 and 7 with the host
    operations around them compute conv_aa of the table the first region is entered with. -/
theorem conv3 (c : Dev nD)
    (X : (⟨S100000x128, .f32⟩ : BufTy).Contents (Elt Ideal)) (hX : W12 m ρ c (Proc.devRef .tc main_v74) = X) :
    W16 m ρ c (Proc.devRef .tc main_v148) = Cert.Model.conv_aa X (m ((c : Thread nD τ).loc main_arg2)) (m ((c : Thread nD τ).loc main_arg3)) (m ((c : Thread nD τ).loc main_arg8)) (m ((c : Thread nD τ).loc main_arg9)) := by
  -- the table and the out-degree column as region 6 finds them
  have hx : V13 m ρ c main_v74 = X :=
    (show W13 m ρ c (Proc.devRef .tc main_v74) = W12 m ρ c (Proc.devRef .tc main_v74) by host_keep).trans (hX)
  have hs0 : W12 m ρ c (Proc.devRef .tc main_arg2) = (m ((c : Thread nD τ).loc main_arg2)) := argAt12 m ρ c main_arg2 (by decide)
  have hd0 : W12 m ρ c (Proc.devRef .tc main_arg3) = (m ((c : Thread nD τ).loc main_arg3)) := argAt12 m ρ c main_arg3 (by decide)
  have hdeg : V13 m ρ c main_v129 = shapeCast S100000x1 (Cert.Model.outDeg_aa (m ((c : Thread nD τ).loc main_arg2))) shapeCasts_S100000_S100000x1 :=
    (host6_main_v129 (W12 m ρ c)).trans (by rw [hs0])
  have hin1 : W13 m ρ c (Proc.devRef .tc main_v128) = Cert.Model.inDeg_aa (m ((c : Thread nD τ).loc main_arg3)) :=
    (host6_main_v128 (W12 m ρ c)).trans (by rw [hd0])
  -- region 6: the scaled table
  have hxn : W14 m ρ c (Proc.devRef .tc main_v130) = (Cert.Spec.scaleRows (n := 100000) X (shapeCast S100000x1 (Cert.Model.outDeg_aa (m ((c : Thread nD τ).loc main_arg2))) shapeCasts_S100000_S100000x1)) :=
    (W14_arr m ρ c 2).trans ((Cert.KernelIdeal.RegionValue.final6 (V13 m ρ) c).trans (by rw [hx, hdeg]))
  have hin2 : W14 m ρ c (Proc.devRef .tc main_v128) = Cert.Model.inDeg_aa (m ((c : Thread nD τ).loc main_arg3)) :=
    (keepR6 m ρ c main_v128 (by decide)).trans hin1
  have hs2 : W14 m ρ c (Proc.devRef .tc main_arg2) = (m ((c : Thread nD τ).loc main_arg2)) := argAt14 m ρ c main_arg2 (by decide)
  have hd2 : W14 m ρ c (Proc.devRef .tc main_arg3) = (m ((c : Thread nD τ).loc main_arg3)) := argAt14 m ρ c main_arg3 (by decide)
  have hb2 : W14 m ρ c (Proc.devRef .tc main_arg9) = (m ((c : Thread nD τ).loc main_arg9)) := argAt14 m ρ c main_arg9 (by decide)
  -- the host operations between the regions: the aggregate, the in-degree column, the bias row
  have hagg : V15 m ρ c main_v145 = Cert.Model.agg_aa (Cert.Spec.scaleRows (n := 100000) X (shapeCast S100000x1 (Cert.Model.outDeg_aa (m ((c : Thread nD τ).loc main_arg2))) shapeCasts_S100000_S100000x1)) (m ((c : Thread nD τ).loc main_arg2)) (m ((c : Thread nD τ).loc main_arg3)) :=
    (host7_main_v145 (W14 m ρ c)).trans (by rw [hxn, hs2, hd2])
  have hdegf : V15 m ρ c main_v146 = shapeCast S100000x1 (Cert.Model.inDeg_aa (m ((c : Thread nD τ).loc main_arg3))) shapeCasts_S100000_S100000x1 :=
    (host7_main_v146 (W14 m ρ c)).trans (by rw [hin2])
  have hbias : V15 m ρ c main_v147 = shapeCast S1x128 (m ((c : Thread nD τ).loc main_arg9)) shapeCasts_S128_S1x128 :=
    (host7_main_v147 (W14 m ρ c)).trans (by rw [hb2])
  have hw : V15 m ρ c main_arg8 = (m ((c : Thread nD τ).loc main_arg8)) := argAt15 m ρ c main_arg8 (by decide)
  -- region 7: the finished table
  exact (W16_arr m ρ c 4).trans ((Cert.KernelIdeal.RegionValue.final7 (V15 m ρ) c).trans (by
    rw [hagg, hdegf, hw, hbias]; rfl))

end Cert.KernelIdeal.Chain

end
-- ==== Proof.ScaleR8.lean ====
/-
  The scaled table left by the fifth scaling region.

  The region walks the 25000 rows of its table in 5 blocks of 5000 rows. At block t the body stores, for
  every row of the block, the row times its node's normalising factor. Each block written back is therefore the
  matching block of the scaled table, the blocks cover all 25000 rows, and so the output array ends holding
  the scaled table.
-/
import proofs.«158240_j69793218560324_1_alg».proof.Proof.Gen.KernelIdeal.Frame
import proofs.«158240_j69793218560324_1_alg».proof.Proof.Spec
import proofs.«158240_j69793218560324_1_alg».proof.Proof.ScalePay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_off8 : (![0, 0] : Fin 2 → Nat) = fun _ => 0 := funext fun a => by fin_cases a <;> rfl

/-- The block index maps over the 5 grid points: at point t the table, the degree column and the output are
    all at row block t, column block 0. -/
theorem idx_facts8 : ∀ t : Fin cfg8.N,
    win8_0.index t (0 : Fin 2) = win8_2.index t (0 : Fin 2)
    ∧ win8_0.index t (1 : Fin 2) = 0
    ∧ win8_1.index t (0 : Fin 2) = win8_2.index t (0 : Fin 2)
    ∧ win8_1.index t (1 : Fin 2) = 0
    ∧ win8_2.index t (0 : Fin 2) = t.val
    ∧ win8_2.index t (1 : Fin 2) = 0 :=
  (by decide +kernel : ∀ t : Fin grid8.N, _)

/-- What point t writes back is block t of the scaled table. -/
theorem flushed8_eq (c : Dev nD) (t : Fin cfg8.N) :
    (dat8 (F := Ideal) V c).flushed 2 t
      = ((cfg8.win 2).blk t).view.read (Elt Ideal) (Cert.Spec.scaleRows (V c main_v111) (V c main_v166)) := by
  show (cfg8.win 2).cut (grid8.coords t) ((dat8 V c).after 2 t) = _
  rw [after8_2]
  unfold out8_2
  rw [View.canon_unit_zero zero_off8]
  simp only [View.ld_unit_zero (S := S5000x128) zero_off8, View.ld_unit_zero (S := S5000x1) zero_off8]
  obtain ⟨e0, e1, e2, e3, e4, e5⟩ := idx_facts8 t
  funext j
  show k8_pay1 (iblk8 V c 1 t) (iblk8 V c 0 t) j
    = Cert.Spec.scaleRows (V c main_v111) (V c main_v166) (((cfg8.win 2).blk t).view.emb j)
  refine ScalePay.block8_apply (V c main_v111) (V c main_v166) _ _ (win8_2.index t (0 : Fin 2) * 5000) ?_ ?_ j _ ?_ ?_
  · -- the table's block: element y sits win-index rows down
    intro y i hi0 hi1
    show V c main_v111 (((cfg8.win 0).blk t).view.emb y) = V c main_v111 i
    refine congrArg (V c main_v111) (funext fun a => Fin.ext ?_)
    match a with
    | ⟨0, _⟩ =>
      show win8_0.index t (0 : Fin 2) * 5000 + 1 * (y 0).val = (i 0).val
      omega
    | ⟨1, _⟩ =>
      show win8_0.index t (1 : Fin 2) * 128 + 1 * (y 1).val = (i 1).val
      omega
  · -- the degree column's block
    intro y i hi0
    show V c main_v166 (((cfg8.win 1).blk t).view.emb y) = V c main_v166 i
    refine congrArg (V c main_v166) (funext fun a => Fin.ext ?_)
    match a with
    | ⟨0, _⟩ =>
      show win8_1.index t (0 : Fin 2) * 5000 + 1 * (y 0).val = (i 0).val
      omega
    | ⟨1, _⟩ =>
      show win8_1.index t (1 : Fin 2) * 1 + 1 * (y 1).val = (i 1).val
      have hy : (y 1).val < 1 := (y 1).isLt
      have hi : (i 1).val < 1 := (i 1).isLt
      omega
  · show win8_2.index t (0 : Fin 2) * 5000 + 1 * (j 0).val = win8_2.index t (0 : Fin 2) * 5000 + (j 0).val
    omega
  · show win8_2.index t (1 : Fin 2) * 128 + 1 * (j 1).val = (j 1).val
    omega

/-- An index of the output array is in point t's block iff each coordinate is in the block's range on its axis. -/
theorem mem_blk8 (t : Fin cfg8.N) (i : S25000x128.Idx) :
    i ∈ ((cfg8.win 2).blk t).view.set
      ↔ ∀ a : Fin 2, win8_2.index t a * S5000x128.size a ≤ (i a).val
          ∧ (i a).val < win8_2.index t a * S5000x128.size a + S5000x128.size a := by
  show i ∈ ((View.whole main_v167).slice (win8_2.rect t)).set ↔ _
  rw [View.set_slice_whole, Rect.mem_set_unit]
  exact Iff.rfl

/-- Every row is in the block of the point numbered by its row divided by 5000. -/
theorem cover8 (i : S25000x128.Idx) :
    ∃ t : Fin cfg8.N, (cfg8.win 2).flush t = true ∧ i ∈ ((cfg8.win 2).blk t).view.set := by
  have hi0 : (i 0).val < 25000 := (i 0).isLt
  have hi1 : (i 1).val < 128 := (i 1).isLt
  have ht : (i 0).val / 5000 < cfg8.N := by
    show (i 0).val / 5000 < grid8.N
    rw [N_8]
    omega
  obtain ⟨-, -, -, -, e4, e5⟩ := idx_facts8 ⟨(i 0).val / 5000, ht⟩
  have e4' : win8_2.index ⟨(i 0).val / 5000, ht⟩ (0 : Fin 2) = (i 0).val / 5000 := e4
  refine ⟨⟨(i 0).val / 5000, ht⟩, flush8_2 _, ?_⟩
  rw [mem_blk8]
  intro a
  match a with
  | ⟨0, _⟩ =>
    show win8_2.index ⟨(i 0).val / 5000, ht⟩ (0 : Fin 2) * 5000 ≤ (i 0).val
      ∧ (i 0).val < win8_2.index ⟨(i 0).val / 5000, ht⟩ (0 : Fin 2) * 5000 + 5000
    omega
  | ⟨1, _⟩ =>
    show win8_2.index ⟨(i 0).val / 5000, ht⟩ (1 : Fin 2) * 128 ≤ (i 1).val
      ∧ (i 1).val < win8_2.index ⟨(i 0).val / 5000, ht⟩ (1 : Fin 2) * 128 + 128
    omega

/-- The output array after the region: the scaled table. -/
theorem final8 (c : Dev nD) :
    (dat8 (F := Ideal) V c).arrAt 2 cfg8.N = Cert.Spec.scaleRows (V c main_v111) (V c main_v166) :=
  (dat8 V c).arrAt_eq_of_cover 2 _ (fun t _ => flushed8_eq V c t) (cover8)

end Cert.KernelIdeal.RegionValue

end
-- ==== Proof.FinalR9.lean ====
/-
  One finishing step over a 100000-row table: the array it leaves is the finished table of the arrays it finds.

  The step walks its 100000-row tables in 20 blocks of 5000 rows. At block t the aggregated table and the degree
  column are read at rows 5000·t … 5000·t + 4999, the weight matrix and the bias row whole, and the block's result is
  written to the same rows of the output. So what block t writes is the rows 5000·t … of the finished table
  (written_eq), every row is in the block of its quotient by 5000 (covered), and the array the step leaves is the
  finished table (final9).
-/
import proofs.«158240_j69793218560324_1_alg».proof.Proof.Gen.KernelIdeal.Frame
import proofs.«158240_j69793218560324_1_alg».proof.Proof.Spec
import proofs.«158240_j69793218560324_1_alg».proof.Proof.FinalPay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Final9

variable (V : (c : Dev nD) → (b : Ref sig .tc) → Buf (Elt Ideal) ((c : Thread nD τ).loc b))

/-- The zero offsets of a whole-buffer access, as a function. -/
theorem zeroOffsets : (![0, 0] : Fin 2 → Nat) = fun _ => 0 := funext fun a => by fin_cases a <;> rfl

/-- The block indices over the grid: block t of the aggregated table, of the degree column and of the output are at
    row block t, column block 0; the weights and the bias are always their one block. -/
theorem blockIndex : ∀ t : Fin cfg9.N, win9_4.index t (0 : Fin 2) = t.val ∧ win9_4.index t (1 : Fin 2) = 0
    ∧ win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- WHAT BLOCK t WRITES BACK is rows 5000·t … 5000·t + 4999 of the finished table of the arrays as the step finds
    them. -/
theorem written_eq (c : Dev nD) (t : Fin cfg9.N) :
    (dat9 (F := Ideal) V c).flushed 4 t = ((cfg9.win 4).blk t).view.read (Elt Ideal)
      (Cert.Spec.finalRows (n := 100000) (V c main_v182) (V c main_v183) (V c main_arg12) (V c main_v184)) := by
  show (cfg9.win 4).cut (grid9.coords t) ((dat9 V c).after 4 t) = _
  rw [after9_4]
  unfold out9_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e40, e41, e00, e01, e10, e11, e20, e21, e30, e31⟩ := blockIndex t
  funext y
  obtain ⟨p, q, rfl⟩ : ∃ (p : Fin 5000) (q : Fin 128), y = ix2 p q := ⟨y 0, y 1, eq_ix2 y⟩
  show k9_pay1 (iblk9 V c 1 t) (iblk9 V c 0 t) (iblk9 V c 2 t) (iblk9 V c 3 t) (ix2 p q)
    = Cert.Spec.finalRows (n := 100000) (V c main_v182) (V c main_v183) (V c main_arg12) (V c main_v184)
        (((cfg9.win 4).blk t).view.emb (ix2 p q))
  refine FinalPay.pay_eq_finalRows _ _ _ _ _ _ _ _ p q _ (fun k => ?_) ?_ (fun k => ?_) ?_
  · show V c main_v182 (((cfg9.win 0).blk t).view.emb (ix2 p k)) = _
    refine congrArg (V c main_v182) (funext fun a => Fin.ext ?_)
    match a with
    | ⟨0, _⟩ => show win9_0.index t (0 : Fin 2) * 5000 + 1 * p.val = win9_4.index t (0 : Fin 2) * 5000 + 1 * p.val; omega
    | ⟨1, _⟩ => show win9_0.index t (1 : Fin 2) * 128 + 1 * k.val = k.val; omega
  · show V c main_v183 (((cfg9.win 1).blk t).view.emb (ix2 p 0)) = _
    refine congrArg (V c main_v183) (funext fun a => Fin.ext ?_)
    match a with
    | ⟨0, _⟩ => show win9_1.index t (0 : Fin 2) * 5000 + 1 * p.val = win9_4.index t (0 : Fin 2) * 5000 + 1 * p.val; omega
    | ⟨1, _⟩ => show win9_1.index t (1 : Fin 2) * 1 + 1 * 0 = 0; omega
  · show V c main_arg12 (((cfg9.win 2).blk t).view.emb (ix2 k q)) = _
    refine congrArg (V c main_arg12) (funext fun a => Fin.ext ?_)
    match a with
    | ⟨0, _⟩ => show win9_2.index t (0 : Fin 2) * 128 + 1 * k.val = k.val; omega
    | ⟨1, _⟩ => show win9_2.index t (1 : Fin 2) * 128 + 1 * q.val = win9_4.index t (1 : Fin 2) * 128 + 1 * q.val; omega
  · show V c main_v184 (((cfg9.win 3).blk t).view.emb (ix2 0 q)) = _
    refine congrArg (V c main_v184) (funext fun a => Fin.ext ?_)
    match a with
    | ⟨0, _⟩ => show win9_3.index t (0 : Fin 2) * 1 + 1 * 0 = 0; omega
    | ⟨1, _⟩ => show win9_3.index t (1 : Fin 2) * 128 + 1 * q.val = win9_4.index t (1 : Fin 2) * 128 + 1 * q.val; omega

/-- An index of the output array is in block t iff each coordinate is in the block's range on its axis. -/
theorem mem_block (t : Fin cfg9.N) (i : S100000x128.Idx) :
    i ∈ ((cfg9.win 4).blk t).view.set ↔ ∀ a : Fin 2, win9_4.index t a * S5000x128.size a ≤ (i a).val
      ∧ (i a).val < win9_4.index t a * S5000x128.size a + S5000x128.size a := by
  show i ∈ ((View.whole main_v185).slice (win9_4.rect t)).set ↔ _
  rw [View.set_slice_whole, Rect.mem_set_unit]
  exact Iff.rfl

/-- EVERY ROW IS WRITTEN: row r is in the block of r / 5000. -/
theorem covered (i : S100000x128.Idx) :
    ∃ t : Fin cfg9.N, (cfg9.win 4).flush t = true ∧ i ∈ ((cfg9.win 4).blk t).view.set := by
  have hi0 : (i 0).val < 100000 := idx2_lt0 i
  have hi1 : (i 1).val < 128 := idx2_lt1 i
  have hN : (i 0).val / 5000 < grid9.N := by rw [N_9]; omega
  obtain ⟨e40, e41, -⟩ := blockIndex ⟨(i 0).val / 5000, hN⟩
  refine ⟨⟨(i 0).val / 5000, hN⟩, flush9_4 _, ?_⟩
  rw [mem_block]
  intro a
  match a with
  | ⟨0, _⟩ =>
    show win9_4.index ⟨(i 0).val / 5000, hN⟩ (0 : Fin 2) * 5000 ≤ (i 0).val
      ∧ (i 0).val < win9_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win9_4.index ⟨(i 0).val / 5000, hN⟩ (1 : Fin 2) * 128 ≤ (i 1).val
      ∧ (i 1).val < win9_4.index ⟨(i 0).val / 5000, hN⟩ (1 : Fin 2) * 128 + 128
    rw [e41]
    omega

end Final9

/-- THE ARRAY THE STEP LEAVES is the finished table of the arrays it finds. -/
theorem final9 (V : (c : Dev nD) → (b : Ref sig .tc) → Buf (Elt Ideal) ((c : Thread nD τ).loc b)) (c : Dev nD) :
    (dat9 (F := Ideal) V c).arrAt 4 cfg9.N
      = Cert.Spec.finalRows (n := 100000) (V c main_v182) (V c main_v183) (V c main_arg12) (V c main_v184) :=
  (dat9 (F := Ideal) V c).arrAt_eq_of_cover 4 _ (fun t _ => Final9.written_eq V c t) Final9.covered

end Cert.KernelIdeal.RegionValue

end
-- ==== Proof.KConv4.lean ====
/-
  One graph convolution of the kernel program, read off its run: the out- and in-degree counts and the column reshape
  before the first region, the row scaling in the first region, the gather and scatter-add between the regions, the
  scaling, matrix product and bias in the second region.
-/
import proofs.«158240_j69793218560324_1_alg».proof.Proof.KStages
import proofs.«158240_j69793218560324_1_alg».proof.Proof.Model
import proofs.«158240_j69793218560324_1_alg».proof.Proof.ScaleR8
import proofs.«158240_j69793218560324_1_alg».proof.Proof.FinalR9

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## What the two stretches of host operations compute, from any contents -/

set_option maxRecDepth 8192 in
set_option maxHeartbeats 2000000 in
theorem host8_main_v166 (Wv : Valuation τ sig (Elt Ideal)) :
    StableHlo.after hostOps8 Wv (Proc.devRef .tc main_v166) = shapeCast S25000x1 (Cert.Model.outDeg_ta (Wv (Proc.devRef .tc main_arg6))) shapeCasts_S25000_S25000x1 := by
  simp only [hostOps8]
  after_results_simp
  rfl

set_option maxRecDepth 8192 in
set_option maxHeartbeats 2000000 in
theorem host8_main_v165 (Wv : Valuation τ sig (Elt Ideal)) :
    StableHlo.after hostOps8 Wv (Proc.devRef .tc main_v165) = Cert.Model.inDeg_ta (Wv (Proc.devRef .tc main_arg7)) := by
  simp only [hostOps8]
  after_results_simp
  rfl

set_option maxRecDepth 8192 in
set_option maxHeartbeats 2000000 in
theorem host9_main_v182 (Wv : Valuation τ sig (Elt Ideal)) :
    StableHlo.after hostOps9 Wv (Proc.devRef .tc main_v182) = Cert.Model.agg_ta (Wv (Proc.devRef .tc main_v167)) (Wv (Proc.devRef .tc main_arg6)) (Wv (Proc.devRef .tc main_arg7)) := by
  simp only [hostOps9]
  after_results_simp
  rfl

set_option maxRecDepth 8192 in
set_option maxHeartbeats 2000000 in
theorem host9_main_v183 (Wv : Valuation τ sig (Elt Ideal)) :
    StableHlo.after hostOps9 Wv (Proc.devRef .tc main_v183) = shapeCast S100000x1 (Wv (Proc.devRef .tc main_v165)) shapeCasts_S100000_S100000x1 := by
  simp only [hostOps9]
  after_results_simp
  rfl

set_option maxRecDepth 8192 in
set_option maxHeartbeats 2000000 in
theorem host9_main_v184 (Wv : Valuation τ sig (Elt Ideal)) :
    StableHlo.after hostOps9 Wv (Proc.devRef .tc main_v184) = shapeCast S1x128 (Wv (Proc.devRef .tc main_arg13)) shapeCasts_S128_S1x128 := by
  simp only [hostOps9]
  after_results_simp
  rfl

/-! ## The convolution -/

variable (m : (ℓ : Loc nD τ sig) → Buf (Elt Ideal) ℓ) (ρ : Dev nD → PrngReg)

/-- The second layer's convolution along the relation team to author, read off the run: regions 8 and 9 with the host
    operations around them compute conv_ta of the table the first region is entered with. -/
theorem conv4 (c : Dev nD)
    (X : (⟨S25000x128, .f32⟩ : BufTy).Contents (Elt Ideal)) (hX : W16 m ρ c (Proc.devRef .tc main_v111) = X) :
    W20 m ρ c (Proc.devRef .tc main_v185) = Cert.Model.conv_ta X (m ((c : Thread nD τ).loc main_arg6)) (m ((c : Thread nD τ).loc main_arg7)) (m ((c : Thread nD τ).loc main_arg12)) (m ((c : Thread nD τ).loc main_arg13)) := by
  -- the table and the out-degree column as region 8 finds them
  have hx : V17 m ρ c main_v111 = X :=
    (show W17 m ρ c (Proc.devRef .tc main_v111) = W16 m ρ c (Proc.devRef .tc main_v111) by host_keep).trans (hX)
  have hs0 : W16 m ρ c (Proc.devRef .tc main_arg6) = (m ((c : Thread nD τ).loc main_arg6)) := argAt16 m ρ c main_arg6 (by decide)
  have hd0 : W16 m ρ c (Proc.devRef .tc main_arg7) = (m ((c : Thread nD τ).loc main_arg7)) := argAt16 m ρ c main_arg7 (by decide)
  have hdeg : V17 m ρ c main_v166 = shapeCast S25000x1 (Cert.Model.outDeg_ta (m ((c : Thread nD τ).loc main_arg6))) shapeCasts_S25000_S25000x1 :=
    (host8_main_v166 (W16 m ρ c)).trans (by rw [hs0])
  have hin1 : W17 m ρ c (Proc.devRef .tc main_v165) = Cert.Model.inDeg_ta (m ((c : Thread nD τ).loc main_arg7)) :=
    (host8_main_v165 (W16 m ρ c)).trans (by rw [hd0])
  -- region 8: the scaled table
  have hxn : W18 m ρ c (Proc.devRef .tc main_v167) = (Cert.Spec.scaleRows (n := 25000) X (shapeCast S25000x1 (Cert.Model.outDeg_ta (m ((c : Thread nD τ).loc main_arg6))) shapeCasts_S25000_S25000x1)) :=
    (W18_arr m ρ c 2).trans ((Cert.KernelIdeal.RegionValue.final8 (V17 m ρ) c).trans (by rw [hx, hdeg]))
  have hin2 : W18 m ρ c (Proc.devRef .tc main_v165) = Cert.Model.inDeg_ta (m ((c : Thread nD τ).loc main_arg7)) :=
    (keepR8 m ρ c main_v165 (by decide)).trans hin1
  have hs2 : W18 m ρ c (Proc.devRef .tc main_arg6) = (m ((c : Thread nD τ).loc main_arg6)) := argAt18 m ρ c main_arg6 (by decide)
  have hd2 : W18 m ρ c (Proc.devRef .tc main_arg7) = (m ((c : Thread nD τ).loc main_arg7)) := argAt18 m ρ c main_arg7 (by decide)
  have hb2 : W18 m ρ c (Proc.devRef .tc main_arg13) = (m ((c : Thread nD τ).loc main_arg13)) := argAt18 m ρ c main_arg13 (by decide)
  -- the host operations between the regions: the aggregate, the in-degree column, the bias row
  have hagg : V19 m ρ c main_v182 = Cert.Model.agg_ta (Cert.Spec.scaleRows (n := 25000) X (shapeCast S25000x1 (Cert.Model.outDeg_ta (m ((c : Thread nD τ).loc main_arg6))) shapeCasts_S25000_S25000x1)) (m ((c : Thread nD τ).loc main_arg6)) (m ((c : Thread nD τ).loc main_arg7)) :=
    (host9_main_v182 (W18 m ρ c)).trans (by rw [hxn, hs2, hd2])
  have hdegf : V19 m ρ c main_v183 = shapeCast S100000x1 (Cert.Model.inDeg_ta (m ((c : Thread nD τ).loc main_arg7))) shapeCasts_S100000_S100000x1 :=
    (host9_main_v183 (W18 m ρ c)).trans (by rw [hin2])
  have hbias : V19 m ρ c main_v184 = shapeCast S1x128 (m ((c : Thread nD τ).loc main_arg13)) shapeCasts_S128_S1x128 :=
    (host9_main_v184 (W18 m ρ c)).trans (by rw [hb2])
  have hw : V19 m ρ c main_arg12 = (m ((c : Thread nD τ).loc main_arg12)) := argAt19 m ρ c main_arg12 (by decide)
  -- region 9: the finished table
  exact (W20_arr m ρ c 4).trans ((Cert.KernelIdeal.RegionValue.final9 (V19 m ρ) c).trans (by
    rw [hagg, hdegf, hw, hbias]; rfl))

end Cert.KernelIdeal.Chain

end
-- ==== Proof.ScaleR10.lean ====
/-
  The scaled table left by the sixth scaling region.

  The region walks the 100000 rows of its table in 20 blocks of 5000 rows. At block t the body stores, for
  every row of the block, the row times its node's normalising factor. Each block written back is therefore the
  matching block of the scaled table, the blocks cover all 100000 rows, and so the output array ends holding
  the scaled table.
-/
import proofs.«158240_j69793218560324_1_alg».proof.Proof.Gen.KernelIdeal.Frame
import proofs.«158240_j69793218560324_1_alg».proof.Proof.Spec
import proofs.«158240_j69793218560324_1_alg».proof.Proof.ScalePay
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem zero_off10 : (![0, 0] : Fin 2 → Nat) = fun _ => 0 := funext fun a => by fin_cases a <;> rfl

/-- The block index maps over the 20 grid points: at point t the table, the degree column and the output are
    all at row block t, column block 0. -/
theorem idx_facts10 : ∀ t : Fin cfg10.N,
    win10_0.index t (0 : Fin 2) = win10_2.index t (0 : Fin 2)
    ∧ win10_0.index t (1 : Fin 2) = 0
    ∧ win10_1.index t (0 : Fin 2) = win10_2.index t (0 : Fin 2)
    ∧ win10_1.index t (1 : Fin 2) = 0
    ∧ win10_2.index t (0 : Fin 2) = t.val
    ∧ win10_2.index t (1 : Fin 2) = 0 :=
  (by decide +kernel : ∀ t : Fin grid10.N, _)

/-- What point t writes back is block t of the scaled table. -/
theorem flushed10_eq (c : Dev nD) (t : Fin cfg10.N) :
    (dat10 (F := Ideal) V c).flushed 2 t
      = ((cfg10.win 2).blk t).view.read (Elt Ideal) (Cert.Spec.scaleRows (V c main_v74) (V c main_v204)) := by
  show (cfg10.win 2).cut (grid10.coords t) ((dat10 V c).after 2 t) = _
  rw [after10_2]
  unfold out10_2
  rw [View.canon_unit_zero zero_off10]
  simp only [View.ld_unit_zero (S := S5000x128) zero_off10, View.ld_unit_zero (S := S5000x1) zero_off10]
  obtain ⟨e0, e1, e2, e3, e4, e5⟩ := idx_facts10 t
  funext j
  show k10_pay1 (iblk10 V c 1 t) (iblk10 V c 0 t) j
    = Cert.Spec.scaleRows (V c main_v74) (V c main_v204) (((cfg10.win 2).blk t).view.emb j)
  refine ScalePay.block10_apply (V c main_v74) (V c main_v204) _ _ (win10_2.index t (0 : Fin 2) * 5000) ?_ ?_ j _ ?_ ?_
  · -- the table's block: element y sits win-index rows down
    intro y i hi0 hi1
    show V c main_v74 (((cfg10.win 0).blk t).view.emb y) = V c main_v74 i
    refine congrArg (V c main_v74) (funext fun a => Fin.ext ?_)
    match a with
    | ⟨0, _⟩ =>
      show win10_0.index t (0 : Fin 2) * 5000 + 1 * (y 0).val = (i 0).val
      omega
    | ⟨1, _⟩ =>
      show win10_0.index t (1 : Fin 2) * 128 + 1 * (y 1).val = (i 1).val
      omega
  · -- the degree column's block
    intro y i hi0
    show V c main_v204 (((cfg10.win 1).blk t).view.emb y) = V c main_v204 i
    refine congrArg (V c main_v204) (funext fun a => Fin.ext ?_)
    match a with
    | ⟨0, _⟩ =>
      show win10_1.index t (0 : Fin 2) * 5000 + 1 * (y 0).val = (i 0).val
      omega
    | ⟨1, _⟩ =>
      show win10_1.index t (1 : Fin 2) * 1 + 1 * (y 1).val = (i 1).val
      have hy : (y 1).val < 1 := (y 1).isLt
      have hi : (i 1).val < 1 := (i 1).isLt
      omega
  · show win10_2.index t (0 : Fin 2) * 5000 + 1 * (j 0).val = win10_2.index t (0 : Fin 2) * 5000 + (j 0).val
    omega
  · show win10_2.index t (1 : Fin 2) * 128 + 1 * (j 1).val = (j 1).val
    omega

/-- An index of the output array is in point t's block iff each coordinate is in the block's range on its axis. -/
theorem mem_blk10 (t : Fin cfg10.N) (i : S100000x128.Idx) :
    i ∈ ((cfg10.win 2).blk t).view.set
      ↔ ∀ a : Fin 2, win10_2.index t a * S5000x128.size a ≤ (i a).val
          ∧ (i a).val < win10_2.index t a * S5000x128.size a + S5000x128.size a := by
  show i ∈ ((View.whole main_v205).slice (win10_2.rect t)).set ↔ _
  rw [View.set_slice_whole, Rect.mem_set_unit]
  exact Iff.rfl

/-- Every row is in the block of the point numbered by its row divided by 5000. -/
theorem cover10 (i : S100000x128.Idx) :
    ∃ t : Fin cfg10.N, (cfg10.win 2).flush t = true ∧ i ∈ ((cfg10.win 2).blk t).view.set := by
  have hi0 : (i 0).val < 100000 := (i 0).isLt
  have hi1 : (i 1).val < 128 := (i 1).isLt
  have ht : (i 0).val / 5000 < cfg10.N := by
    show (i 0).val / 5000 < grid10.N
    rw [N_10]
    omega
  obtain ⟨-, -, -, -, e4, e5⟩ := idx_facts10 ⟨(i 0).val / 5000, ht⟩
  have e4' : win10_2.index ⟨(i 0).val / 5000, ht⟩ (0 : Fin 2) = (i 0).val / 5000 := e4
  refine ⟨⟨(i 0).val / 5000, ht⟩, flush10_2 _, ?_⟩
  rw [mem_blk10]
  intro a
  match a with
  | ⟨0, _⟩ =>
    show win10_2.index ⟨(i 0).val / 5000, ht⟩ (0 : Fin 2) * 5000 ≤ (i 0).val
      ∧ (i 0).val < win10_2.index ⟨(i 0).val / 5000, ht⟩ (0 : Fin 2) * 5000 + 5000
    omega
  | ⟨1, _⟩ =>
    show win10_2.index ⟨(i 0).val / 5000, ht⟩ (1 : Fin 2) * 128 ≤ (i 1).val
      ∧ (i 1).val < win10_2.index ⟨(i 0).val / 5000, ht⟩ (1 : Fin 2) * 128 + 128
    omega

/-- The output array after the region: the scaled table. -/
theorem final10 (c : Dev nD) :
    (dat10 (F := Ideal) V c).arrAt 2 cfg10.N = Cert.Spec.scaleRows (V c main_v74) (V c main_v204) :=
  (dat10 V c).arrAt_eq_of_cover 2 _ (fun t _ => flushed10_eq V c t) (cover10)

end Cert.KernelIdeal.RegionValue

end
-- ==== Proof.FinalR11.lean ====
/-
  One finishing step over a 25000-row table: the array it leaves is the finished table of the arrays it finds.

  The step walks its 25000-row tables in 5 blocks of 5000 rows. At block t the aggregated table and the degree
  column are read at rows 5000·t … 5000·t + 4999, the weight matrix and the bias row whole, and the block's result is
  written to the same rows of the output. So what block t writes is the rows 5000·t … of the finished table
  (written_eq), every row is in the block of its quotient by 5000 (covered), and the array the step leaves is the
  finished table (final11).
-/
import proofs.«158240_j69793218560324_1_alg».proof.Proof.Gen.KernelIdeal.Frame
import proofs.«158240_j69793218560324_1_alg».proof.Proof.Spec
import proofs.«158240_j69793218560324_1_alg».proof.Proof.FinalPay
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace Final11

variable (V : (c : Dev nD) → (b : Ref sig .tc) → Buf (Elt Ideal) ((c : Thread nD τ).loc b))

/-- The zero offsets of a whole-buffer access, as a function. -/
theorem zeroOffsets : (![0, 0] : Fin 2 → Nat) = fun _ => 0 := funext fun a => by fin_cases a <;> rfl

/-- The block indices over the grid: block t of the aggregated table, of the degree column and of the output are at
    row block t, column block 0; the weights and the bias are always their one block. -/
theorem blockIndex : ∀ t : Fin cfg11.N, win11_4.index t (0 : Fin 2) = t.val ∧ win11_4.index t (1 : Fin 2) = 0
    ∧ win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0 :=
  (by decide +kernel : ∀ t : Fin grid11.N, _)

/-- WHAT BLOCK t WRITES BACK is rows 5000·t … 5000·t + 4999 of the finished table of the arrays as the step finds
    them. -/
theorem written_eq (c : Dev nD) (t : Fin cfg11.N) :
    (dat11 (F := Ideal) V c).flushed 4 t = ((cfg11.win 4).blk t).view.read (Elt Ideal)
      (Cert.Spec.finalRows (n := 25000) (V c main_v220) (V c main_v221) (V c main_arg10) (V c main_v222)) := by
  show (cfg11.win 4).cut (grid11.coords t) ((dat11 V c).after 4 t) = _
  rw [after11_4]
  unfold out11_4
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e40, e41, e00, e01, e10, e11, e20, e21, e30, e31⟩ := blockIndex t
  funext y
  obtain ⟨p, q, rfl⟩ : ∃ (p : Fin 5000) (q : Fin 128), y = ix2 p q := ⟨y 0, y 1, eq_ix2 y⟩
  show k11_pay1 (iblk11 V c 1 t) (iblk11 V c 0 t) (iblk11 V c 2 t) (iblk11 V c 3 t) (ix2 p q)
    = Cert.Spec.finalRows (n := 25000) (V c main_v220) (V c main_v221) (V c main_arg10) (V c main_v222)
        (((cfg11.win 4).blk t).view.emb (ix2 p q))
  refine FinalPay.pay_eq_finalRows _ _ _ _ _ _ _ _ p q _ (fun k => ?_) ?_ (fun k => ?_) ?_
  · show V c main_v220 (((cfg11.win 0).blk t).view.emb (ix2 p k)) = _
    refine congrArg (V c main_v220) (funext fun a => Fin.ext ?_)
    match a with
    | ⟨0, _⟩ => show win11_0.index t (0 : Fin 2) * 5000 + 1 * p.val = win11_4.index t (0 : Fin 2) * 5000 + 1 * p.val; omega
    | ⟨1, _⟩ => show win11_0.index t (1 : Fin 2) * 128 + 1 * k.val = k.val; omega
  · show V c main_v221 (((cfg11.win 1).blk t).view.emb (ix2 p 0)) = _
    refine congrArg (V c main_v221) (funext fun a => Fin.ext ?_)
    match a with
    | ⟨0, _⟩ => show win11_1.index t (0 : Fin 2) * 5000 + 1 * p.val = win11_4.index t (0 : Fin 2) * 5000 + 1 * p.val; omega
    | ⟨1, _⟩ => show win11_1.index t (1 : Fin 2) * 1 + 1 * 0 = 0; omega
  · show V c main_arg10 (((cfg11.win 2).blk t).view.emb (ix2 k q)) = _
    refine congrArg (V c main_arg10) (funext fun a => Fin.ext ?_)
    match a with
    | ⟨0, _⟩ => show win11_2.index t (0 : Fin 2) * 128 + 1 * k.val = k.val; omega
    | ⟨1, _⟩ => show win11_2.index t (1 : Fin 2) * 128 + 1 * q.val = win11_4.index t (1 : Fin 2) * 128 + 1 * q.val; omega
  · show V c main_v222 (((cfg11.win 3).blk t).view.emb (ix2 0 q)) = _
    refine congrArg (V c main_v222) (funext fun a => Fin.ext ?_)
    match a with
    | ⟨0, _⟩ => show win11_3.index t (0 : Fin 2) * 1 + 1 * 0 = 0; omega
    | ⟨1, _⟩ => show win11_3.index t (1 : Fin 2) * 128 + 1 * q.val = win11_4.index t (1 : Fin 2) * 128 + 1 * q.val; omega

/-- An index of the output array is in block t iff each coordinate is in the block's range on its axis. -/
theorem mem_block (t : Fin cfg11.N) (i : S25000x128.Idx) :
    i ∈ ((cfg11.win 4).blk t).view.set ↔ ∀ a : Fin 2, win11_4.index t a * S5000x128.size a ≤ (i a).val
      ∧ (i a).val < win11_4.index t a * S5000x128.size a + S5000x128.size a := by
  show i ∈ ((View.whole main_v223).slice (win11_4.rect t)).set ↔ _
  rw [View.set_slice_whole, Rect.mem_set_unit]
  exact Iff.rfl

/-- EVERY ROW IS WRITTEN: row r is in the block of r / 5000. -/
theorem covered (i : S25000x128.Idx) :
    ∃ t : Fin cfg11.N, (cfg11.win 4).flush t = true ∧ i ∈ ((cfg11.win 4).blk t).view.set := by
  have hi0 : (i 0).val < 25000 := idx2_lt0 i
  have hi1 : (i 1).val < 128 := idx2_lt1 i
  have hN : (i 0).val / 5000 < grid11.N := by rw [N_11]; omega
  obtain ⟨e40, e41, -⟩ := blockIndex ⟨(i 0).val / 5000, hN⟩
  refine ⟨⟨(i 0).val / 5000, hN⟩, flush11_4 _, ?_⟩
  rw [mem_block]
  intro a
  match a with
  | ⟨0, _⟩ =>
    show win11_4.index ⟨(i 0).val / 5000, hN⟩ (0 : Fin 2) * 5000 ≤ (i 0).val
      ∧ (i 0).val < win11_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win11_4.index ⟨(i 0).val / 5000, hN⟩ (1 : Fin 2) * 128 ≤ (i 1).val
      ∧ (i 1).val < win11_4.index ⟨(i 0).val / 5000, hN⟩ (1 : Fin 2) * 128 + 128
    rw [e41]
    omega

end Final11

/-- THE ARRAY THE STEP LEAVES is the finished table of the arrays it finds. -/
theorem final11 (V : (c : Dev nD) → (b : Ref sig .tc) → Buf (Elt Ideal) ((c : Thread nD τ).loc b)) (c : Dev nD) :
    (dat11 (F := Ideal) V c).arrAt 4 cfg11.N
      = Cert.Spec.finalRows (n := 25000) (V c main_v220) (V c main_v221) (V c main_arg10) (V c main_v222) :=
  (dat11 (F := Ideal) V c).arrAt_eq_of_cover 4 _ (fun t _ => Final11.written_eq V c t) Final11.covered

end Cert.KernelIdeal.RegionValue

end
-- ==== Proof.KConv5.lean ====
/-
  One graph convolution of the kernel program, read off its run: the out- and in-degree counts and the column reshape
  before the first region, the row scaling in the first region, the gather and scatter-add between the regions, the
  scaling, matrix product and bias in the second region.
-/
import proofs.«158240_j69793218560324_1_alg».proof.Proof.KStages
import proofs.«158240_j69793218560324_1_alg».proof.Proof.Model
import proofs.«158240_j69793218560324_1_alg».proof.Proof.ScaleR10
import proofs.«158240_j69793218560324_1_alg».proof.Proof.FinalR11

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## What the two stretches of host operations compute, from any contents -/

set_option maxRecDepth 8192 in
set_option maxHeartbeats 2000000 in
theorem host10_main_v204 (Wv : Valuation τ sig (Elt Ideal)) :
    StableHlo.after hostOps10 Wv (Proc.devRef .tc main_v204) = shapeCast S100000x1 (Cert.Model.outDeg_at (Wv (Proc.devRef .tc main_arg4))) shapeCasts_S100000_S100000x1 := by
  simp only [hostOps10]
  after_results_simp
  rfl

set_option maxRecDepth 8192 in
set_option maxHeartbeats 2000000 in
theorem host10_main_v203 (Wv : Valuation τ sig (Elt Ideal)) :
    StableHlo.after hostOps10 Wv (Proc.devRef .tc main_v203) = Cert.Model.inDeg_at (Wv (Proc.devRef .tc main_arg5)) := by
  simp only [hostOps10]
  after_results_simp
  rfl

set_option maxRecDepth 8192 in
set_option maxHeartbeats 2000000 in
theorem host11_main_v220 (Wv : Valuation τ sig (Elt Ideal)) :
    StableHlo.after hostOps11 Wv (Proc.devRef .tc main_v220) = Cert.Model.agg_at (Wv (Proc.devRef .tc main_v205)) (Wv (Proc.devRef .tc main_arg4)) (Wv (Proc.devRef .tc main_arg5)) := by
  simp only [hostOps11]
  after_results_simp
  rfl

set_option maxRecDepth 8192 in
set_option maxHeartbeats 2000000 in
theorem host11_main_v221 (Wv : Valuation τ sig (Elt Ideal)) :
    StableHlo.after hostOps11 Wv (Proc.devRef .tc main_v221) = shapeCast S25000x1 (Wv (Proc.devRef .tc main_v203)) shapeCasts_S25000_S25000x1 := by
  simp only [hostOps11]
  after_results_simp
  rfl

set_option maxRecDepth 8192 in
set_option maxHeartbeats 2000000 in
theorem host11_main_v222 (Wv : Valuation τ sig (Elt Ideal)) :
    StableHlo.after hostOps11 Wv (Proc.devRef .tc main_v222) = shapeCast S1x128 (Wv (Proc.devRef .tc main_arg11)) shapeCasts_S128_S1x128 := by
  simp only [hostOps11]
  after_results_simp
  rfl

/-! ## The convolution -/

variable (m : (ℓ : Loc nD τ sig) → Buf (Elt Ideal) ℓ) (ρ : Dev nD → PrngReg)

/-- The second layer's convolution along the relation author to team, read off the run: regions 10 and 11 with the host
    operations around them compute conv_at of the table the first region is entered with. -/
theorem conv5 (c : Dev nD)
    (X : (⟨S100000x128, .f32⟩ : BufTy).Contents (Elt Ideal)) (hX : W20 m ρ c (Proc.devRef .tc main_v74) = X) :
    W24 m ρ c (Proc.devRef .tc main_v223) = Cert.Model.conv_at X (m ((c : Thread nD τ).loc main_arg4)) (m ((c : Thread nD τ).loc main_arg5)) (m ((c : Thread nD τ).loc main_arg10)) (m ((c : Thread nD τ).loc main_arg11)) := by
  -- the table and the out-degree column as region 10 finds them
  have hx : V21 m ρ c main_v74 = X :=
    (show W21 m ρ c (Proc.devRef .tc main_v74) = W20 m ρ c (Proc.devRef .tc main_v74) by host_keep).trans (hX)
  have hs0 : W20 m ρ c (Proc.devRef .tc main_arg4) = (m ((c : Thread nD τ).loc main_arg4)) := argAt20 m ρ c main_arg4 (by decide)
  have hd0 : W20 m ρ c (Proc.devRef .tc main_arg5) = (m ((c : Thread nD τ).loc main_arg5)) := argAt20 m ρ c main_arg5 (by decide)
  have hdeg : V21 m ρ c main_v204 = shapeCast S100000x1 (Cert.Model.outDeg_at (m ((c : Thread nD τ).loc main_arg4))) shapeCasts_S100000_S100000x1 :=
    (host10_main_v204 (W20 m ρ c)).trans (by rw [hs0])
  have hin1 : W21 m ρ c (Proc.devRef .tc main_v203) = Cert.Model.inDeg_at (m ((c : Thread nD τ).loc main_arg5)) :=
    (host10_main_v203 (W20 m ρ c)).trans (by rw [hd0])
  -- region 10: the scaled table
  have hxn : W22 m ρ c (Proc.devRef .tc main_v205) = (Cert.Spec.scaleRows (n := 100000) X (shapeCast S100000x1 (Cert.Model.outDeg_at (m ((c : Thread nD τ).loc main_arg4))) shapeCasts_S100000_S100000x1)) :=
    (W22_arr m ρ c 2).trans ((Cert.KernelIdeal.RegionValue.final10 (V21 m ρ) c).trans (by rw [hx, hdeg]))
  have hin2 : W22 m ρ c (Proc.devRef .tc main_v203) = Cert.Model.inDeg_at (m ((c : Thread nD τ).loc main_arg5)) :=
    (keepR10 m ρ c main_v203 (by decide)).trans hin1
  have hs2 : W22 m ρ c (Proc.devRef .tc main_arg4) = (m ((c : Thread nD τ).loc main_arg4)) := argAt22 m ρ c main_arg4 (by decide)
  have hd2 : W22 m ρ c (Proc.devRef .tc main_arg5) = (m ((c : Thread nD τ).loc main_arg5)) := argAt22 m ρ c main_arg5 (by decide)
  have hb2 : W22 m ρ c (Proc.devRef .tc main_arg11) = (m ((c : Thread nD τ).loc main_arg11)) := argAt22 m ρ c main_arg11 (by decide)
  -- the host operations between the regions: the aggregate, the in-degree column, the bias row
  have hagg : V23 m ρ c main_v220 = Cert.Model.agg_at (Cert.Spec.scaleRows (n := 100000) X (shapeCast S100000x1 (Cert.Model.outDeg_at (m ((c : Thread nD τ).loc main_arg4))) shapeCasts_S100000_S100000x1)) (m ((c : Thread nD τ).loc main_arg4)) (m ((c : Thread nD τ).loc main_arg5)) :=
    (host11_main_v220 (W22 m ρ c)).trans (by rw [hxn, hs2, hd2])
  have hdegf : V23 m ρ c main_v221 = shapeCast S25000x1 (Cert.Model.inDeg_at (m ((c : Thread nD τ).loc main_arg5))) shapeCasts_S25000_S25000x1 :=
    (host11_main_v221 (W22 m ρ c)).trans (by rw [hin2])
  have hbias : V23 m ρ c main_v222 = shapeCast S1x128 (m ((c : Thread nD τ).loc main_arg11)) shapeCasts_S128_S1x128 :=
    (host11_main_v222 (W22 m ρ c)).trans (by rw [hb2])
  have hw : V23 m ρ c main_arg10 = (m ((c : Thread nD τ).loc main_arg10)) := argAt23 m ρ c main_arg10 (by decide)
  -- region 11: the finished table
  exact (W24_arr m ρ c 4).trans ((Cert.KernelIdeal.RegionValue.final11 (V23 m ρ) c).trans (by
    rw [hagg, hdegf, hw, hbias]; rfl))

end Cert.KernelIdeal.Chain

end
-- ==== Proof.KValue.lean ====
/-
  The kernel program's two results as the model's functions of its argument arrays.

  Layer one: the convolutions author to author and team to author, added, are the authors after one layer; the
  convolution author to team gives the teams. Layer two repeats them on those tables. Between the convolutions a table
  that a later convolution reads keeps its contents across every stretch and region that does not write it.
-/
import proofs.«158240_j69793218560324_1_alg».proof.Proof.KStages
import proofs.«158240_j69793218560324_1_alg».proof.Proof.Model
import proofs.«158240_j69793218560324_1_alg».proof.Proof.KRun
import proofs.«158240_j69793218560324_1_alg».proof.Proof.KConv0
import proofs.«158240_j69793218560324_1_alg».proof.Proof.KConv1
import proofs.«158240_j69793218560324_1_alg».proof.Proof.KConv2
import proofs.«158240_j69793218560324_1_alg».proof.Proof.KConv3
import proofs.«158240_j69793218560324_1_alg».proof.Proof.KConv4
import proofs.«158240_j69793218560324_1_alg».proof.Proof.KConv5

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-! ## The two sums of convolutions, from any contents -/

set_option maxRecDepth 8192 in
set_option maxHeartbeats 2000000 in
theorem host4_main_v74 (Wv : Valuation τ sig (Elt Ideal)) :
    StableHlo.after hostOps4 Wv (Proc.devRef .tc main_v74) = addf (F := Ideal) (s := S100000x128) (φ := .f32) (Wv (Proc.devRef .tc main_v36)) (Wv (Proc.devRef .tc main_v73)) := by
  simp only [hostOps4]
  after_results_simp

set_option maxRecDepth 8192 in
set_option maxHeartbeats 2000000 in
theorem host10_main_v186 (Wv : Valuation τ sig (Elt Ideal)) :
    StableHlo.after hostOps10 Wv (Proc.devRef .tc main_v186) = addf (F := Ideal) (s := S100000x128) (φ := .f32) (Wv (Proc.devRef .tc main_v148)) (Wv (Proc.devRef .tc main_v185)) := by
  simp only [hostOps10]
  after_results_simp

variable (m : (ℓ : Loc nD τ sig) → Buf (Elt Ideal) ℓ) (ρ : Dev nD → PrngReg)

/-- The kernel program's fourteen argument arrays on core c. -/
def kArgs (c : Dev nD) : Cert.Model.Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13)⟩

/-- The authors after the first layer, where the host's sum leaves them. -/
theorem author1_at9 (c : Dev nD) : W9 m ρ c (Proc.devRef .tc main_v74) = Cert.Model.author1 (kArgs m c) := by
  have h36_4 := conv0 m ρ c
  have h36_5 : W5 m ρ c (Proc.devRef .tc main_v36) = Cert.Model.conv_aa (m ((c : Thread nD τ).loc main_arg0)) (m ((c : Thread nD τ).loc main_arg2)) (m ((c : Thread nD τ).loc main_arg3)) (m ((c : Thread nD τ).loc main_arg8)) (m ((c : Thread nD τ).loc main_arg9)) := (show W5 m ρ c (Proc.devRef .tc main_v36) = W4 m ρ c (Proc.devRef .tc main_v36) by host_keep).trans h36_4
  have h36_6 : W6 m ρ c (Proc.devRef .tc main_v36) = Cert.Model.conv_aa (m ((c : Thread nD τ).loc main_arg0)) (m ((c : Thread nD τ).loc main_arg2)) (m ((c : Thread nD τ).loc main_arg3)) (m ((c : Thread nD τ).loc main_arg8)) (m ((c : Thread nD τ).loc main_arg9)) := (keepR2 m ρ c main_v36 (by decide)).trans h36_5
  have h36_7 : W7 m ρ c (Proc.devRef .tc main_v36) = Cert.Model.conv_aa (m ((c : Thread nD τ).loc main_arg0)) (m ((c : Thread nD τ).loc main_arg2)) (m ((c : Thread nD τ).loc main_arg3)) (m ((c : Thread nD τ).loc main_arg8)) (m ((c : Thread nD τ).loc main_arg9)) := (show W7 m ρ c (Proc.devRef .tc main_v36) = W6 m ρ c (Proc.devRef .tc main_v36) by host_keep).trans h36_6
  have h36_8 : W8 m ρ c (Proc.devRef .tc main_v36) = Cert.Model.conv_aa (m ((c : Thread nD τ).loc main_arg0)) (m ((c : Thread nD τ).loc main_arg2)) (m ((c : Thread nD τ).loc main_arg3)) (m ((c : Thread nD τ).loc main_arg8)) (m ((c : Thread nD τ).loc main_arg9)) := (keepR3 m ρ c main_v36 (by decide)).trans h36_7
  have h73_8 := conv1 m ρ c
  exact (host4_main_v74 (W8 m ρ c)).trans (by rw [h36_8, h73_8]; rfl)

/-- The teams after the first layer. -/
theorem team1_at12 (c : Dev nD) : W12 m ρ c (Proc.devRef .tc main_v111) = Cert.Model.team1 (kArgs m c) :=
  conv2 m ρ c

/-- The authors after the second layer, where the host's sum leaves them. -/
theorem author2_at21 (c : Dev nD) : W21 m ρ c (Proc.devRef .tc main_v186) = Cert.Model.author2 (kArgs m c) := by
  have h74_9 := author1_at9 m ρ c
  have h74_10 : W10 m ρ c (Proc.devRef .tc main_v74) = Cert.Model.author1 (kArgs m c) := (keepR4 m ρ c main_v74 (by decide)).trans h74_9
  have h74_11 : W11 m ρ c (Proc.devRef .tc main_v74) = Cert.Model.author1 (kArgs m c) := (show W11 m ρ c (Proc.devRef .tc main_v74) = W10 m ρ c (Proc.devRef .tc main_v74) by host_keep).trans h74_10
  have h74_12 : W12 m ρ c (Proc.devRef .tc main_v74) = Cert.Model.author1 (kArgs m c) := (keepR5 m ρ c main_v74 (by decide)).trans h74_11
  have h148_16 := conv3 m ρ c _ h74_12
  have h111_12 := team1_at12 m ρ c
  have h111_13 : W13 m ρ c (Proc.devRef .tc main_v111) = Cert.Model.team1 (kArgs m c) := (show W13 m ρ c (Proc.devRef .tc main_v111) = W12 m ρ c (Proc.devRef .tc main_v111) by host_keep).trans h111_12
  have h111_14 : W14 m ρ c (Proc.devRef .tc main_v111) = Cert.Model.team1 (kArgs m c) := (keepR6 m ρ c main_v111 (by decide)).trans h111_13
  have h111_15 : W15 m ρ c (Proc.devRef .tc main_v111) = Cert.Model.team1 (kArgs m c) := (show W15 m ρ c (Proc.devRef .tc main_v111) = W14 m ρ c (Proc.devRef .tc main_v111) by host_keep).trans h111_14
  have h111_16 : W16 m ρ c (Proc.devRef .tc main_v111) = Cert.Model.team1 (kArgs m c) := (keepR7 m ρ c main_v111 (by decide)).trans h111_15
  have h185_20 := conv4 m ρ c _ h111_16
  have h148_17 : W17 m ρ c (Proc.devRef .tc main_v148) = Cert.Model.conv_aa (Cert.Model.author1 (kArgs m c)) (m ((c : Thread nD τ).loc main_arg2)) (m ((c : Thread nD τ).loc main_arg3)) (m ((c : Thread nD τ).loc main_arg8)) (m ((c : Thread nD τ).loc main_arg9)) := (show W17 m ρ c (Proc.devRef .tc main_v148) = W16 m ρ c (Proc.devRef .tc main_v148) by host_keep).trans h148_16
  have h148_18 : W18 m ρ c (Proc.devRef .tc main_v148) = Cert.Model.conv_aa (Cert.Model.author1 (kArgs m c)) (m ((c : Thread nD τ).loc main_arg2)) (m ((c : Thread nD τ).loc main_arg3)) (m ((c : Thread nD τ).loc main_arg8)) (m ((c : Thread nD τ).loc main_arg9)) := (keepR8 m ρ c main_v148 (by decide)).trans h148_17
  have h148_19 : W19 m ρ c (Proc.devRef .tc main_v148) = Cert.Model.conv_aa (Cert.Model.author1 (kArgs m c)) (m ((c : Thread nD τ).loc main_arg2)) (m ((c : Thread nD τ).loc main_arg3)) (m ((c : Thread nD τ).loc main_arg8)) (m ((c : Thread nD τ).loc main_arg9)) := (show W19 m ρ c (Proc.devRef .tc main_v148) = W18 m ρ c (Proc.devRef .tc main_v148) by host_keep).trans h148_18
  have h148_20 : W20 m ρ c (Proc.devRef .tc main_v148) = Cert.Model.conv_aa (Cert.Model.author1 (kArgs m c)) (m ((c : Thread nD τ).loc main_arg2)) (m ((c : Thread nD τ).loc main_arg3)) (m ((c : Thread nD τ).loc main_arg8)) (m ((c : Thread nD τ).loc main_arg9)) := (keepR9 m ρ c main_v148 (by decide)).trans h148_19
  exact (host10_main_v186 (W20 m ρ c)).trans (by rw [h148_20, h185_20]; rfl)

/-- The first result at the end of the run. -/
theorem author2_at24 (c : Dev nD) : W24 m ρ c (Proc.devRef .tc main_v186) = Cert.Model.author2 (kArgs m c) := by
  have h186_21 := author2_at21 m ρ c
  have h186_22 : W22 m ρ c (Proc.devRef .tc main_v186) = Cert.Model.author2 (kArgs m c) := (keepR10 m ρ c main_v186 (by decide)).trans h186_21
  have h186_23 : W23 m ρ c (Proc.devRef .tc main_v186) = Cert.Model.author2 (kArgs m c) := (show W23 m ρ c (Proc.devRef .tc main_v186) = W22 m ρ c (Proc.devRef .tc main_v186) by host_keep).trans h186_22
  have h186_24 : W24 m ρ c (Proc.devRef .tc main_v186) = Cert.Model.author2 (kArgs m c) := (keepR11 m ρ c main_v186 (by decide)).trans h186_23
  exact h186_24

/-- The second result at the end of the run. -/
theorem team2_at24 (c : Dev nD) : W24 m ρ c (Proc.devRef .tc main_v223) = Cert.Model.team2 (kArgs m c) := by
  have h74_9 := author1_at9 m ρ c
  have h74_10 : W10 m ρ c (Proc.devRef .tc main_v74) = Cert.Model.author1 (kArgs m c) := (keepR4 m ρ c main_v74 (by decide)).trans h74_9
  have h74_11 : W11 m ρ c (Proc.devRef .tc main_v74) = Cert.Model.author1 (kArgs m c) := (show W11 m ρ c (Proc.devRef .tc main_v74) = W10 m ρ c (Proc.devRef .tc main_v74) by host_keep).trans h74_10
  have h74_12 : W12 m ρ c (Proc.devRef .tc main_v74) = Cert.Model.author1 (kArgs m c) := (keepR5 m ρ c main_v74 (by decide)).trans h74_11
  have h74_13 : W13 m ρ c (Proc.devRef .tc main_v74) = Cert.Model.author1 (kArgs m c) := (show W13 m ρ c (Proc.devRef .tc main_v74) = W12 m ρ c (Proc.devRef .tc main_v74) by host_keep).trans h74_12
  have h74_14 : W14 m ρ c (Proc.devRef .tc main_v74) = Cert.Model.author1 (kArgs m c) := (keepR6 m ρ c main_v74 (by decide)).trans h74_13
  have h74_15 : W15 m ρ c (Proc.devRef .tc main_v74) = Cert.Model.author1 (kArgs m c) := (show W15 m ρ c (Proc.devRef .tc main_v74) = W14 m ρ c (Proc.devRef .tc main_v74) by host_keep).trans h74_14
  have h74_16 : W16 m ρ c (Proc.devRef .tc main_v74) = Cert.Model.author1 (kArgs m c) := (keepR7 m ρ c main_v74 (by decide)).trans h74_15
  have h74_17 : W17 m ρ c (Proc.devRef .tc main_v74) = Cert.Model.author1 (kArgs m c) := (show W17 m ρ c (Proc.devRef .tc main_v74) = W16 m ρ c (Proc.devRef .tc main_v74) by host_keep).trans h74_16
  have h74_18 : W18 m ρ c (Proc.devRef .tc main_v74) = Cert.Model.author1 (kArgs m c) := (keepR8 m ρ c main_v74 (by decide)).trans h74_17
  have h74_19 : W19 m ρ c (Proc.devRef .tc main_v74) = Cert.Model.author1 (kArgs m c) := (show W19 m ρ c (Proc.devRef .tc main_v74) = W18 m ρ c (Proc.devRef .tc main_v74) by host_keep).trans h74_18
  have h74_20 : W20 m ρ c (Proc.devRef .tc main_v74) = Cert.Model.author1 (kArgs m c) := (keepR9 m ρ c main_v74 (by decide)).trans h74_19
  exact conv5 m ρ c _ h74_20

/-- The kernel program's run: every weakly fair execution terminates without a fault, with the two results at the model's
    second-layer tables of the argument arrays, the arguments unchanged. -/
theorem run : θ_run defs (onTc (τ := τ) (main (F := Ideal))) ⟨m, fun _ => 0, ρ⟩ (fun r => ∀ c : Dev nD,
      r.2.mem ((c.tc : Thread nD τ).loc main_v186) = Cert.Model.author2 (kArgs m c)
      ∧ r.2.mem ((c.tc : Thread nD τ).loc main_v223) = Cert.Model.team2 (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (author2_at24 m ρ c), (h c).2.1.trans (team2_at24 m ρ c), (h c).2.2⟩)
    (run_results (F := Ideal) m ρ)

end Cert.KernelIdeal.Chain

end
-- ==== Proof.RefBridge.lean ====
/-
  The two dense per-node steps of a degree-normalised graph convolution as a host program spells them, equal to the
  index-by-index forms, over the extended reals.

  A host program has no "column" of degrees: it clamps the flat degree vector below by a broadcast one, takes the
  reciprocal square root, and broadcasts the result first to a column [n, 1] and then along the 128 features to the
  table's shape [n, 128], where it multiplies elementwise. Read at row p, feature q, that broadcast factor is
  1/√(max d_p 1) — the normalising factor of node p (factor_apply). Hence the scaled table is scaleRows
  (scale_bridge), and the scaled sums times the weights plus the bias row broadcast down the rows is finalRows
  (final_bridge), the matrix product being the plain sum over the 128 features.
-/
import Idealize.ShloMosaic.PureOps.Ideal.Laws
import Idealize.ShloMosaic.Lib.ValueIdx
import Idealize.ShloMosaic.Lib.Pipeline.Value
import proofs.«158240_j69793218560324_1_alg».proof.Proof.Spec
import proofs.«158240_j69793218560324_1_alg».proof.Proof.LibPlainDot

noncomputable section

open scoped BigOperators

namespace Cert.RefBridge

open Idealize.ShloMosaic Idealize.ShloMosaic.ValueIdx Cert.Spec

variable {n : Nat}

/-- The bias as a flat vector. -/
abbrev BiasFlat : Shape := ⟨1, ![128]⟩

/-- The flat degree vector clamped below by one, reciprocal square root, broadcast to the table's shape: at row p,
    feature q it is the normalising factor of node p. -/
theorem factor_apply (dg : FVec Ideal (Flat n) .f32)
    (h0 : (⟨0, ![]⟩ : Shape).BroadcastsInDim (Flat n) (![] : Fin 0 → Fin (Flat n).rank))
    (h1 : (Flat n).BroadcastsInDim (Col n) (![0] : Fin 1 → Fin (Col n).rank))
    (h2 : (Col n).BroadcastsInDim (Rows n) (![0, 1] : Fin 2 → Fin (Rows n).rank))
    (hc : (Flat n).ShapeCasts (Col n)) (p : Fin n) (q : Fin 128) :
    broadcastInDim (Rows n) ![0, 1] h2 (broadcastInDim (Col n) ![0] h1 (Host.rsqrt (maximumf dg
        (broadcastInDim (Flat n) ![] h0 (constant (F := Ideal) (⟨0, ![]⟩ : Shape) .f32 0x3F800000#32))))) (ix2 p q)
      = degScale (shapeCast (Col n) dg hc (ix2 p 0)) := by
  have hp := p.isLt
  rw [broadcastInDim_apply _ h2 _ (ix2 p q) (ix2 p 0) (fun a => by
      match a with
      | ⟨0, _⟩ => show p.val = if n = 1 then 0 else p.val; split <;> omega
      | ⟨1, _⟩ => rfl),
    broadcastInDim_apply _ h1 _ (ix2 p 0) (ix1 p) (fun a => by
      match a with
      | ⟨0, _⟩ => show p.val = if n = 1 then 0 else p.val; split <;> omega),
    shapeCast_apply dg hc (ix2 p 0) (ix1 p) (by rw [Shape.rowMajor_val_one, Shape.rowMajor_val_two]; show p.val = p.val * 1 + 0; omega)]
  rfl

/-- THE SOURCE-SIDE STEP: a table times the broadcast out-degree factor is the table with every row scaled. -/
theorem scale_bridge (x : FVec Ideal (Rows n) .f32) (dg : FVec Ideal (Flat n) .f32)
    (h0 : (⟨0, ![]⟩ : Shape).BroadcastsInDim (Flat n) (![] : Fin 0 → Fin (Flat n).rank))
    (h1 : (Flat n).BroadcastsInDim (Col n) (![0] : Fin 1 → Fin (Col n).rank))
    (h2 : (Col n).BroadcastsInDim (Rows n) (![0, 1] : Fin 2 → Fin (Rows n).rank))
    (hc : (Flat n).ShapeCasts (Col n)) :
    mulf x (broadcastInDim (Rows n) ![0, 1] h2 (broadcastInDim (Col n) ![0] h1 (Host.rsqrt (maximumf dg
        (broadcastInDim (Flat n) ![] h0 (constant (F := Ideal) (⟨0, ![]⟩ : Shape) .f32 0x3F800000#32))))))
      = scaleRows x (shapeCast (Col n) dg hc) := by
  funext i
  obtain ⟨p, q, rfl⟩ : ∃ p q, i = ix2 p q := ⟨i 0, i 1, eq_ix2 i⟩
  rw [mulf_apply, factor_apply dg h0 h1 h2 hc p q, scaleRows_apply]

/-- THE DESTINATION-SIDE STEP: the aggregated table times the broadcast in-degree factor, times the weights, plus the
    bias broadcast down the rows, is finalRows. -/
theorem final_bridge (d : DotDims (Rows n) Weights (Rows n))
    (e1 : d.lhsContracting = [1]) (e2 : d.rhsContracting = [0]) (e3 : d.lhsNonContracting = [0])
    (e4 : d.rhsNonContracting = [1]) (e5 : d.lhsBatch = []) (e6 : d.rhsBatch = [])
    (a : FVec Ideal (Rows n) .f32) (dg : FVec Ideal (Flat n) .f32) (w : FVec Ideal Weights .f32)
    (b : FVec Ideal BiasFlat .f32)
    (h0 : (⟨0, ![]⟩ : Shape).BroadcastsInDim (Flat n) (![] : Fin 0 → Fin (Flat n).rank))
    (h1 : (Flat n).BroadcastsInDim (Col n) (![0] : Fin 1 → Fin (Col n).rank))
    (h2 : (Col n).BroadcastsInDim (Rows n) (![0, 1] : Fin 2 → Fin (Rows n).rank))
    (h3 : BiasFlat.BroadcastsInDim BiasRow (![1] : Fin 1 → Fin BiasRow.rank))
    (h4 : BiasRow.BroadcastsInDim (Rows n) (![0, 1] : Fin 2 → Fin (Rows n).rank))
    (hc : (Flat n).ShapeCasts (Col n)) (hb : BiasFlat.ShapeCasts BiasRow) :
    addf (Host.dotGeneral d none (mulf a (broadcastInDim (Rows n) ![0, 1] h2 (broadcastInDim (Col n) ![0] h1
          (Host.rsqrt (maximumf dg (broadcastInDim (Flat n) ![] h0
            (constant (F := Ideal) (⟨0, ![]⟩ : Shape) .f32 0x3F800000#32))))))) w)
        (broadcastInDim (Rows n) ![0, 1] h4 (broadcastInDim BiasRow ![1] h3 b))
      = finalRows a (shapeCast (Col n) dg hc) w (shapeCast BiasRow b hb) := by
  funext i
  obtain ⟨p, q, rfl⟩ : ∃ p q, i = ix2 p q := ⟨i 0, i 1, eq_ix2 i⟩
  have hq := q.isLt
  rw [addf_apply, finalRows_apply]
  simp only [Host.dotGeneral]
  rw [Cert.PlainDot.dotGeneral_apply d e1 e2 e3 e4 e5 e6]
  congr 1
  · refine Finset.sum_congr rfl fun k _ => ?_
    rw [mulf_apply, factor_apply dg h0 h1 h2 hc p k]
  · rw [broadcastInDim_apply _ h4 _ (ix2 p q) (ix2 0 q) (fun c => by
        match c with
        | ⟨0, _⟩ => rfl
        | ⟨1, _⟩ => rfl),
      broadcastInDim_apply _ h3 _ (ix2 0 q) (ix1 q) (fun c => by
        match c with
        | ⟨0, _⟩ => rfl),
      shapeCast_apply b hb (ix2 0 q) (ix1 q) (by rw [Shape.rowMajor_val_one, Shape.rowMajor_val_two]; show q.val = 0 * 128 + q.val; omega)]

end Cert.RefBridge

end
-- ==== Proof.RefModel.lean ====
/-
  Each relation's convolution as the reference program spells it equals the model's convolution, over the extended reals.

  The reference program writes one convolution as a chain of host array operations on whole arrays: the two degree
  counts (scatter-add of ones at the wrapped source ends, at the wrapped destination ends), each clamped below by one,
  reciprocal square root, broadcast to the table's shape; the source table times the out-degree factor; gather along the
  source ends; scatter-add at the destination ends; times the in-degree factor; the matrix product with the weights;
  plus the bias broadcast down the rows. The model's convolution keeps the edge-level operations as they are and reads
  the two dense steps index by index (scaleRows, finalRows). The two dense steps agree (scale_bridge, final_bridge);
  what is left on both sides is the same chain of edge-level operations on the same operands.
-/
import proofs.«158240_j69793218560324_1_alg».proof.Proof.Gen.ReferenceIdeal
import proofs.«158240_j69793218560324_1_alg».proof.Proof.Model
import proofs.«158240_j69793218560324_1_alg».proof.Proof.RefBridge

set_option maxRecDepth 8192

noncomputable section

namespace Cert.ReferenceIdeal.RefModel

open Cert.ReferenceIdeal Cert.ReferenceIdeal.Gen Idealize.ShloMosaic

/-- The relation author to author, as the host program spells it: degree counts by scatter-add of ones, the source table
    times the broadcast out-degree factor, gather along the source ends, scatter-add at the destination ends, times the
    broadcast in-degree factor, times the weights, plus the broadcast bias. -/
theorem conv_aa_spelled (x : FVec Ideal S100000x128 .f32) (s d : IVec S1600000 32) (w : FVec Ideal S128x128 .f32) (b : FVec Ideal S128 .f32) :
    addf
      (Host.dotGeneral dot_S100000x128_S128x128_S100000x128_1_0_0_1_n_n none
        (mulf
          (Host.scatterAdd scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0
              (select (cmpi .slt d (broadcastInDim S1600000 ![] bcast_S_S1600000 (constantI S_ 32 0#32)))
                (addi d (broadcastInDim S1600000 ![] bcast_S_S1600000 (constantI S_ 32 100000#32))) d))
            (Host.gather gather_S100000x128_S1600000x1_S1600000x128_1_0_n_n_0_1_1128
              (mulf x
                (broadcastInDim S100000x128 ![0, 1] bcast_S100000x1_S100000x128_0_1
                  (broadcastInDim S100000x1 ![0] bcast_S100000_S100000x1_0
                    (Host.rsqrt
                      (maximumf
                        (Host.scatterAdd scatter_S100000_S1600000x1_S1600000_n_0_0_1
                          (broadcastInDim S100000 ![] bcast_S_S100000 (constant (F := Ideal) S_ .f32 0x00000000#32))
                          (broadcastInDim S1600000x1 ![0] bcast_S1600000_S1600000x1_0
                            (select (cmpi .slt s (broadcastInDim S1600000 ![] bcast_S_S1600000 (constantI S_ 32 0#32)))
                              (addi s (broadcastInDim S1600000 ![] bcast_S_S1600000 (constantI S_ 32 100000#32))) s))
                          (broadcastInDim S1600000 ![] bcast_S_S1600000 (constant (F := Ideal) S_ .f32 0x3F800000#32)))
                        (broadcastInDim S100000 ![] bcast_S_S100000 (constant (F := Ideal) S_ .f32 0x3F800000#32)))))))
              (broadcastInDim S1600000x1 ![0] bcast_S1600000_S1600000x1_0
                (select (cmpi .slt s (broadcastInDim S1600000 ![] bcast_S_S1600000 (constantI S_ 32 0#32)))
                  (addi s (broadcastInDim S1600000 ![] bcast_S_S1600000 (constantI S_ 32 100000#32))) s))))
          (broadcastInDim S100000x128 ![0, 1] bcast_S100000x1_S100000x128_0_1
            (broadcastInDim S100000x1 ![0] bcast_S100000_S100000x1_0
              (Host.rsqrt
                (maximumf
                  (Host.scatterAdd scatter_S100000_S1600000x1_S1600000_n_0_0_1
                    (broadcastInDim S100000 ![] bcast_S_S100000 (constant (F := Ideal) S_ .f32 0x00000000#32))
                    (broadcastInDim S1600000x1 ![0] bcast_S1600000_S1600000x1_0
                      (select (cmpi .slt d (broadcastInDim S1600000 ![] bcast_S_S1600000 (constantI S_ 32 0#32)))
                        (addi d (broadcastInDim S1600000 ![] bcast_S_S1600000 (constantI S_ 32 100000#32))) d))
                    (broadcastInDim S1600000 ![] bcast_S_S1600000 (constant (F := Ideal) S_ .f32 0x3F800000#32)))
                  (broadcastInDim S100000 ![] bcast_S_S100000 (constant (F := Ideal) S_ .f32 0x3F800000#32)))))))
        w)
      (broadcastInDim S100000x128 ![0, 1] bcast_S1x128_S100000x128_0_1 (broadcastInDim S1x128 ![1] bcast_S128_S1x128_1 b))
      = Cert.Model.conv_aa x s d w b := by
  unfold Cert.Model.conv_aa
  rw [← Cert.RefBridge.scale_bridge (n := 100000) x (Cert.Model.outDeg_aa s) bcast_S_S100000 bcast_S100000_S100000x1_0 bcast_S100000x1_S100000x128_0_1,
    ← Cert.RefBridge.final_bridge (n := 100000) dot_S100000x128_S128x128_S100000x128_1_0_0_1_n_n rfl rfl rfl rfl rfl rfl _ (Cert.Model.inDeg_aa d) w b
        bcast_S_S100000 bcast_S100000_S100000x1_0 bcast_S100000x1_S100000x128_0_1 bcast_S128_S1x128_1 bcast_S1x128_S100000x128_0_1]
  rfl

/-- The relation team to author, spelled the same way: 25000 source rows, 100000 destination rows. -/
theorem conv_ta_spelled (x : FVec Ideal S25000x128 .f32) (s d : IVec S400000 32) (w : FVec Ideal S128x128 .f32) (b : FVec Ideal S128 .f32) :
    addf
      (Host.dotGeneral dot_S100000x128_S128x128_S100000x128_1_0_0_1_n_n none
        (mulf
          (Host.scatterAdd scatter_S100000x128_S400000x1_S400000x128_1_0_0_1
            (broadcastInDim S100000x128 ![] bcast_S_S100000x128 (constant (F := Ideal) S_ .f32 0x00000000#32))
            (broadcastInDim S400000x1 ![0] bcast_S400000_S400000x1_0
              (select (cmpi .slt d (broadcastInDim S400000 ![] bcast_S_S400000 (constantI S_ 32 0#32)))
                (addi d (broadcastInDim S400000 ![] bcast_S_S400000 (constantI S_ 32 100000#32))) d))
            (Host.gather gather_S25000x128_S400000x1_S400000x128_1_0_n_n_0_1_1128
              (mulf x
                (broadcastInDim S25000x128 ![0, 1] bcast_S25000x1_S25000x128_0_1
                  (broadcastInDim S25000x1 ![0] bcast_S25000_S25000x1_0
                    (Host.rsqrt
                      (maximumf
                        (Host.scatterAdd scatter_S25000_S400000x1_S400000_n_0_0_1
                          (broadcastInDim S25000 ![] bcast_S_S25000 (constant (F := Ideal) S_ .f32 0x00000000#32))
                          (broadcastInDim S400000x1 ![0] bcast_S400000_S400000x1_0
                            (select (cmpi .slt s (broadcastInDim S400000 ![] bcast_S_S400000 (constantI S_ 32 0#32)))
                              (addi s (broadcastInDim S400000 ![] bcast_S_S400000 (constantI S_ 32 25000#32))) s))
                          (broadcastInDim S400000 ![] bcast_S_S400000 (constant (F := Ideal) S_ .f32 0x3F800000#32)))
                        (broadcastInDim S25000 ![] bcast_S_S25000 (constant (F := Ideal) S_ .f32 0x3F800000#32)))))))
              (broadcastInDim S400000x1 ![0] bcast_S400000_S400000x1_0
                (select (cmpi .slt s (broadcastInDim S400000 ![] bcast_S_S400000 (constantI S_ 32 0#32)))
                  (addi s (broadcastInDim S400000 ![] bcast_S_S400000 (constantI S_ 32 25000#32))) s))))
          (broadcastInDim S100000x128 ![0, 1] bcast_S100000x1_S100000x128_0_1
            (broadcastInDim S100000x1 ![0] bcast_S100000_S100000x1_0
              (Host.rsqrt
                (maximumf
                  (Host.scatterAdd scatter_S100000_S400000x1_S400000_n_0_0_1
                    (broadcastInDim S100000 ![] bcast_S_S100000 (constant (F := Ideal) S_ .f32 0x00000000#32))
                    (broadcastInDim S400000x1 ![0] bcast_S400000_S400000x1_0
                      (select (cmpi .slt d (broadcastInDim S400000 ![] bcast_S_S400000 (constantI S_ 32 0#32)))
                        (addi d (broadcastInDim S400000 ![] bcast_S_S400000 (constantI S_ 32 100000#32))) d))
                    (broadcastInDim S400000 ![] bcast_S_S400000 (constant (F := Ideal) S_ .f32 0x3F800000#32)))
                  (broadcastInDim S100000 ![] bcast_S_S100000 (constant (F := Ideal) S_ .f32 0x3F800000#32)))))))
        w)
      (broadcastInDim S100000x128 ![0, 1] bcast_S1x128_S100000x128_0_1 (broadcastInDim S1x128 ![1] bcast_S128_S1x128_1 b))
      = Cert.Model.conv_ta x s d w b := by
  unfold Cert.Model.conv_ta
  rw [← Cert.RefBridge.scale_bridge (n := 25000) x (Cert.Model.outDeg_ta s) bcast_S_S25000 bcast_S25000_S25000x1_0 bcast_S25000x1_S25000x128_0_1,
    ← Cert.RefBridge.final_bridge (n := 100000) dot_S100000x128_S128x128_S100000x128_1_0_0_1_n_n rfl rfl rfl rfl rfl rfl _ (Cert.Model.inDeg_ta d) w b
        bcast_S_S100000 bcast_S100000_S100000x1_0 bcast_S100000x1_S100000x128_0_1 bcast_S128_S1x128_1 bcast_S1x128_S100000x128_0_1]
  rfl

/-- The relation author to team, spelled the same way: 100000 source rows, 25000 destination rows. -/
theorem conv_at_spelled (x : FVec Ideal S100000x128 .f32) (s d : IVec S400000 32) (w : FVec Ideal S128x128 .f32) (b : FVec Ideal S128 .f32) :
    addf
      (Host.dotGeneral dot_S25000x128_S128x128_S25000x128_1_0_0_1_n_n none
        (mulf
          (Host.scatterAdd scatter_S25000x128_S400000x1_S400000x128_1_0_0_1
            (broadcastInDim S25000x128 ![] bcast_S_S25000x128 (constant (F := Ideal) S_ .f32 0x00000000#32))
            (broadcastInDim S400000x1 ![0] bcast_S400000_S400000x1_0
              (select (cmpi .slt d (broadcastInDim S400000 ![] bcast_S_S400000 (constantI S_ 32 0#32)))
                (addi d (broadcastInDim S400000 ![] bcast_S_S400000 (constantI S_ 32 25000#32))) d))
            (Host.gather gather_S100000x128_S400000x1_S400000x128_1_0_n_n_0_1_1128
              (mulf x
                (broadcastInDim S100000x128 ![0, 1] bcast_S100000x1_S100000x128_0_1
                  (broadcastInDim S100000x1 ![0] bcast_S100000_S100000x1_0
                    (Host.rsqrt
                      (maximumf
                        (Host.scatterAdd scatter_S100000_S400000x1_S400000_n_0_0_1
                          (broadcastInDim S100000 ![] bcast_S_S100000 (constant (F := Ideal) S_ .f32 0x00000000#32))
                          (broadcastInDim S400000x1 ![0] bcast_S400000_S400000x1_0
                            (select (cmpi .slt s (broadcastInDim S400000 ![] bcast_S_S400000 (constantI S_ 32 0#32)))
                              (addi s (broadcastInDim S400000 ![] bcast_S_S400000 (constantI S_ 32 100000#32))) s))
                          (broadcastInDim S400000 ![] bcast_S_S400000 (constant (F := Ideal) S_ .f32 0x3F800000#32)))
                        (broadcastInDim S100000 ![] bcast_S_S100000 (constant (F := Ideal) S_ .f32 0x3F800000#32)))))))
              (broadcastInDim S400000x1 ![0] bcast_S400000_S400000x1_0
                (select (cmpi .slt s (broadcastInDim S400000 ![] bcast_S_S400000 (constantI S_ 32 0#32)))
                  (addi s (broadcastInDim S400000 ![] bcast_S_S400000 (constantI S_ 32 100000#32))) s))))
          (broadcastInDim S25000x128 ![0, 1] bcast_S25000x1_S25000x128_0_1
            (broadcastInDim S25000x1 ![0] bcast_S25000_S25000x1_0
              (Host.rsqrt
                (maximumf
                  (Host.scatterAdd scatter_S25000_S400000x1_S400000_n_0_0_1
                    (broadcastInDim S25000 ![] bcast_S_S25000 (constant (F := Ideal) S_ .f32 0x00000000#32))
                    (broadcastInDim S400000x1 ![0] bcast_S400000_S400000x1_0
                      (select (cmpi .slt d (broadcastInDim S400000 ![] bcast_S_S400000 (constantI S_ 32 0#32)))
                        (addi d (broadcastInDim S400000 ![] bcast_S_S400000 (constantI S_ 32 25000#32))) d))
                    (broadcastInDim S400000 ![] bcast_S_S400000 (constant (F := Ideal) S_ .f32 0x3F800000#32)))
                  (broadcastInDim S25000 ![] bcast_S_S25000 (constant (F := Ideal) S_ .f32 0x3F800000#32)))))))
        w)
      (broadcastInDim S25000x128 ![0, 1] bcast_S1x128_S25000x128_0_1 (broadcastInDim S1x128 ![1] bcast_S128_S1x128_1 b))
      = Cert.Model.conv_at x s d w b := by
  unfold Cert.Model.conv_at
  rw [← Cert.RefBridge.scale_bridge (n := 100000) x (Cert.Model.outDeg_at s) bcast_S_S100000 bcast_S100000_S100000x1_0 bcast_S100000x1_S100000x128_0_1,
    ← Cert.RefBridge.final_bridge (n := 25000) dot_S25000x128_S128x128_S25000x128_1_0_0_1_n_n rfl rfl rfl rfl rfl rfl _ (Cert.Model.inDeg_at d) w b
        bcast_S_S25000 bcast_S25000_S25000x1_0 bcast_S25000x1_S25000x128_0_1 bcast_S128_S1x128_1 bcast_S1x128_S25000x128_0_1]
  rfl

end Cert.ReferenceIdeal.RefModel

end
-- ==== Proof.RefValue.lean ====
/-
  The reference program's run read against the model: its two results are the model's two-layer graph convolution of
  the fourteen argument arrays, over the extended reals.

  The reference's run ends with each result at the composed term of its host operations applied to the launch arrays.
  That term is built from six convolutions, each spelled as a chain of host array operations: the first layer's authors
  (author to author plus team to author, on the launch tables) and teams (author to team), then the same three on the
  first layer's tables. Each spelled convolution is the model's (conv_aa_spelled, conv_ta_spelled, conv_at_spelled), so
  the first layer's authors are the model's (author1_eq), and rewriting the six convolutions in the two results' terms
  leaves the model's author2 and team2 of the launch arrays.
-/
import proofs.«158240_j69793218560324_1_alg».proof.Proof.Gen.ReferenceIdeal.Run
import proofs.«158240_j69793218560324_1_alg».proof.Proof.RefModel

set_option maxRecDepth 8192

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The reference's fourteen argument arrays on core c: the two node tables, the three edge lists (source ends,
    destination ends), the three weight matrices with their biases. -/
def refArgs (m : (ℓ : Loc nD τ sig) → Buf (Elt Ideal) ℓ) (c : Dev nD) : Cert.Model.Args :=
  ⟨m ((c.tc : Thread nD τ).loc main_arg0), m ((c.tc : Thread nD τ).loc main_arg1), m ((c.tc : Thread nD τ).loc main_arg2), m ((c.tc : Thread nD τ).loc main_arg3),
   m ((c.tc : Thread nD τ).loc main_arg4), m ((c.tc : Thread nD τ).loc main_arg5), m ((c.tc : Thread nD τ).loc main_arg6), m ((c.tc : Thread nD τ).loc main_arg7),
   m ((c.tc : Thread nD τ).loc main_arg8), m ((c.tc : Thread nD τ).loc main_arg9), m ((c.tc : Thread nD τ).loc main_arg10),
   m ((c.tc : Thread nD τ).loc main_arg11), m ((c.tc : Thread nD τ).loc main_arg12), m ((c.tc : Thread nD τ).loc main_arg13)⟩

/-- The authors after the first layer: the sum of the author-to-author and team-to-author convolutions of the launch
    tables. -/
theorem author1_eq (m : (ℓ : Loc nD τ sig) → Buf (Elt Ideal) ℓ) (c : Dev nD) :
    Value.res_main_v96 (F := Ideal) (launchContents m c) = Cert.Model.author1 (refArgs m c) := by
  unfold Value.res_main_v96
  simp only [Value.res_main_v0, Value.res_main_v48]
  rw [RefModel.conv_aa_spelled, RefModel.conv_ta_spelled]
  rfl

/-- THE REFERENCE'S RUN AGAINST THE MODEL: every weakly fair execution terminates with the first result the authors
    after two layers, the second the teams after two layers, as functions of the fourteen launch arrays, which are
    left unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v241) = Cert.Model.author2 (refArgs m c)
      ∧ r.2.mem ((c.tc : Thread nD τ).loc main_v289) = Cert.Model.team2 (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run (defs (F := Ideal)) _ _).mono (fun _ h c => ?_) (Value.run (F := Ideal) m ρ)
  refine ⟨(h c).1.trans ?_, (h c).2.1.trans ?_, (h c).2.2⟩
  · -- the second layer's authors: author-to-author on the first layer's authors, team-to-author on its teams
    simp only [Value.res_main_v145, Value.res_main_v193, Value.res_main_v230, Value.res_main_v97]
    rw [author1_eq, RefModel.conv_at_spelled, RefModel.conv_aa_spelled, RefModel.conv_ta_spelled]
    rfl
  · -- the second layer's teams: author-to-team on the first layer's authors
    simp only [Value.res_main_v242]
    rw [author1_eq, RefModel.conv_at_spelled]
    rfl

end Cert.ReferenceIdeal.RefValue

end
-- ==== Proof.lean ====
/-
  The certificate: a two-layer graph network over two node types and three relations, as a Pallas program with twelve
  kernel launches, against its array-level reference, over the extended reals.

  Both programs count degrees, gather and scatter-add along the edges with the same host operations. They differ in the
  dense per-node work: the kernel program scales rows by 1/√(max degree 1) inside one kernel, and scales, multiplies by the
  weights and adds the bias inside another, block of 5000 rows by block; the reference does the same with whole-array
  operations. Index by index both are the model's convolution (Model.lean): the kernel program's results are read off
  its run region by region (KValue.lean), the reference's off its run (RefValue.lean), and the two runs start from
  memories that agree on the fourteen argument arrays. The equality uses no law of the extended reals beyond reading a
  matrix product as a sum over the contracted axis on both sides, so the finiteness precondition is not opened.
  The ideal pass rewrote nothing, so the idealized kernel program is the printed one read at the extended reals.
-/
import proofs.«158240_j69793218560324_1_alg».proof.Defs
import proofs.«158240_j69793218560324_1_alg».proof.Proof.Gen.Kernel
import proofs.«158240_j69793218560324_1_alg».proof.Proof.Gen.Kernel.Frame
import proofs.«158240_j69793218560324_1_alg».proof.Proof.Gen.KernelIdeal
import proofs.«158240_j69793218560324_1_alg».proof.Proof.Gen.KernelIdeal.Frame
import proofs.«158240_j69793218560324_1_alg».proof.Proof.Gen.ReferenceIdeal
import proofs.«158240_j69793218560324_1_alg».proof.Proof.Gen.ReferenceIdeal.Run
import proofs.«158240_j69793218560324_1_alg».proof.Proof.Gen.Pre_finite_inputs
import proofs.«158240_j69793218560324_1_alg».proof.Proof.KValue
import proofs.«158240_j69793218560324_1_alg».proof.Proof.RefValue
import Idealize.ShloMosaic.Adequacy
import Idealize.ShloMosaic.Init

noncomputable section

namespace Cert.Proof

open Idealize.ShloMosaic Idealize.SL.Sem

/-- The kernel program as printed terminates, faults nowhere and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Memories that agree on the argument arrays give the two programs the same model arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.refArgs m' c = Cert.KernelIdeal.Chain.kArgs m c := by
  obtain ⟨h0, h1, h2, h3, h4, h5, h6, h7, h8, h9, h10, h11, h12, h13⟩ := h
  unfold Cert.ReferenceIdeal.RefValue.refArgs Cert.KernelIdeal.Chain.kArgs
  rw [h0, h1, h2, h3, h4, h5, h6, h7, h8, h9, h10, h11, h12, h13]

/-- The two programs' results are the model's second-layer tables of the same arguments. -/
theorem algebraic : Cert.algebraic_KernelIdeal_ReferenceIdeal := by
  intro m ρ m' ρ' _ hagree
  refine ⟨fun c => Cert.Model.author2 (Cert.KernelIdeal.Chain.kArgs m c),
    fun c => Cert.Model.team2 (Cert.KernelIdeal.Chain.kArgs m c), Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · rw [args_agree m m' c (hagree c)]
  · rw [args_agree m m' c (hagree c)]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
